-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v249)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v249) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v399) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S5x64 : Shape := ⟨2, ![5, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S5x64 : S_.BroadcastsInDim S5x64 (![] : Fin 0 → Fin S5x64.rank)
  reducesTo_S5x64_S_d0_1 : S5x64.ReducesTo [0, 1] S_

variable [Facts]

def fn_part6 {F : FTy → Type} [FloatOps F] (main_v98 : IVec S_ 1) (main_v101 : IVec S5x64 1) (main_c_39 : IVec S_ 1) : IVec S_ 1 :=
  let main_v102 : IVec S_ 1 := (fun x v => Host.reduce IntOp.andi x v reducesTo_S5x64_S_d0_1 h_S_) main_v101 main_c_39
  let main_v103 : IVec S_ 1 := andi main_v98 main_v102
  main_v103

def fn_part5 {F : FTy → Type} [FloatOps F] (main_arg20 : FVec F S5x64 .f32) (main_arg21 : FVec F S5x64 .f32) (main_arg22 : FVec F S5x64 .f32) (main_v83 : IVec S_ 1) (main_v84 : FVec F S5x64 .f32) (main_cst_32 : FVec F S_ .f32) : IVec S_ 1 :=
  let main_v85 : FVec F S5x64 .f32 := broadcastInDim S5x64 ![] bcast_S_S5x64 main_cst_32
  let main_v86 : IVec S5x64 1 := cmpf .olt main_v84 main_v85
  let main_c_33 : IVec S_ 1 := constantI S_ 1 1#1
  let main_v87 : IVec S_ 1 := (fun x v => Host.reduce IntOp.andi x v reducesTo_S5x64_S_d0_1 h_S_) main_v86 main_c_33
  let main_v88 : IVec S_ 1 := andi main_v83 main_v87
  let main_v89 : FVec F S5x64 .f32 := Host.absf main_arg20
  let main_cst_34 : FVec F S_ .f32 := constant S_ .f32 0x7F800000#32
  let main_v90 : FVec F S5x64 .f32 := broadcastInDim S5x64 ![] bcast_S_S5x64 main_cst_34
  let main_v91 : IVec S5x64 1 := cmpf .olt main_v89 main_v90
  let main_c_35 : IVec S_ 1 := constantI S_ 1 1#1
  let main_v92 : IVec S_ 1 := (fun x v => Host.reduce IntOp.andi x v reducesTo_S5x64_S_d0_1 h_S_) main_v91 main_c_35
  let main_v93 : IVec S_ 1 := andi main_v88 main_v92
  let main_v94 : FVec F S5x64 .f32 := Host.absf main_arg21
  let main_cst_36 : FVec F S_ .f32 := constant S_ .f32 0x7F800000#32
  let main_v95 : FVec F S5x64 .f32 := broadcastInDim S5x64 ![] bcast_S_S5x64 main_cst_36
  let main_v96 : IVec S5x64 1 := cmpf .olt main_v94 main_v95
  let main_c_37 : IVec S_ 1 := constantI S_ 1 1#1
  let main_v97 : IVec S_ 1 := (fun x v => Host.reduce IntOp.andi x v reducesTo_S5x64_S_d0_1 h_S_) main_v96 main_c_37
  let main_v98 : IVec S_ 1 := andi main_v93 main_v97
  let main_v99 : FVec F S5x64 .f32 := Host.absf main_arg22
  let main_cst_38 : FVec F S_ .f32 := constant S_ .f32 0x7F800000#32
  let main_v100 : FVec F S5x64 .f32 := broadcastInDim S5x64 ![] bcast_S_S5x64 main_cst_38
  let main_v101 : IVec S5x64 1 := cmpf .olt main_v99 main_v100
  let main_c_39 : IVec S_ 1 := constantI S_ 1 1#1
  fn_part6 (F := F) main_v98 main_v101 main_c_39

def fn_part4 {F : FTy → Type} [FloatOps F] (main_arg16 : FVec F S4x128 .f32) (main_arg17 : FVec F S4x128x64 .f32) (main_arg18 : FVec F S4x64 .f32) (main_arg19 : FVec F S5x64 .f32) (main_arg20 : FVec F S5x64 .f32) (main_arg21 : FVec F S5x64 .f32) (main_arg22 : FVec F S5x64 .f32) (main_v63 : IVec S_ 1) (main_v67 : IVec S_ 1) : IVec S_ 1 :=
  let main_v68 : IVec S_ 1 := andi main_v63 main_v67
  let main_v69 : FVec F S4x128 .f32 := Host.absf main_arg16
  let main_cst_26 : FVec F S_ .f32 := constant S_ .f32 0x7F800000#32
  let main_v70 : FVec F S4x128 .f32 := broadcastInDim S4x128 ![] bcast_S_S4x128 main_cst_26
  let main_v71 : IVec S4x128 1 := cmpf .olt main_v69 main_v70
  let main_c_27 : IVec S_ 1 := constantI S_ 1 1#1
  let main_v72 : IVec S_ 1 := (fun x v => Host.reduce IntOp.andi x v reducesTo_S4x128_S_d0_1 h_S_) main_v71 main_c_27
  let main_v73 : IVec S_ 1 := andi main_v68 main_v72
  let main_v74 : FVec F S4x128x64 .f32 := Host.absf main_arg17
  let main_cst_28 : FVec F S_ .f32 := constant S_ .f32 0x7F800000#32
  let main_v75 : FVec F S4x128x64 .f32 := broadcastInDim S4x128x64 ![] bcast_S_S4x128x64 main_cst_28
  let main_v76 : IVec S4x128x64 1 := cmpf .olt main_v74 main_v75
  let main_c_29 : IVec S_ 1 := constantI S_ 1 1#1
  let main_v77 : IVec S_ 1 := (fun x v => Host.reduce IntOp.andi x v reducesTo_S4x128x64_S_d0_1_2 h_S_) main_v76 main_c_29
  let main_v78 : IVec S_ 1 := andi main_v73 main_v77
  let main_v79 : FVec F S4x64 .f32 := Host.absf main_arg18
  let main_cst_30 : FVec F S_ .f32 := constant S_ .f32 0x7F800000#32
  let main_v80 : FVec F S4x64 .f32 := broadcastInDim S4x64 ![] bcast_S_S4x64 main_cst_30
  let main_v81 : IVec S4x64 1 := cmpf .olt main_v79 main_v80
  let main_c_31 : IVec S_ 1 := constantI S_ 1 1#1
  let main_v82 : IVec S_ 1 := (fun x v => Host.reduce IntOp.andi x v reducesTo_S4x64_S_d0_1 h_S_) main_v81 main_c_31
  let main_v83 : IVec S_ 1 := andi main_v78 main_v82
  let main_v84 : FVec F S5x64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S4x128 .f32) (main_arg14 : FVec F S4x128 .f32) (main_arg15 : FVec F S4x128 .f32) (main_arg16 : FVec F S4x128 .f32) (main_arg17 : FVec F S4x128x64 .f32) (main_arg18 : FVec F S4x64 .f32) (main_arg19 : FVec F S5x64 .f32) (main_arg20 : FVec F S5x64 .f32) (main_arg21 : FVec F S5x64 .f32) (main_arg22 : FVec F S5x64 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg14
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg15
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x64 .f32) (main_arg10 : FVec F S64 .f32) (main_arg11 : FVec F S4x64x128 .f32) (main_arg12 : FVec F S4x128 .f32) (main_arg13 : FVec F S4x128 .f32) (main_arg14 : FVec F S4x128 .f32) (main_arg15 : FVec F S4x128 .f32) (main_arg16 : FVec F S4x128 .f32) (main_arg17 : FVec F S4x128x64 .f32) (main_arg18 : FVec F S4x64 .f32) (main_arg19 : FVec F S5x64 .f32) (main_arg20 : FVec F S5x64 .f32) (main_arg21 : FVec F S5x64 .f32) (main_arg22 : FVec F S5x64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S4x64x128 .f32 := Host.absf main_arg11
  let main_cst_16 : FVec F S_ .f32 := constant S_ .f32 0x7F800000#32
  let main_v45 : FVec F S4x64x128 .f32 := broadcastInDim S4x64x128 ![] bcast_S_S4x64x128 main_cst_16
  let main_v46 : IVec S4x64x128 1 := cmpf .olt main_v44 main_v45
  let main_c_17 : IVec S_ 1 := constantI S_ 1 1#1
  let main_v47 : IVec S_ 1 := (fun x v => Host.reduce IntOp.andi x v reducesTo_S4x64x128_S_d0_1_2 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x64 .f32) (main_arg10 : FVec F S64 .f32) (main_arg11 : FVec F S4x64x128 .f32) (main_arg12 : FVec F S4x128 .f32) (main_arg13 : FVec F S4x128 .f32) (main_arg14 : FVec F S4x128 .f32) (main_arg15 : FVec F S4x128 .f32) (main_arg16 : FVec F S4x128 .f32) (main_arg17 : FVec F S4x128x64 .f32) (main_arg18 : FVec F S4x64 .f32) (main_arg19 : FVec F S5x64 .f32) (main_arg20 : FVec F S5x64 .f32) (main_arg21 : FVec F S5x64 .f32) (main_arg22 : FVec F S5x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x64 .f32) (main_arg10 : FVec F S64 .f32) (main_arg11 : FVec F S4x64x128 .f32) (main_arg12 : FVec F S4x128 .f32) (main_arg13 : FVec F S4x128 .f32) (main_arg14 : FVec F S4x128 .f32) (main_arg15 : FVec F S4x128 .f32) (main_arg16 : FVec F S4x128 .f32) (main_arg17 : FVec F S4x128x64 .f32) (main_arg18 : FVec F S4x64 .f32) (main_arg19 : FVec F S5x64 .f32) (main_arg20 : FVec F S5x64 .f32) (main_arg21 : FVec F S5x64 .f32) (main_arg22 : FVec F S5x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S5x64 : Shape := ⟨2, ![5, 64]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S5000x128 : Shape := ⟨2, ![5000, 128]⟩
abbrev S5000x64 : Shape := ⟨2, ![5000, 64]⟩
abbrev S1x64x128 : Shape := ⟨3, ![1, 64, 128]⟩
abbrev S64x128 : Shape := ⟨2, ![64, 128]⟩
abbrev S1x128x64 : Shape := ⟨3, ![1, 128, 64]⟩
abbrev S800000x64 : Shape := ⟨2, ![800000, 64]⟩
abbrev S50000x1 : Shape := ⟨2, ![50000, 1]⟩
abbrev S128x1 : Shape := ⟨2, ![128, 1]⟩

abbrev nBuf : Space → Nat
  | .hbm => 302
  | .vmem => 90
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x64, .f32⟩
  | 10 => ⟨S64, .f32⟩
  | 11 => ⟨S4x64x128, .f32⟩
  | 12 => ⟨S4x128, .f32⟩
  | 13 => ⟨S4x128, .f32⟩
  | 14 => ⟨S4x128, .f32⟩
  | 15 => ⟨S4x128, .f32⟩
  | 16 => ⟨S4x128, .f32⟩
  | 17 => ⟨S4x128x64, .f32⟩
  | 18 => ⟨S4x64, .f32⟩
  | 19 => ⟨S5x64, .f32⟩
  | 20 => ⟨S5x64, .f32⟩
  | 21 => ⟨S5x64, .f32⟩
  | 22 => ⟨S5x64, .f32⟩
  | 23 => ⟨S1x800000, .i32⟩
  | 24 => ⟨S800000, .i32⟩
  | 25 => ⟨S1x800000, .i32⟩
  | 26 => ⟨S800000, .i32⟩
  | 27 => ⟨S1x64, .f32⟩
  | 28 => ⟨S64, .f32⟩
  | 29 => ⟨S1x64, .f32⟩
  | 30 => ⟨S64, .f32⟩
  | 31 => ⟨S1x64, .f32⟩
  | 32 => ⟨S64, .f32⟩
  | 33 => ⟨S1x64, .f32⟩
  | 34 => ⟨S64, .f32⟩
  | 35 => ⟨S_, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S50000x128, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S1x64, .f32⟩
  | 61 => ⟨S1x64, .f32⟩
  | 62 => ⟨S1x64, .f32⟩
  | 63 => ⟨S1x64, .f32⟩
  | 64 => ⟨S1x64, .f32⟩
  | 65 => ⟨S50000x64, .f32⟩
  | 66 => ⟨S1x64x128, .f32⟩
  | 67 => ⟨S64x128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128x64, .f32⟩
  | 79 => ⟨S128x64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S64, .f32⟩
  | 88 => ⟨S1x64, .f32⟩
  | 89 => ⟨S64, .f32⟩
  | 90 => ⟨S_, .f32⟩
  | 91 => ⟨S50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S50000x64, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S1x64, .f32⟩
  | 116 => ⟨S1x64, .f32⟩
  | 117 => ⟨S1x64, .f32⟩
  | 118 => ⟨S1x64, .f32⟩
  | 119 => ⟨S1x64, .f32⟩
  | 120 => ⟨S50000x64, .f32⟩
  | 121 => ⟨S1x64x128, .f32⟩
  | 122 => ⟨S64x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128x64, .f32⟩
  | 6 => ⟨S128x64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S64, .f32⟩
  | 13 => ⟨S1x64, .f32⟩
  | 14 => ⟨S64, .f32⟩
  | 15 => ⟨S1x64, .f32⟩
  | 16 => ⟨S64, .f32⟩
  | 17 => ⟨S_, .f32⟩
  | 18 => ⟨S50000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S50000x64, .f32⟩
  | 37 => ⟨S1x128, .f32⟩
  | 38 => ⟨S1x128, .f32⟩
  | 39 => ⟨S1x128, .f32⟩
  | 40 => ⟨S1x128, .f32⟩
  | 41 => ⟨S1x128, .f32⟩
  | 42 => ⟨S1x64, .f32⟩
  | 43 => ⟨S1x64, .f32⟩
  | 44 => ⟨S1x64, .f32⟩
  | 45 => ⟨S1x64, .f32⟩
  | 46 => ⟨S1x64, .f32⟩
  | 47 => ⟨S50000x64, .f32⟩
  | 48 => ⟨S1x64x128, .f32⟩
  | 49 => ⟨S64x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128x64, .f32⟩
  | 61 => ⟨S128x64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S64, .f32⟩
  | 72 => ⟨S_, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S50000x64, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S1x64, .f32⟩
  | 98 => ⟨S1x64, .f32⟩
  | 99 => ⟨S1x64, .f32⟩
  | 100 => ⟨S1x64, .f32⟩
  | 101 => ⟨S1x64, .f32⟩
  | 102 => ⟨S50000x64, .f32⟩
  | 103 => ⟨S1x64x128, .f32⟩
  | 104 => ⟨S64x128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128x64, .f32⟩
  | 116 => ⟨S128x64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S64, .f32⟩
  | 127 => ⟨S_, .f32⟩
  | _ => ⟨S50000x128, .f32⟩

abbrev hbmTy0_2 (i : Nat) : BufTy := match i % 128 with
  | 0 => ⟨S50000x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S50000x64, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S1x64, .f32⟩
  | 25 => ⟨S1x64, .f32⟩
  | 26 => ⟨S1x64, .f32⟩
  | 27 => ⟨S1x64, .f32⟩
  | 28 => ⟨S1x64, .f32⟩
  | 29 => ⟨S50000x64, .f32⟩
  | 30 => ⟨S_, .f32⟩
  | 31 => ⟨S128x64, .f32⟩
  | 32 => ⟨S50000x1, .i32⟩
  | 33 => ⟨S128x64, .f32⟩
  | 34 => ⟨S_, .f32⟩
  | 35 => ⟨S50000, .f32⟩
  | 36 => ⟨S_, .f32⟩
  | 37 => ⟨S128, .f32⟩
  | 38 => ⟨S50000x1, .i32⟩
  | 39 => ⟨S128, .f32⟩
  | 40 => ⟨S_, .f32⟩
  | 41 => ⟨S128, .f32⟩
  | 42 => ⟨S128, .f32⟩
  | 43 => ⟨S128x1, .f32⟩
  | 44 => ⟨S128x64, .f32⟩
  | 45 => ⟨S128x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S128x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S64x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S128x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S5000x64, .f32⟩
  | .local _ .vmem, ⟨89, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_1 : Ref sig .tc := ⟨.hbm, 46, rfl⟩
abbrev main_v20 : Ref sig .tc := ⟨.hbm, 47, rfl⟩
abbrev main_v21 : Ref sig .tc := ⟨.hbm, 48, rfl⟩
abbrev main_c_2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_3 : Ref sig .tc := ⟨.hbm, 90, rfl⟩
abbrev main_v62 : Ref sig .tc := ⟨.hbm, 91, rfl⟩
abbrev main_c_4 : Ref sig .tc := ⟨.hbm, 92, rfl⟩
abbrev main_v63 : Ref sig .tc := ⟨.hbm, 93, rfl⟩
abbrev main_v64 : Ref sig .tc := ⟨.hbm, 94, rfl⟩
abbrev main_c_5 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_6 : Ref sig .tc := ⟨.hbm, 101, rfl⟩
abbrev main_v70 : Ref sig .tc := ⟨.hbm, 102, rfl⟩
abbrev main_v71 : Ref sig .tc := ⟨.hbm, 103, rfl⟩
abbrev main_c_7 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_8 : Ref sig .tc := ⟨.hbm, 145, rfl⟩
abbrev main_v112 : Ref sig .tc := ⟨.hbm, 146, rfl⟩
abbrev main_c_9 : Ref sig .tc := ⟨.hbm, 147, rfl⟩
abbrev main_v113 : Ref sig .tc := ⟨.hbm, 148, rfl⟩
abbrev main_v114 : Ref sig .tc := ⟨.hbm, 149, rfl⟩
abbrev main_c_10 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_11 : Ref sig .tc := ⟨.hbm, 156, rfl⟩
abbrev main_v120 : Ref sig .tc := ⟨.hbm, 157, rfl⟩
abbrev main_v121 : Ref sig .tc := ⟨.hbm, 158, rfl⟩
abbrev main_c_12 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_13 : Ref sig .tc := ⟨.hbm, 200, rfl⟩
abbrev main_v162 : Ref sig .tc := ⟨.hbm, 201, rfl⟩
abbrev main_c_14 : Ref sig .tc := ⟨.hbm, 202, rfl⟩
abbrev main_v163 : Ref sig .tc := ⟨.hbm, 203, rfl⟩
abbrev main_v164 : Ref sig .tc := ⟨.hbm, 204, rfl⟩
abbrev main_c_15 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_c_16 : Ref sig .tc := ⟨.hbm, 211, rfl⟩
abbrev main_v170 : Ref sig .tc := ⟨.hbm, 212, rfl⟩
abbrev main_v171 : Ref sig .tc := ⟨.hbm, 213, rfl⟩
abbrev main_c_17 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_cst_18 : Ref sig .tc := ⟨.hbm, 255, rfl⟩
abbrev main_v212 : Ref sig .tc := ⟨.hbm, 256, rfl⟩
abbrev main_c_19 : Ref sig .tc := ⟨.hbm, 257, rfl⟩
abbrev main_v213 : Ref sig .tc := ⟨.hbm, 258, rfl⟩
abbrev main_v214 : Ref sig .tc := ⟨.hbm, 259, rfl⟩
abbrev main_c_20 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_c_21 : Ref sig .tc := ⟨.hbm, 266, rfl⟩
abbrev main_v220 : Ref sig .tc := ⟨.hbm, 267, rfl⟩
abbrev main_v221 : Ref sig .tc := ⟨.hbm, 268, rfl⟩
abbrev main_c_22 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_cst_23 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_cst_24 : Ref sig .tc := ⟨.hbm, 290, rfl⟩
abbrev main_v241 : Ref sig .tc := ⟨.hbm, 291, rfl⟩
abbrev main_cst_25 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_cst_26 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc2_stg12_0 : Ref sig .tc := ⟨.vmem, 50, rfl⟩
abbrev cc2_stg13_0 : Ref sig .tc := ⟨.vmem, 51, rfl⟩
abbrev cc2_stg14_0 : Ref sig .tc := ⟨.vmem, 52, rfl⟩
abbrev cc2_stg14_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg3_0 : Ref sig .tc := ⟨.vmem, 59, rfl⟩
abbrev cc3_stg4_0 : Ref sig .tc := ⟨.vmem, 60, rfl⟩
abbrev cc3_stg5_0 : Ref sig .tc := ⟨.vmem, 61, rfl⟩
abbrev cc3_stg6_0 : Ref sig .tc := ⟨.vmem, 62, rfl⟩
abbrev cc3_stg7_0 : Ref sig .tc := ⟨.vmem, 63, rfl⟩
abbrev cc3_stg8_0 : Ref sig .tc := ⟨.vmem, 64, rfl⟩
abbrev cc3_stg9_0 : Ref sig .tc := ⟨.vmem, 65, rfl⟩
abbrev cc3_stg10_0 : Ref sig .tc := ⟨.vmem, 66, rfl⟩
abbrev cc3_stg11_0 : Ref sig .tc := ⟨.vmem, 67, rfl⟩
abbrev cc3_stg12_0 : Ref sig .tc := ⟨.vmem, 68, rfl⟩
abbrev cc3_stg13_0 : Ref sig .tc := ⟨.vmem, 69, rfl⟩
abbrev cc3_stg14_0 : Ref sig .tc := ⟨.vmem, 70, rfl⟩
abbrev cc3_stg14_1 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg1_1 : Ref sig .tc := ⟨.vmem, 75, rfl⟩
abbrev cc4_stg2_0 : Ref sig .tc := ⟨.vmem, 76, rfl⟩
abbrev cc4_stg3_0 : Ref sig .tc := ⟨.vmem, 77, rfl⟩
abbrev cc4_stg4_0 : Ref sig .tc := ⟨.vmem, 78, rfl⟩
abbrev cc4_stg5_0 : Ref sig .tc := ⟨.vmem, 79, rfl⟩
abbrev cc4_stg6_0 : Ref sig .tc := ⟨.vmem, 80, rfl⟩
abbrev cc4_stg7_0 : Ref sig .tc := ⟨.vmem, 81, rfl⟩
abbrev cc4_stg8_0 : Ref sig .tc := ⟨.vmem, 82, rfl⟩
abbrev cc4_stg9_0 : Ref sig .tc := ⟨.vmem, 83, rfl⟩
abbrev cc4_stg10_0 : Ref sig .tc := ⟨.vmem, 84, rfl⟩
abbrev cc4_stg11_0 : Ref sig .tc := ⟨.vmem, 85, rfl⟩
abbrev cc4_stg12_0 : Ref sig .tc := ⟨.vmem, 86, rfl⟩
abbrev cc4_stg13_0 : Ref sig .tc := ⟨.vmem, 87, rfl⟩
abbrev cc4_stg14_0 : Ref sig .tc := ⟨.vmem, 88, rfl⟩
abbrev cc4_stg14_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem14_0 : DmaSem sig := 52
abbrev cc2_sem14_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem3_0 : DmaSem sig := 59
abbrev cc3_sem4_0 : DmaSem sig := 60
abbrev cc3_sem5_0 : DmaSem sig := 61
abbrev cc3_sem6_0 : DmaSem sig := 62
abbrev cc3_sem7_0 : DmaSem sig := 63
abbrev cc3_sem8_0 : DmaSem sig := 64
abbrev cc3_sem9_0 : DmaSem sig := 65
abbrev cc3_sem10_0 : DmaSem sig := 66
abbrev cc3_sem11_0 : DmaSem sig := 67
abbrev cc3_sem12_0 : DmaSem sig := 68
abbrev cc3_sem13_0 : DmaSem sig := 69
abbrev cc3_sem14_0 : DmaSem sig := 70
abbrev cc3_sem14_1 : DmaSem sig := 71
abbrev cc4_sem0_0 : DmaSem sig := 72
abbrev cc4_sem0_1 : DmaSem sig := 73
abbrev cc4_sem1_0 : DmaSem sig := 74
abbrev cc4_sem1_1 : DmaSem sig := 75
abbrev cc4_sem2_0 : DmaSem sig := 76
abbrev cc4_sem3_0 : DmaSem sig := 77
abbrev cc4_sem4_0 : DmaSem sig := 78
abbrev cc4_sem5_0 : DmaSem sig := 79
abbrev cc4_sem6_0 : DmaSem sig := 80
abbrev cc4_sem7_0 : DmaSem sig := 81
abbrev cc4_sem8_0 : DmaSem sig := 82
abbrev cc4_sem9_0 : DmaSem sig := 83
abbrev cc4_sem10_0 : DmaSem sig := 84
abbrev cc4_sem11_0 : DmaSem sig := 85
abbrev cc4_sem12_0 : DmaSem sig := 86
abbrev cc4_sem13_0 : DmaSem sig := 87
abbrev cc4_sem14_0 : DmaSem sig := 88
abbrev cc4_sem14_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S5000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S5000x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S5000x64 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S5x64_S1x64_0_0 : S5x64.Slices ![0, 0] S1x64
  shapeCasts_S1x64_S64 : S1x64.ShapeCasts S64
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  slices_S5x64_S1x64_1_0 : S5x64.Slices ![1, 0] S1x64
  bcast_S_S50000x64 : S_.BroadcastsInDim S50000x64 (![] : Fin 0 → Fin S50000x64.rank)
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S128x64_S128x64 : S128x64.ShapeCasts S128x64
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S5x64_S1x64_2_0 : S5x64.Slices ![2, 0] S1x64
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S5x64_S1x64_3_0 : S5x64.Slices ![3, 0] S1x64
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  slices_S5x64_S1x64_4_0 : S5x64.Slices ![4, 0] S1x64
  bcast_S_S128x64 : S_.BroadcastsInDim S128x64 (![] : Fin 0 → Fin S128x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x64.size a ≤ S50000x64.size a
  hwx0_14 : ∀ i : grid0.Coords, EltTy.bits .f32 = 32 ∨ (Rect.block (s := S50000x64) S5000x64.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x64.size a ≤ S50000x64.size a
  hwx1_14 : ∀ i : grid1.Coords, EltTy.bits .f32 = 32 ∨ (Rect.block (s := S50000x64) S5000x64.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S5000x64.size a ≤ S50000x64.size a
  hwx2_14 : ∀ i : grid2.Coords, EltTy.bits .f32 = 32 ∨ (Rect.block (s := S50000x64) S5000x64.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x64.size a ≤ S128x64.size a
  hwx3_8 : ∀ i : grid3.Coords, EltTy.bits .f32 = 32 ∨ (Rect.block (s := S128x64) S128x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x64.size a ≤ S1x64.size a
  hwx3_11 : ∀ i : grid3.Coords, EltTy.bits .f32 = 32 ∨ (Rect.block (s := S1x64) S1x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x64.size a ≤ S1x64.size a
  hwx3_12 : ∀ i : grid3.Coords, EltTy.bits .f32 = 32 ∨ (Rect.block (s := S1x64) S1x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x64.size a ≤ S1x64.size a
  hwx3_13 : ∀ i : grid3.Coords, EltTy.bits .f32 = 32 ∨ (Rect.block (s := S1x64) S1x64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x64.size a ≤ S50000x64.size a
  hwx3_14 : ∀ i : grid3.Coords, EltTy.bits .f32 = 32 ∨ (Rect.block (s := S50000x64) S5000x64.size (cc3_transform_14 i) (hinb3_14 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x64.size a ≤ S128x64.size a
  hwx4_8 : ∀ i : grid4.Coords, EltTy.bits .f32 = 32 ∨ (Rect.block (s := S128x64) S128x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x64.size a ≤ S1x64.size a
  hwx4_11 : ∀ i : grid4.Coords, EltTy.bits .f32 = 32 ∨ (Rect.block (s := S1x64) S1x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x64.size a ≤ S1x64.size a
  hwx4_13 : ∀ i : grid4.Coords, EltTy.bits .f32 = 32 ∨ (Rect.block (s := S1x64) S1x64.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S5000x64.size a ≤ S50000x64.size a
  hwx4_14 : ∀ i : grid4.Coords, EltTy.bits .f32 = 32 ∨ (Rect.block (s := S50000x64) S5000x64.size (cc4_transform_14 i) (hinb4_14 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v35) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v36) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v37) S5000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v80) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v81) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v82) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v83) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v84) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v85) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v86) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v87) S5000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v87) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v126) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v127) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v128) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v129) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v130) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v131) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v101) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v132) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v133) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v134) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v135) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v136) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v137) S5000x64.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v137) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v176) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v139) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v177) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v178) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v179) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v180) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v181) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v151) S128x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v182) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v183) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v184) S1x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v185) S1x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v186) S1x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v187) S5000x64.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v187) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v226) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v189) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v227) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v228) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v229) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v230) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v231) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v201) S128x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v232) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v233) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v234) S1x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v235) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v236) S1x64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v237) S5000x64.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S5x64 : Shape := ⟨2, ![5, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S1x64x128 : Shape := ⟨3, ![1, 64, 128]⟩
abbrev S64x128 : Shape := ⟨2, ![64, 128]⟩
abbrev S1x128x64 : Shape := ⟨3, ![1, 128, 64]⟩
abbrev S800000x64 : Shape := ⟨2, ![800000, 64]⟩
abbrev S50000x1 : Shape := ⟨2, ![50000, 1]⟩
abbrev S128x1 : Shape := ⟨2, ![128, 1]⟩

abbrev nBuf : Space → Nat
  | .hbm => 482
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x64, .f32⟩
  | 10 => ⟨S64, .f32⟩
  | 11 => ⟨S4x64x128, .f32⟩
  | 12 => ⟨S4x128, .f32⟩
  | 13 => ⟨S4x128, .f32⟩
  | 14 => ⟨S4x128, .f32⟩
  | 15 => ⟨S4x128, .f32⟩
  | 16 => ⟨S4x128, .f32⟩
  | 17 => ⟨S4x128x64, .f32⟩
  | 18 => ⟨S4x64, .f32⟩
  | 19 => ⟨S5x64, .f32⟩
  | 20 => ⟨S5x64, .f32⟩
  | 21 => ⟨S5x64, .f32⟩
  | 22 => ⟨S5x64, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x64, .f32⟩
  | 72 => ⟨S1x64, .f32⟩
  | 73 => ⟨S50000x64, .f32⟩
  | 74 => ⟨S50000x64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S64, .f32⟩
  | 83 => ⟨S1x64, .f32⟩
  | 84 => ⟨S50000x64, .f32⟩
  | 85 => ⟨S50000x64, .f32⟩
  | 86 => ⟨S_, .f32⟩
  | 87 => ⟨S64, .f32⟩
  | 88 => ⟨S64, .f32⟩
  | 89 => ⟨S64, .f32⟩
  | 90 => ⟨S1x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S1x64x128, .f32⟩
  | 103 => ⟨S64x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128x64, .f32⟩
  | 115 => ⟨S128x64, .f32⟩
  | 116 => ⟨S1x64, .f32⟩
  | 117 => ⟨S64, .f32⟩
  | 118 => ⟨S_, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S50000x64, .f32⟩
  | 10 => ⟨S50000x64, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x64, .f32⟩
  | 35 => ⟨S1x64, .f32⟩
  | 36 => ⟨S50000x64, .f32⟩
  | 37 => ⟨S50000x64, .f32⟩
  | 38 => ⟨S1x64, .f32⟩
  | 39 => ⟨S64, .f32⟩
  | 40 => ⟨S1x64, .f32⟩
  | 41 => ⟨S64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S50000x64, .f32⟩
  | 48 => ⟨S50000x64, .f32⟩
  | 49 => ⟨S_, .f32⟩
  | 50 => ⟨S64, .f32⟩
  | 51 => ⟨S64, .f32⟩
  | 52 => ⟨S64, .f32⟩
  | 53 => ⟨S1x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S1x64, .f32⟩
  | 60 => ⟨S50000x64, .f32⟩
  | 61 => ⟨S50000x64, .f32⟩
  | 62 => ⟨S_, .f32⟩
  | 63 => ⟨S50000x64, .f32⟩
  | 64 => ⟨S50000x64, .f32⟩
  | 65 => ⟨S1x64x128, .f32⟩
  | 66 => ⟨S64x128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128x64, .f32⟩
  | 78 => ⟨S128x64, .f32⟩
  | 79 => ⟨S1x64, .f32⟩
  | 80 => ⟨S64, .f32⟩
  | 81 => ⟨S_, .f32⟩
  | 82 => ⟨S50000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S50000x64, .f32⟩
  | 101 => ⟨S50000x64, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x64, .f32⟩
  | 126 => ⟨S1x64, .f32⟩
  | 127 => ⟨S50000x64, .f32⟩
  | _ => ⟨S50000x128, .f32⟩

abbrev hbmTy0_2 (i : Nat) : BufTy := match i % 128 with
  | 0 => ⟨S50000x64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S50000x64, .f32⟩
  | 11 => ⟨S50000x64, .f32⟩
  | 12 => ⟨S_, .f32⟩
  | 13 => ⟨S64, .f32⟩
  | 14 => ⟨S64, .f32⟩
  | 15 => ⟨S64, .f32⟩
  | 16 => ⟨S1x64, .f32⟩
  | 17 => ⟨S50000x64, .f32⟩
  | 18 => ⟨S50000x64, .f32⟩
  | 19 => ⟨S1x64, .f32⟩
  | 20 => ⟨S50000x64, .f32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S1x64x128, .f32⟩
  | 29 => ⟨S64x128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128x64, .f32⟩
  | 41 => ⟨S128x64, .f32⟩
  | 42 => ⟨S1x64, .f32⟩
  | 43 => ⟨S64, .f32⟩
  | 44 => ⟨S_, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S50000x64, .f32⟩
  | 64 => ⟨S50000x64, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x64, .f32⟩
  | 89 => ⟨S1x64, .f32⟩
  | 90 => ⟨S50000x64, .f32⟩
  | 91 => ⟨S50000x64, .f32⟩
  | 92 => ⟨S1x64, .f32⟩
  | 93 => ⟨S64, .f32⟩
  | 94 => ⟨S1x64, .f32⟩
  | 95 => ⟨S64, .f32⟩
  | 96 => ⟨S1x64, .f32⟩
  | 97 => ⟨S64, .f32⟩
  | 98 => ⟨S1x64, .f32⟩
  | 99 => ⟨S64, .f32⟩
  | 100 => ⟨S1x64, .f32⟩
  | 101 => ⟨S50000x64, .f32⟩
  | 102 => ⟨S50000x64, .f32⟩
  | 103 => ⟨S_, .f32⟩
  | 104 => ⟨S64, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S1x64x128, .f32⟩
  | 120 => ⟨S64x128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S50000x128, .f32⟩

abbrev hbmTy0_3 (i : Nat) : BufTy := match i % 128 with
  | 0 => ⟨S128, .f32⟩
  | 1 => ⟨S1x128, .f32⟩
  | 2 => ⟨S128, .f32⟩
  | 3 => ⟨S1x128x64, .f32⟩
  | 4 => ⟨S128x64, .f32⟩
  | 5 => ⟨S1x64, .f32⟩
  | 6 => ⟨S64, .f32⟩
  | 7 => ⟨S_, .f32⟩
  | 8 => ⟨S50000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S50000x64, .f32⟩
  | 27 => ⟨S50000x64, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x64, .f32⟩
  | 52 => ⟨S1x64, .f32⟩
  | 53 => ⟨S50000x64, .f32⟩
  | 54 => ⟨S50000x64, .f32⟩
  | 55 => ⟨S1x64, .f32⟩
  | 56 => ⟨S64, .f32⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S50000x64, .f32⟩
  | 65 => ⟨S50000x64, .f32⟩
  | 66 => ⟨S_, .f32⟩
  | 67 => ⟨S64, .f32⟩
  | 68 => ⟨S64, .f32⟩
  | 69 => ⟨S64, .f32⟩
  | 70 => ⟨S1x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S_, .f32⟩
  | 83 => ⟨S128x64, .f32⟩
  | 84 => ⟨S50000x1, .i32⟩
  | 85 => ⟨S128x64, .f32⟩
  | 86 => ⟨S_, .f32⟩
  | 87 => ⟨S50000, .f32⟩
  | 88 => ⟨S_, .f32⟩
  | 89 => ⟨S128, .f32⟩
  | 90 => ⟨S50000x1, .i32⟩
  | 91 => ⟨S128, .f32⟩
  | 92 => ⟨S_, .f32⟩
  | 93 => ⟨S128, .f32⟩
  | 94 => ⟨S128, .f32⟩
  | 95 => ⟨S128x1, .f32⟩
  | 96 => ⟨S128x64, .f32⟩
  | 97 => ⟨S128x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_c : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_v13 : Ref sig .tc := ⟨.hbm, 40, rfl⟩
abbrev main_c_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call0_cst : Ref sig .tc := ⟨.hbm, 68, rfl⟩
abbrev main_call0_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_4 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call1_cst : Ref sig .tc := ⟨.hbm, 99, rfl⟩
abbrev main_call1_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_5 : Ref sig .tc := ⟨.hbm, 118, rfl⟩
abbrev main_v84 : Ref sig .tc := ⟨.hbm, 119, rfl⟩
abbrev main_c_6 : Ref sig .tc := ⟨.hbm, 120, rfl⟩
abbrev main_v85 : Ref sig .tc := ⟨.hbm, 121, rfl⟩
abbrev main_v86 : Ref sig .tc := ⟨.hbm, 122, rfl⟩
abbrev main_c_7 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_8 : Ref sig .tc := ⟨.hbm, 129, rfl⟩
abbrev main_v92 : Ref sig .tc := ⟨.hbm, 130, rfl⟩
abbrev main_v93 : Ref sig .tc := ⟨.hbm, 131, rfl⟩
abbrev main_c_9 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_10 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_call2_cst : Ref sig .tc := ⟨.hbm, 159, rfl⟩
abbrev main_call2_v0 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_11 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_call3_cst : Ref sig .tc := ⟨.hbm, 190, rfl⟩
abbrev main_call3_v0 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_12 : Ref sig .tc := ⟨.hbm, 209, rfl⟩
abbrev main_v164 : Ref sig .tc := ⟨.hbm, 210, rfl⟩
abbrev main_c_13 : Ref sig .tc := ⟨.hbm, 211, rfl⟩
abbrev main_v165 : Ref sig .tc := ⟨.hbm, 212, rfl⟩
abbrev main_v166 : Ref sig .tc := ⟨.hbm, 213, rfl⟩
abbrev main_c_14 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_c_15 : Ref sig .tc := ⟨.hbm, 220, rfl⟩
abbrev main_v172 : Ref sig .tc := ⟨.hbm, 221, rfl⟩
abbrev main_v173 : Ref sig .tc := ⟨.hbm, 222, rfl⟩
abbrev main_c_16 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_17 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_call4_cst : Ref sig .tc := ⟨.hbm, 250, rfl⟩
abbrev main_call4_v0 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_cst_18 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_call5_cst : Ref sig .tc := ⟨.hbm, 281, rfl⟩
abbrev main_call5_v0 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_cst_19 : Ref sig .tc := ⟨.hbm, 300, rfl⟩
abbrev main_v244 : Ref sig .tc := ⟨.hbm, 301, rfl⟩
abbrev main_c_20 : Ref sig .tc := ⟨.hbm, 302, rfl⟩
abbrev main_v245 : Ref sig .tc := ⟨.hbm, 303, rfl⟩
abbrev main_v246 : Ref sig .tc := ⟨.hbm, 304, rfl⟩
abbrev main_c_21 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_c_22 : Ref sig .tc := ⟨.hbm, 311, rfl⟩
abbrev main_v252 : Ref sig .tc := ⟨.hbm, 312, rfl⟩
abbrev main_v253 : Ref sig .tc := ⟨.hbm, 313, rfl⟩
abbrev main_c_23 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_cst_24 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_call6_cst : Ref sig .tc := ⟨.hbm, 341, rfl⟩
abbrev main_call6_v0 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_cst_25 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_call7_cst : Ref sig .tc := ⟨.hbm, 372, rfl⟩
abbrev main_call7_v0 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_cst_26 : Ref sig .tc := ⟨.hbm, 391, rfl⟩
abbrev main_v324 : Ref sig .tc := ⟨.hbm, 392, rfl⟩
abbrev main_c_27 : Ref sig .tc := ⟨.hbm, 393, rfl⟩
abbrev main_v325 : Ref sig .tc := ⟨.hbm, 394, rfl⟩
abbrev main_v326 : Ref sig .tc := ⟨.hbm, 395, rfl⟩
abbrev main_c_28 : Ref sig .tc := ⟨.hbm, 396, rfl⟩
abbrev main_v327 : Ref sig .tc := ⟨.hbm, 397, rfl⟩
abbrev main_v328 : Ref sig .tc := ⟨.hbm, 398, rfl⟩
abbrev main_v329 : Ref sig .tc := ⟨.hbm, 399, rfl⟩
abbrev main_v330 : Ref sig .tc := ⟨.hbm, 400, rfl⟩
abbrev main_v331 : Ref sig .tc := ⟨.hbm, 401, rfl⟩
abbrev main_c_29 : Ref sig .tc := ⟨.hbm, 402, rfl⟩
abbrev main_v332 : Ref sig .tc := ⟨.hbm, 403, rfl⟩
abbrev main_v333 : Ref sig .tc := ⟨.hbm, 404, rfl⟩
abbrev main_c_30 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_v344 : Ref sig .tc := ⟨.hbm, 416, rfl⟩
abbrev main_v345 : Ref sig .tc := ⟨.hbm, 417, rfl⟩
abbrev main_v346 : Ref sig .tc := ⟨.hbm, 418, rfl⟩
abbrev main_cst_31 : Ref sig .tc := ⟨.hbm, 419, rfl⟩
abbrev main_v347 : Ref sig .tc := ⟨.hbm, 420, rfl⟩
abbrev main_v348 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_call8_cst : Ref sig .tc := ⟨.hbm, 432, rfl⟩
abbrev main_call8_v0 : Ref sig .tc := ⟨.hbm, 433, rfl⟩
abbrev main_v359 : Ref sig .tc := ⟨.hbm, 434, rfl⟩
abbrev main_v360 : Ref sig .tc := ⟨.hbm, 435, rfl⟩
abbrev main_v361 : Ref sig .tc := ⟨.hbm, 436, rfl⟩
abbrev main_v362 : Ref sig .tc := ⟨.hbm, 437, rfl⟩
abbrev main_v363 : Ref sig .tc := ⟨.hbm, 438, rfl⟩
abbrev main_v364 : Ref sig .tc := ⟨.hbm, 439, rfl⟩
abbrev main_v365 : Ref sig .tc := ⟨.hbm, 440, rfl⟩
abbrev main_v366 : Ref sig .tc := ⟨.hbm, 441, rfl⟩
abbrev main_v367 : Ref sig .tc := ⟨.hbm, 442, rfl⟩
abbrev main_v368 : Ref sig .tc := ⟨.hbm, 443, rfl⟩
abbrev main_v369 : Ref sig .tc := ⟨.hbm, 444, rfl⟩
abbrev main_v370 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_cst_32 : Ref sig .tc := ⟨.hbm, 450, rfl⟩
abbrev main_v375 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_call9_cst : Ref sig .tc := ⟨.hbm, 463, rfl⟩
abbrev main_call9_v0 : Ref sig .tc := ⟨.hbm, 464, rfl⟩
abbrev main_v387 : Ref sig .tc := ⟨.hbm, 465, rfl⟩
abbrev main_cst_33 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_cst_34 : Ref sig .tc := ⟨.hbm, 470, rfl⟩
abbrev main_v391 : Ref sig .tc := ⟨.hbm, 471, rfl⟩
abbrev main_cst_35 : Ref sig .tc := ⟨.hbm, 472, rfl⟩
abbrev main_v392 : Ref sig .tc := ⟨.hbm, 473, rfl⟩
abbrev main_v393 : Ref sig .tc := ⟨.hbm, 474, rfl⟩
abbrev main_v394 : Ref sig .tc := ⟨.hbm, 475, rfl⟩
abbrev main_cst_36 : Ref sig .tc := ⟨.hbm, 476, rfl⟩
abbrev main_v395 : Ref sig .tc := ⟨.hbm, 477, rfl⟩
abbrev main_v396 : Ref sig .tc := ⟨.hbm, 478, rfl⟩
abbrev main_v397 : Ref sig .tc := ⟨.hbm, 479, rfl⟩
abbrev main_v398 : Ref sig .tc := ⟨.hbm, 480, rfl⟩
abbrev main_v399 : Ref sig .tc := ⟨.hbm, 481, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S5x64_S1x64_0_0 : S5x64.Slices ![0, 0] S1x64
  shapeCasts_S1x64_S64 : S1x64.ShapeCasts S64
  bcast_S_S64 : S_.BroadcastsInDim S64 (![] : Fin 0 → Fin S64.rank)
  bcast_S_S50000x64 : S_.BroadcastsInDim S50000x64 (![] : Fin 0 → Fin S50000x64.rank)
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  slices_S5x64_S1x64_1_0 : S5x64.Slices ![1, 0] S1x64
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S5x64_S1x64_2_0 : S5x64.Slices ![2, 0] S1x64
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S5x64_S1x64_3_0 : S5x64.Slices ![3, 0] S1x64
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  slices_S5x64_S1x64_4_0 : S5x64.Slices ![4, 0] S1x64
  bcast_S_S128x64 : S_.BroadcastsInDim S128x64 (![] : Fin 0 → Fin S128x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.RunValue.lean ====
/-
  The idealized kernel's run with its result named.

  Every weakly fair execution of the program — five pipelined regions among six stretches of host
  operations — terminates without a fault; in every final state the result buffer holds what the last
  stretch of host operations leaves in it, the fold `W11` of the whole program over the launch memory,
  and the argument arrays are as launched.  This is the run behind the frame claim with one more buffer
  read off the final thread state.
-/
import proofs.«120131_j65111704207433_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the result buffer at the program's fold over the launch memory, the arguments as launched. -/
theorem run_value : θ_run defs (onTc (τ := τ) (main (F := F))) ⟨m, fun _ => 0, ρ⟩ (fun r => ∀ c : Dev nD,
      r.2.mem ((c.tc : Thread nD τ).loc main_v249) = W11 m ρ c (Proc.devRef .tc main_v249) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v249 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c),
       (h c _ (mem_uc main_arg22 (by decide))).trans (W11_main_arg22 m ρ c)⟩)

end Cert.KernelIdeal.KV

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.LibGinLayer.lean ====
/-
  One layer of a graph isomorphism network, entry by entry over the extended reals.

  A layer takes a node's feature row  x(r, ·)  and the sum  a(r, ·)  of its neighbours' rows and returns

      out(r, c) = relu( bn₂( ∑ₖ z(r, k) · W₂(k, c) + b₂(c) ) ),
      z(r, k)   = relu( bn₁( ∑ⱼ (x(r, j) + a(r, j)) · W₁(j, k) + b₁(k) ) ),

  where  bn(v) = (v − μ) · rsqrt(σ² + ε) · γ + β  is batch normalisation with running statistics, one
  (μ, σ², γ, β) per column, and  relu(v) = max(v, 0).  The entry at row r reads only row r of x and of a:
  the layer of a block of rows is the block of the layer.  The per-column parameters are kept as [1, N]
  rows; a parameter vector of length N is laid out as such a row by `rowOf`.
-/
import Idealize.ShloMosaic.Lib.ValueIdx
import Idealize.ShloMosaic.PureOps.Ideal.Laws
import proofs.«120131_j65111704207433_2_alg».proof.Proof.LibDense

noncomputable section

namespace Cert.GinLayer

open Idealize.ShloMosaic Idealize.ShloMosaic.ValueIdx Cert.LibDense

/-- The variance offset ε of the normalisation: the value of its f32 word. -/
def eps : EReal := Ideal.ofBits .f32 0x3727C5AC#32

/-- The rectifier's zero: the value of the f32 zero word. -/
def zero : EReal := Ideal.ofBits .f32 0x00000000#32

/-- Normalise one entry with its column's statistics, scale, shift, rectify. -/
def bnReluAt (a g b mu var : EReal) : EReal :=
  max ((a - mu) * Ideal.rsqrt (var + eps) * g + b) zero

/-- A vector of length N laid out as a [1, N] row. -/
def rowOf {N : ℕ} (v : (⟨1, ![N]⟩ : Shape).Idx → EReal) : (⟨2, ![1, N]⟩ : Shape).Idx → EReal :=
  fun i => v (ix1 (i 1))

/-- The hidden entry z(k) of a node from its feature row and its aggregated row. -/
def hiddenAt {K H : ℕ} (xr ar : Fin K → EReal) (w1 : (⟨2, ![K, H]⟩ : Shape).Idx → EReal)
    (b1 ig ib im iv : (⟨2, ![1, H]⟩ : Shape).Idx → EReal) (k : Fin H) : EReal :=
  bnReluAt (dense (fun j => xr j + ar j) w1 k + b1 (ix2 (0 : Fin 1) k))
    (ig (ix2 (0 : Fin 1) k)) (ib (ix2 (0 : Fin 1) k)) (im (ix2 (0 : Fin 1) k)) (iv (ix2 (0 : Fin 1) k))

/-- The output entry out(c) of a node from its feature row and its aggregated row. -/
def layerAt {K H N : ℕ} (xr ar : Fin K → EReal) (w1 : (⟨2, ![K, H]⟩ : Shape).Idx → EReal)
    (b1 ig ib im iv : (⟨2, ![1, H]⟩ : Shape).Idx → EReal) (w2 : (⟨2, ![H, N]⟩ : Shape).Idx → EReal)
    (b2 og ob om ov : (⟨2, ![1, N]⟩ : Shape).Idx → EReal) (c : Fin N) : EReal :=
  bnReluAt (dense (hiddenAt xr ar w1 b1 ig ib im iv) w2 c + b2 (ix2 (0 : Fin 1) c))
    (og (ix2 (0 : Fin 1) c)) (ob (ix2 (0 : Fin 1) c)) (om (ix2 (0 : Fin 1) c)) (ov (ix2 (0 : Fin 1) c))

/-- The layer over M nodes: entry (r, c) is `layerAt` of row r of the features and of the aggregate. -/
def layer {M K H N : ℕ} (x agg : (⟨2, ![M, K]⟩ : Shape).Idx → EReal) (w1 : (⟨2, ![K, H]⟩ : Shape).Idx → EReal)
    (b1 ig ib im iv : (⟨2, ![1, H]⟩ : Shape).Idx → EReal) (w2 : (⟨2, ![H, N]⟩ : Shape).Idx → EReal)
    (b2 og ob om ov : (⟨2, ![1, N]⟩ : Shape).Idx → EReal) : (⟨2, ![M, N]⟩ : Shape).Idx → EReal :=
  fun i => layerAt (fun j => x (ix2 (i 0) j)) (fun j => agg (ix2 (i 0) j)) w1 b1 ig ib im iv w2 b2 og ob om ov (i 1)

/-- The layer of a block of rows is the block of the layer: if the block's rows are rows `ρ p` of the arrays,
    entry (p, c) of the block's layer is entry (ρ p, c) of the arrays' layer. -/
theorem layer_rows {M M' K H N : ℕ} (X A : (⟨2, ![M, K]⟩ : Shape).Idx → EReal) (x a : (⟨2, ![M', K]⟩ : Shape).Idx → EReal)
    (ρ : Fin M' → Fin M) (hx : ∀ p j, x (ix2 p j) = X (ix2 (ρ p) j)) (ha : ∀ p j, a (ix2 p j) = A (ix2 (ρ p) j))
    (w1 : (⟨2, ![K, H]⟩ : Shape).Idx → EReal) (b1 ig ib im iv : (⟨2, ![1, H]⟩ : Shape).Idx → EReal)
    (w2 : (⟨2, ![H, N]⟩ : Shape).Idx → EReal) (b2 og ob om ov : (⟨2, ![1, N]⟩ : Shape).Idx → EReal) (p : Fin M') (c : Fin N) :
    layer x a w1 b1 ig ib im iv w2 b2 og ob om ov (ix2 p c) = layer X A w1 b1 ig ib im iv w2 b2 og ob om ov (ix2 (ρ p) c) := by
  show layerAt (fun j => x (ix2 p j)) (fun j => a (ix2 p j)) w1 b1 ig ib im iv w2 b2 og ob om ov c
    = layerAt (fun j => X (ix2 (ρ p) j)) (fun j => A (ix2 (ρ p) j)) w1 b1 ig ib im iv w2 b2 og ob om ov c
  rw [funext (hx p), funext (ha p)]

end Cert.GinLayer

end
-- ==== Proof.LibDenseHost.lean ====
/-
  The host's matrix product, entry by entry.

  At the exact instance a host dot product of an [M, K] by a [K, N] operand, contracting the first operand's columns
  against the second's rows, has at (a, b) the textbook entry  ∑ k, l (a, k) · r (k, b)  — the same sum as the matrix
  unit's product into a zero accumulator. Stated for any dimension record with the four operand-position facts.
-/
import Idealize.ShloMosaic.Lib.ValueIdx
import Idealize.ShloMosaic.PureOps.Ideal.Laws
import proofs.«120131_j65111704207433_2_alg».proof.Proof.LibDense

noncomputable section

namespace Cert.LibDenseHost

open Idealize.ShloMosaic Idealize.ShloMosaic.ValueIdx Cert.LibDense

/-- The host's dot product of a plain [M, K] by [K, N] pair, read at (a, b): the textbook entry. -/
theorem dotGeneral_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    Host.dotGeneral d prec l r (ix2 a b) = dense (fun k => l (ix2 a k)) r b := by
  simp only [Host.dotGeneral]
  rw [Ideal.dotGeneral_apply]
  exact sum_contr_plain d hr hs (ix2 a b) (hl0 _) (hl1 _) (hr0 _) (hr1 _) l r

end Cert.LibDenseHost

end
-- ==== Proof.LibPlainDense.lean ====
/-
  The dense stages of a graph-convolution network, as functions of whole arrays over the extended reals.

  Every stage of the network other than the edge aggregation is one of: a matrix product  x · W  of an
  [M, K] array with a [K, N] weight; the addition of a bias row to every row of an [M, N] array; a
  rectifier  max(·, 0)  or a hyperbolic tangent applied entry by entry. This file states them once, over
  any extents, and reads the two printed forms of each — a matrix unit's product of bf16-cast operands
  into a zero accumulator and a host dot product; a bias kept as a [1, N] row that the body broadcasts
  and a bias vector the host broadcasts twice — as the same function. At the exact instance a change of
  float format is the identity, so the casts disappear.
-/
import Idealize.ShloMosaic.Lib.ValueIdx
import Idealize.ShloMosaic.Lib.ValueLayout
import Idealize.ShloMosaic.Lib.Pipeline.Value
import Idealize.ShloMosaic.PureOps.Ideal.Laws
import proofs.«120131_j65111704207433_2_alg».proof.Proof.LibDense
import proofs.«120131_j65111704207433_2_alg».proof.Proof.LibDenseHost

noncomputable section

namespace Cert.Gcn

open Idealize.ShloMosaic Idealize.ShloMosaic.ValueIdx Idealize.ShloMosaic.Pipeline Cert.LibDense

/-- The matrix product, entry by entry: (x · w)(r, c) = ∑ₖ x(r, k) · w(k, c). -/
def mm {M K N : ℕ} (x : (⟨2, ![M, K]⟩ : Shape).Idx → EReal) (w : (⟨2, ![K, N]⟩ : Shape).Idx → EReal) :
    (⟨2, ![M, N]⟩ : Shape).Idx → EReal :=
  fun i => dense (fun k => x (ix2 (i 0) k)) w (i 1)

/-- A bias row added to every row. -/
def addRow {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- The rectifier, entry by entry; its zero is the f32 zero word's value. -/
def relu {s : Shape} (a : s.Idx → EReal) : s.Idx → EReal :=
  fun i => max (a i) (Ideal.ofBits .f32 0x00000000#32)

/-- The hyperbolic tangent, entry by entry. -/
def tanhV {s : Shape} (a : s.Idx → EReal) : s.Idx → EReal :=
  fun i => Ideal.tanh (a i)

/-! ## The plain [M, K] × [K, N] contraction: where its operands sit -/

theorem plain_rank (M K N : ℕ) : (DotDims.plain M K N).contr.rank = 1 := rfl
theorem plain_size (M K N : ℕ) : (DotDims.plain M K N).contr.size ⟨0, Nat.one_pos⟩ = K := rfl

theorem plain_l0 {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

theorem plain_l1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem plain_r0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem plain_r1 {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-! ## The two printed forms of the product -/

/-- The matrix unit's product of bf16-cast operands into a zero accumulator is the product. -/
theorem matmul_eq_mm {M K N : ℕ} (x0 : FVec Ideal (⟨2, ![M, K]⟩ : Shape) .f32) (x1 : FVec Ideal (⟨2, ![K, N]⟩ : Shape) .f32)
    (h0 : FTy.bf16.bits < FTy.f32.bits) (h1 : FTy.bf16.bits < FTy.f32.bits) :
    matmul (DotDims.plain M K N) none (truncf .bf16 x0 h0) (truncf .bf16 x1 h1) (constant (⟨2, ![M, N]⟩ : Shape) .f32 0x00000000#32)
      = mm x0 x1 := by
  funext j
  obtain ⟨a, b, rfl⟩ : ∃ (a : Fin M) (b : Fin N), j = ix2 a b := ⟨j 0, j 1, eq_ix2 j⟩
  exact matmul_zero_plain (DotDims.plain M K N) none (plain_rank M K N) (plain_size M K N)
    plain_l0 plain_l1 plain_r0 plain_r1 (truncf .bf16 x0 h0) (truncf .bf16 x1 h1) a b

/-- The host's dot product is the product. -/
theorem dotGeneral_eq_mm {M K N : ℕ} (x0 : FVec Ideal (⟨2, ![M, K]⟩ : Shape) .f32) (x1 : FVec Ideal (⟨2, ![K, N]⟩ : Shape) .f32) :
    Host.dotGeneral (DotDims.plain M K N) none x0 x1 = mm x0 x1 := by
  funext j
  obtain ⟨a, b, rfl⟩ : ∃ (a : Fin M) (b : Fin N), j = ix2 a b := ⟨j 0, j 1, eq_ix2 j⟩
  exact Cert.LibDenseHost.dotGeneral_plain (DotDims.plain M K N) none (plain_rank M K N) (plain_size M K N)
    plain_l0 plain_l1 plain_r0 plain_r1 x0 x1 a b

/-! ## The two printed forms of the bias -/

/-- A bias row the body broadcasts over the rows. -/
theorem broadcastTo_row {M N : ℕ} (v : (⟨2, ![1, N]⟩ : Shape).Idx → EReal) (h : (⟨2, ![1, N]⟩ : Shape).Broadcasts ⟨2, ![M, N]⟩)
    (a : (⟨2, ![M, N]⟩ : Shape).Idx → EReal) :
    (fun i => a i + broadcastTo (⟨2, ![M, N]⟩ : Shape) v h i) = addRow a v := by
  funext j
  obtain ⟨p, c, rfl⟩ : ∃ (p : Fin M) (c : Fin N), j = ix2 p c := ⟨j 0, j 1, eq_ix2 j⟩
  show a (ix2 p c) + _ = a (ix2 p c) + _
  rw [broadcastTo_1b_ab_apply]
  rfl

/-- A bias vector laid out as a [1, N] row. -/
theorem shapeCast_row_apply {N : ℕ} (b : (⟨1, ![N]⟩ : Shape).Idx → EReal) (h : (⟨1, ![N]⟩ : Shape).ShapeCasts ⟨2, ![1, N]⟩) (c : Fin N) :
    shapeCast (⟨2, ![1, N]⟩ : Shape) b h (ix2 (0 : Fin 1) c) = b (ix1 c) :=
  shapeCast_a_1a_apply b h 0 c

/-- The host's two broadcasts of a bias vector, [N] to [1, N] to [M, N], added: the same as adding the row. -/
theorem host_bias {M N : ℕ} (b : (⟨1, ![N]⟩ : Shape).Idx → EReal)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : (⟨2, ![M, N]⟩ : Shape).Idx → EReal) :
    (fun i => a i + broadcastInDim (⟨2, ![M, N]⟩ : Shape) d2 h2 (broadcastInDim (⟨2, ![1, N]⟩ : Shape) d1 h1 b) i)
      = addRow a (shapeCast (⟨2, ![1, N]⟩ : Shape) b hc) := by
  funext j
  obtain ⟨p, c, rfl⟩ : ∃ (p : Fin M) (c : Fin N), j = ix2 p c := ⟨j 0, j 1, eq_ix2 j⟩
  show a (ix2 p c) + _ = a (ix2 p c) + shapeCast (⟨2, ![1, N]⟩ : Shape) b hc (ix2 (0 : Fin 1) c)
  rw [shapeCast_row_apply]
  congr 1
  by_cases hN : N = 1
  · subst hN
    have hc0 : c = 0 := Subsingleton.elim _ _
    subst hc0
    rw [broadcastInDim_apply d2 h2 _ (ix2 p 0) (ix2 (0 : Fin 1) 0) (fun ax => by
        match ax with
        | ⟨0, _⟩ => rfl
        | ⟨1, _⟩ => rfl)]
    rw [broadcastInDim_apply d1 h1 b (ix2 (0 : Fin 1) 0) (ix1 0) (fun ax => by
        match ax with
        | ⟨0, _⟩ => rfl)]
  · rw [broadcastInDim_apply d2 h2 _ (ix2 p c) (ix2 (0 : Fin 1) c) (fun ax => by
        match ax with
        | ⟨0, _⟩ => rfl
        | ⟨1, _⟩ =>
          show c.val = if N = 1 then 0 else ((ix2 p c) (d2 1)).val
          rw [if_neg hN, hd2 1])]
    rw [broadcastInDim_apply d1 h1 b (ix2 (0 : Fin 1) c) (ix1 c) (fun ax => by
        match ax with
        | ⟨0, _⟩ =>
          show c.val = if N = 1 then 0 else ((ix2 (0 : Fin 1) c) (d1 0)).val
          rw [if_neg hN, hd1])]

/-! ## The host's forms of a biased array under each activation -/

/-- The host's rectified biased array: the bias vector broadcast twice and added, then the maximum with a broadcast zero. -/
theorem host_relu {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim ⟨2, ![M, N]⟩ d0)
    (a : FVec Ideal (⟨2, ![M, N]⟩ : Shape) .f32) :
    maximumf (addf a (broadcastInDim (⟨2, ![M, N]⟩ : Shape) d2 h2 (broadcastInDim (⟨2, ![1, N]⟩ : Shape) d1 h1 b)))
        (broadcastInDim (⟨2, ![M, N]⟩ : Shape) d0 h0 (constant (F := Ideal) (⟨0, ![]⟩ : Shape) .f32 0x00000000#32))
      = relu (addRow a (shapeCast (⟨2, ![1, N]⟩ : Shape) b hc)) := by
  rw [← host_bias b d1 hd1 h1 d2 hd2 h2 hc a]
  rfl

/-- The host's biased array under the hyperbolic tangent. -/
theorem host_tanh {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : FVec Ideal (⟨2, ![M, N]⟩ : Shape) .f32) :
    Host.tanh (addf a (broadcastInDim (⟨2, ![M, N]⟩ : Shape) d2 h2 (broadcastInDim (⟨2, ![1, N]⟩ : Shape) d1 h1 b)))
      = tanhV (addRow a (shapeCast (⟨2, ![1, N]⟩ : Shape) b hc)) := by
  rw [← host_bias b d1 hd1 h1 d2 hd2 h2 hc a]
  rfl

/-- The host's biased array with no activation. -/
theorem host_plain {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : FVec Ideal (⟨2, ![M, N]⟩ : Shape) .f32) :
    addf a (broadcastInDim (⟨2, ![M, N]⟩ : Shape) d2 h2 (broadcastInDim (⟨2, ![1, N]⟩ : Shape) d1 h1 b))
      = addRow a (shapeCast (⟨2, ![1, N]⟩ : Shape) b hc) :=
  host_bias b d1 hd1 h1 d2 hd2 h2 hc a

end Cert.Gcn

end
-- ==== Proof.NetDefs.lean ====
/-
  The idealized kernel's result as one function of its argument arrays.

  The program keeps the edge list's source and destination rows, and five times over: gathers the
  source nodes' feature rows, adds each onto its destination node (the aggregate), and runs one layer
  on the features and the aggregate with that layer's parameters (the first layer's own arrays, the
  later layers' slices of the stacked arrays, each parameter vector laid out as a row); at the end it
  sums the nodes of each graph and divides by the graph's node count, at least one.  The host
  operations — slices, the gather, the scatter-add, the pooling — are carried as the printed terms; the
  layers are `Cert.GinLayer.layer`.

  Also here: which buffers a stretch of host operations or a region leaves as it found them.  Buffers
  are numbered in program order and every host operation writes only its own result, so a stretch
  leaves every buffer numbered below its first result alone; a region changes only its output array.
-/
import proofs.«120131_j65111704207433_2_alg».proof.Proof.Gen.KernelIdeal.Frame
import proofs.«120131_j65111704207433_2_alg».proof.Proof.LibWrites
import proofs.«120131_j65111704207433_2_alg».proof.Proof.LibGinLayer
import proofs.«120131_j65111704207433_2_alg».proof.Proof.LibPlainDense

set_option maxRecDepth 16384

noncomputable section

namespace Cert.KernelIdeal.KV

open Cert.KernelIdeal Cert.KernelIdeal.Gen Cert.GinLayer
open Idealize.ShloMosaic Idealize.ShloMosaic.TcCoe Idealize.ShloMosaic.ValueIdx Idealize.SL.Sem Idealize.ShloMosaic.StableHlo

/-! ## The host operations' terms -/

/-- Each edge's source node: row 0 of the edge list. -/
def src (a1 : (⟨S2x800000, .i32⟩ : BufTy).Contents (Elt Ideal)) : (⟨S800000, .i32⟩ : BufTy).Contents (Elt Ideal) :=
  shapeCast S800000 (extractStridedSlice S1x800000 ![0, 0] a1 slices_S2x800000_S1x800000_0_0) shapeCasts_S1x800000_S800000

/-- Each edge's destination node: row 1 of the edge list. -/
def dst (a1 : (⟨S2x800000, .i32⟩ : BufTy).Contents (Elt Ideal)) : (⟨S800000, .i32⟩ : BufTy).Contents (Elt Ideal) :=
  shapeCast S800000 (extractStridedSlice S1x800000 ![1, 0] a1 slices_S2x800000_S1x800000_1_0) shapeCasts_S1x800000_S800000

/-- Node numbers as a column of start indices, a negative one counted from the end. -/
def wrapIdx (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The aggregate over 128 features: every edge adds its source node's row onto its destination node's. -/
def aggA (s d : (⟨S800000, .i32⟩ : BufTy).Contents (Elt Ideal)) (h : (⟨S50000x128, .f32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32)) (wrapIdx d)
    (Host.gather gather_S50000x128_S800000x1_S800000x128_1_0_n_n_0_1_1128 h (wrapIdx s))

/-- The aggregate over 64 features. -/
def aggB (s d : (⟨S800000, .i32⟩ : BufTy).Contents (Elt Ideal)) (h : (⟨S50000x64, .f32⟩ : BufTy).Contents (Elt Ideal)) : (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32)) (wrapIdx d)
    (Host.gather gather_S50000x64_S800000x1_S800000x64_1_0_n_n_0_1_164 h (wrapIdx s))

/-- The mean over each graph's nodes: the sum of the graph's rows over its node count, at least one. -/
def pool (b : (⟨S50000, .i32⟩ : BufTy).Contents (Elt Ideal)) (h : (⟨S50000x64, .f32⟩ : BufTy).Contents (Elt Ideal)) : (⟨S128x64, .f32⟩ : BufTy).Contents (Elt Ideal) :=
  Host.divf
    (Host.scatterAdd scatter_S128x64_S50000x1_S50000x64_1_0_0_1
      (broadcastInDim S128x64 ![] bcast_S_S128x64 (constant (F := Ideal) S_ .f32 0x00000000#32))
      (broadcastInDim S50000x1 ![0] bcast_S50000_S50000x1_0 b) h)
    (broadcastInDim S128x64 ![0, 1] bcast_S128x1_S128x64_0_1 (broadcastInDim S128x1 ![0] bcast_S128_S128x1_0
      (maximumf
        (Host.scatterAdd scatter_S128_S50000x1_S50000_n_0_0_1
          (broadcastInDim S128 ![] bcast_S_S128 (constant (F := Ideal) S_ .f32 0x00000000#32))
          (broadcastInDim S50000x1 ![0] bcast_S50000_S50000x1_0 b)
          (broadcastInDim S50000 ![] bcast_S_S50000 (constant (F := Ideal) S_ .f32 0x3F800000#32)))
        (broadcastInDim S128 ![] bcast_S_S128 (constant (F := Ideal) S_ .f32 0x3F800000#32)))))

/-! ## The five layers and the result -/

/-- The node features after the first layer. -/
def H1 (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S4x64x128, .f32⟩ : BufTy).Contents (Elt Ideal)) (a12 : (⟨S4x128, .f32⟩ : BufTy).Contents (Elt Ideal)) (a13 : (⟨S4x128, .f32⟩ : BufTy).Contents (Elt Ideal)) (a14 : (⟨S4x128, .f32⟩ : BufTy).Contents (Elt Ideal)) (a15 : (⟨S4x128, .f32⟩ : BufTy).Contents (Elt Ideal)) (a16 : (⟨S4x128, .f32⟩ : BufTy).Contents (Elt Ideal)) (a17 : (⟨S4x128x64, .f32⟩ : BufTy).Contents (Elt Ideal)) (a18 : (⟨S4x64, .f32⟩ : BufTy).Contents (Elt Ideal)) (a19 : (⟨S5x64, .f32⟩ : BufTy).Contents (Elt Ideal)) (a20 : (⟨S5x64, .f32⟩ : BufTy).Contents (Elt Ideal)) (a21 : (⟨S5x64, .f32⟩ : BufTy).Contents (Elt Ideal)) (a22 : (⟨S5x64, .f32⟩ : BufTy).Contents (Elt Ideal)) : (⟨S50000x64, .f32⟩ : BufTy).Contents (Elt Ideal) :=
  layer a0 (aggA (src a1) (dst a1) a0)
    a3
    (shapeCast S1x128 a4 shapeCasts_S128_S1x128)
    (shapeCast S1x128 a5 shapeCasts_S128_S1x128)
    (shapeCast S1x128 a6 shapeCasts_S128_S1x128)
    (shapeCast S1x128 a7 shapeCasts_S128_S1x128)
    (shapeCast S1x128 a8 shapeCasts_S128_S1x128)
    a9
    (shapeCast S1x64 a10 shapeCasts_S64_S1x64)
    (shapeCast S1x64 (shapeCast S64 (extractStridedSlice S1x64 ![0, 0] a19 slices_S5x64_S1x64_0_0) shapeCasts_S1x64_S64) shapeCasts_S64_S1x64)
    (shapeCast S1x64 (shapeCast S64 (extractStridedSlice S1x64 ![0, 0] a20 slices_S5x64_S1x64_0_0) shapeCasts_S1x64_S64) shapeCasts_S64_S1x64)
    (shapeCast S1x64 (shapeCast S64 (extractStridedSlice S1x64 ![0, 0] a21 slices_S5x64_S1x64_0_0) shapeCasts_S1x64_S64) shapeCasts_S64_S1x64)
    (shapeCast S1x64 (shapeCast S64 (extractStridedSlice S1x64 ![0, 0] a22 slices_S5x64_S1x64_0_0) shapeCasts_S1x64_S64) shapeCasts_S64_S1x64)

/-- The node features after layer 2. -/
def H2 (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S4x64x128, .f32⟩ : BufTy).Contents (Elt Ideal)) (a12 : (⟨S4x128, .f32⟩ : BufTy).Contents (Elt Ideal)) (a13 : (⟨S4x128, .f32⟩ : BufTy).Contents (Elt Ideal)) (a14 : (⟨S4x128, .f32⟩ : BufTy).Contents (Elt Ideal)) (a15 : (⟨S4x128, .f32⟩ : BufTy).Contents (Elt Ideal)) (a16 : (⟨S4x128, .f32⟩ : BufTy).Contents (Elt Ideal)) (a17 : (⟨S4x128x64, .f32⟩ : BufTy).Contents (Elt Ideal)) (a18 : (⟨S4x64, .f32⟩ : BufTy).Contents (Elt Ideal)) (a19 : (⟨S5x64, .f32⟩ : BufTy).Contents (Elt Ideal)) (a20 : (⟨S5x64, .f32⟩ : BufTy).Contents (Elt Ideal)) (a21 : (⟨S5x64, .f32⟩ : BufTy).Contents (Elt Ideal)) (a22 : (⟨S5x64, .f32⟩ : BufTy).Contents (Elt Ideal)) : (⟨S50000x64, .f32⟩ : BufTy).Contents (Elt Ideal) :=
  layer (H1 a0 a1 a2 a3 a4 a5 a6 a7 a8 a9 a10 a11 a12 a13 a14 a15 a16 a17 a18 a19 a20 a21 a22) (aggB (src a1) (dst a1) (H1 a0 a1 a2 a3 a4 a5 a6 a7 a8 a9 a10 a11 a12 a13 a14 a15 a16 a17 a18 a19 a20 a21 a22))
    (shapeCast S64x128 (extractStridedSlice S1x64x128 ![0, 0, 0] a11 slices_S4x64x128_S1x64x128_0_0_0) shapeCasts_S1x64x128_S64x128)
    (shapeCast S1x128 (shapeCast S128 (extractStridedSlice S1x128 ![0, 0] a12 slices_S4x128_S1x128_0_0) shapeCasts_S1x128_S128) shapeCasts_S128_S1x128)
    (shapeCast S1x128 (shapeCast S128 (extractStridedSlice S1x128 ![0, 0] a13 slices_S4x128_S1x128_0_0) shapeCasts_S1x128_S128) shapeCasts_S128_S1x128)
    (shapeCast S1x128 (shapeCast S128 (extractStridedSlice S1x128 ![0, 0] a14 slices_S4x128_S1x128_0_0) shapeCasts_S1x128_S128) shapeCasts_S128_S1x128)
    (shapeCast S1x128 (shapeCast S128 (extractStridedSlice S1x128 ![0, 0] a15 slices_S4x128_S1x128_0_0) shapeCasts_S1x128_S128) shapeCasts_S128_S1x128)
    (shapeCast S1x128 (shapeCast S128 (extractStridedSlice S1x128 ![0, 0] a16 slices_S4x128_S1x128_0_0) shapeCasts_S1x128_S128) shapeCasts_S128_S1x128)
    (shapeCast S128x64 (extractStridedSlice S1x128x64 ![0, 0, 0] a17 slices_S4x128x64_S1x128x64_0_0_0) shapeCasts_S1x128x64_S128x64)
    (shapeCast S1x64 (shapeCast S64 (extractStridedSlice S1x64 ![0, 0] a18 slices_S4x64_S1x64_0_0) shapeCasts_S1x64_S64) shapeCasts_S64_S1x64)
    (shapeCast S1x64 (shapeCast S64 (extractStridedSlice S1x64 ![1, 0] a19 slices_S5x64_S1x64_1_0) shapeCasts_S1x64_S64) shapeCasts_S64_S1x64)
    (shapeCast S1x64 (shapeCast S64 (extractStridedSlice S1x64 ![1, 0] a20 slices_S5x64_S1x64_1_0) shapeCasts_S1x64_S64) shapeCasts_S64_S1x64)
    (shapeCast S1x64 (shapeCast S64 (extractStridedSlice S1x64 ![1, 0] a21 slices_S5x64_S1x64_1_0) shapeCasts_S1x64_S64) shapeCasts_S64_S1x64)
    (shapeCast S1x64 (shapeCast S64 (extractStridedSlice S1x64 ![1, 0] a22 slices_S5x64_S1x64_1_0) shapeCasts_S1x64_S64) shapeCasts_S64_S1x64)

/-- The node features after layer 3. -/
def H3 (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S4x64x128, .f32⟩ : BufTy).Contents (Elt Ideal)) (a12 : (⟨S4x128, .f32⟩ : BufTy).Contents (Elt Ideal)) (a13 : (⟨S4x128, .f32⟩ : BufTy).Contents (Elt Ideal)) (a14 : (⟨S4x128, .f32⟩ : BufTy).Contents (Elt Ideal)) (a15 : (⟨S4x128, .f32⟩ : BufTy).Contents (Elt Ideal)) (a16 : (⟨S4x128, .f32⟩ : BufTy).Contents (Elt Ideal)) (a17 : (⟨S4x128x64, .f32⟩ : BufTy).Contents (Elt Ideal)) (a18 : (⟨S4x64, .f32⟩ : BufTy).Contents (Elt Ideal)) (a19 : (⟨S5x64, .f32⟩ : BufTy).Contents (Elt Ideal)) (a20 : (⟨S5x64, .f32⟩ : BufTy).Contents (Elt Ideal)) (a21 : (⟨S5x64, .f32⟩ : BufTy).Contents (Elt Ideal)) (a22 : (⟨S5x64, .f32⟩ : BufTy).Contents (Elt Ideal)) : (⟨S50000x64, .f32⟩ : BufTy).Contents (Elt Ideal) :=
  layer (H2 a0 a1 a2 a3 a4 a5 a6 a7 a8 a9 a10 a11 a12 a13 a14 a15 a16 a17 a18 a19 a20 a21 a22) (aggB (src a1) (dst a1) (H2 a0 a1 a2 a3 a4 a5 a6 a7 a8 a9 a10 a11 a12 a13 a14 a15 a16 a17 a18 a19 a20 a21 a22))
    (shapeCast S64x128 (extractStridedSlice S1x64x128 ![1, 0, 0] a11 slices_S4x64x128_S1x64x128_1_0_0) shapeCasts_S1x64x128_S64x128)
    (shapeCast S1x128 (shapeCast S128 (extractStridedSlice S1x128 ![1, 0] a12 slices_S4x128_S1x128_1_0) shapeCasts_S1x128_S128) shapeCasts_S128_S1x128)
    (shapeCast S1x128 (shapeCast S128 (extractStridedSlice S1x128 ![1, 0] a13 slices_S4x128_S1x128_1_0) shapeCasts_S1x128_S128) shapeCasts_S128_S1x128)
    (shapeCast S1x128 (shapeCast S128 (extractStridedSlice S1x128 ![1, 0] a14 slices_S4x128_S1x128_1_0) shapeCasts_S1x128_S128) shapeCasts_S128_S1x128)
    (shapeCast S1x128 (shapeCast S128 (extractStridedSlice S1x128 ![1, 0] a15 slices_S4x128_S1x128_1_0) shapeCasts_S1x128_S128) shapeCasts_S128_S1x128)
    (shapeCast S1x128 (shapeCast S128 (extractStridedSlice S1x128 ![1, 0] a16 slices_S4x128_S1x128_1_0) shapeCasts_S1x128_S128) shapeCasts_S128_S1x128)
    (shapeCast S128x64 (extractStridedSlice S1x128x64 ![1, 0, 0] a17 slices_S4x128x64_S1x128x64_1_0_0) shapeCasts_S1x128x64_S128x64)
    (shapeCast S1x64 (shapeCast S64 (extractStridedSlice S1x64 ![1, 0] a18 slices_S4x64_S1x64_1_0) shapeCasts_S1x64_S64) shapeCasts_S64_S1x64)
    (shapeCast S1x64 (shapeCast S64 (extractStridedSlice S1x64 ![2, 0] a19 slices_S5x64_S1x64_2_0) shapeCasts_S1x64_S64) shapeCasts_S64_S1x64)
    (shapeCast S1x64 (shapeCast S64 (extractStridedSlice S1x64 ![2, 0] a20 slices_S5x64_S1x64_2_0) shapeCasts_S1x64_S64) shapeCasts_S64_S1x64)
    (shapeCast S1x64 (shapeCast S64 (extractStridedSlice S1x64 ![2, 0] a21 slices_S5x64_S1x64_2_0) shapeCasts_S1x64_S64) shapeCasts_S64_S1x64)
    (shapeCast S1x64 (shapeCast S64 (extractStridedSlice S1x64 ![2, 0] a22 slices_S5x64_S1x64_2_0) shapeCasts_S1x64_S64) shapeCasts_S64_S1x64)

/-- The node features after layer 4. -/
def H4 (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S4x64x128, .f32⟩ : BufTy).Contents (Elt Ideal)) (a12 : (⟨S4x128, .f32⟩ : BufTy).Contents (Elt Ideal)) (a13 : (⟨S4x128, .f32⟩ : BufTy).Contents (Elt Ideal)) (a14 : (⟨S4x128, .f32⟩ : BufTy).Contents (Elt Ideal)) (a15 : (⟨S4x128, .f32⟩ : BufTy).Contents (Elt Ideal)) (a16 : (⟨S4x128, .f32⟩ : BufTy).Contents (Elt Ideal)) (a17 : (⟨S4x128x64, .f32⟩ : BufTy).Contents (Elt Ideal)) (a18 : (⟨S4x64, .f32⟩ : BufTy).Contents (Elt Ideal)) (a19 : (⟨S5x64, .f32⟩ : BufTy).Contents (Elt Ideal)) (a20 : (⟨S5x64, .f32⟩ : BufTy).Contents (Elt Ideal)) (a21 : (⟨S5x64, .f32⟩ : BufTy).Contents (Elt Ideal)) (a22 : (⟨S5x64, .f32⟩ : BufTy).Contents (Elt Ideal)) : (⟨S50000x64, .f32⟩ : BufTy).Contents (Elt Ideal) :=
  layer (H3 a0 a1 a2 a3 a4 a5 a6 a7 a8 a9 a10 a11 a12 a13 a14 a15 a16 a17 a18 a19 a20 a21 a22) (aggB (src a1) (dst a1) (H3 a0 a1 a2 a3 a4 a5 a6 a7 a8 a9 a10 a11 a12 a13 a14 a15 a16 a17 a18 a19 a20 a21 a22))
    (shapeCast S64x128 (extractStridedSlice S1x64x128 ![2, 0, 0] a11 slices_S4x64x128_S1x64x128_2_0_0) shapeCasts_S1x64x128_S64x128)
    (shapeCast S1x128 (shapeCast S128 (extractStridedSlice S1x128 ![2, 0] a12 slices_S4x128_S1x128_2_0) shapeCasts_S1x128_S128) shapeCasts_S128_S1x128)
    (shapeCast S1x128 (shapeCast S128 (extractStridedSlice S1x128 ![2, 0] a13 slices_S4x128_S1x128_2_0) shapeCasts_S1x128_S128) shapeCasts_S128_S1x128)
    (shapeCast S1x128 (shapeCast S128 (extractStridedSlice S1x128 ![2, 0] a14 slices_S4x128_S1x128_2_0) shapeCasts_S1x128_S128) shapeCasts_S128_S1x128)
    (shapeCast S1x128 (shapeCast S128 (extractStridedSlice S1x128 ![2, 0] a15 slices_S4x128_S1x128_2_0) shapeCasts_S1x128_S128) shapeCasts_S128_S1x128)
    (shapeCast S1x128 (shapeCast S128 (extractStridedSlice S1x128 ![2, 0] a16 slices_S4x128_S1x128_2_0) shapeCasts_S1x128_S128) shapeCasts_S128_S1x128)
    (shapeCast S128x64 (extractStridedSlice S1x128x64 ![2, 0, 0] a17 slices_S4x128x64_S1x128x64_2_0_0) shapeCasts_S1x128x64_S128x64)
    (shapeCast S1x64 (shapeCast S64 (extractStridedSlice S1x64 ![2, 0] a18 slices_S4x64_S1x64_2_0) shapeCasts_S1x64_S64) shapeCasts_S64_S1x64)
    (shapeCast S1x64 (shapeCast S64 (extractStridedSlice S1x64 ![3, 0] a19 slices_S5x64_S1x64_3_0) shapeCasts_S1x64_S64) shapeCasts_S64_S1x64)
    (shapeCast S1x64 (shapeCast S64 (extractStridedSlice S1x64 ![3, 0] a20 slices_S5x64_S1x64_3_0) shapeCasts_S1x64_S64) shapeCasts_S64_S1x64)
    (shapeCast S1x64 (shapeCast S64 (extractStridedSlice S1x64 ![3, 0] a21 slices_S5x64_S1x64_3_0) shapeCasts_S1x64_S64) shapeCasts_S64_S1x64)
    (shapeCast S1x64 (shapeCast S64 (extractStridedSlice S1x64 ![3, 0] a22 slices_S5x64_S1x64_3_0) shapeCasts_S1x64_S64) shapeCasts_S64_S1x64)

/-- The node features after layer 5. -/
def H5 (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S4x64x128, .f32⟩ : BufTy).Contents (Elt Ideal)) (a12 : (⟨S4x128, .f32⟩ : BufTy).Contents (Elt Ideal)) (a13 : (⟨S4x128, .f32⟩ : BufTy).Contents (Elt Ideal)) (a14 : (⟨S4x128, .f32⟩ : BufTy).Contents (Elt Ideal)) (a15 : (⟨S4x128, .f32⟩ : BufTy).Contents (Elt Ideal)) (a16 : (⟨S4x128, .f32⟩ : BufTy).Contents (Elt Ideal)) (a17 : (⟨S4x128x64, .f32⟩ : BufTy).Contents (Elt Ideal)) (a18 : (⟨S4x64, .f32⟩ : BufTy).Contents (Elt Ideal)) (a19 : (⟨S5x64, .f32⟩ : BufTy).Contents (Elt Ideal)) (a20 : (⟨S5x64, .f32⟩ : BufTy).Contents (Elt Ideal)) (a21 : (⟨S5x64, .f32⟩ : BufTy).Contents (Elt Ideal)) (a22 : (⟨S5x64, .f32⟩ : BufTy).Contents (Elt Ideal)) : (⟨S50000x64, .f32⟩ : BufTy).Contents (Elt Ideal) :=
  layer (H4 a0 a1 a2 a3 a4 a5 a6 a7 a8 a9 a10 a11 a12 a13 a14 a15 a16 a17 a18 a19 a20 a21 a22) (aggB (src a1) (dst a1) (H4 a0 a1 a2 a3 a4 a5 a6 a7 a8 a9 a10 a11 a12 a13 a14 a15 a16 a17 a18 a19 a20 a21 a22))
    (shapeCast S64x128 (extractStridedSlice S1x64x128 ![3, 0, 0] a11 slices_S4x64x128_S1x64x128_3_0_0) shapeCasts_S1x64x128_S64x128)
    (shapeCast S1x128 (shapeCast S128 (extractStridedSlice S1x128 ![3, 0] a12 slices_S4x128_S1x128_3_0) shapeCasts_S1x128_S128) shapeCasts_S128_S1x128)
    (shapeCast S1x128 (shapeCast S128 (extractStridedSlice S1x128 ![3, 0] a13 slices_S4x128_S1x128_3_0) shapeCasts_S1x128_S128) shapeCasts_S128_S1x128)
    (shapeCast S1x128 (shapeCast S128 (extractStridedSlice S1x128 ![3, 0] a14 slices_S4x128_S1x128_3_0) shapeCasts_S1x128_S128) shapeCasts_S128_S1x128)
    (shapeCast S1x128 (shapeCast S128 (extractStridedSlice S1x128 ![3, 0] a15 slices_S4x128_S1x128_3_0) shapeCasts_S1x128_S128) shapeCasts_S128_S1x128)
    (shapeCast S1x128 (shapeCast S128 (extractStridedSlice S1x128 ![3, 0] a16 slices_S4x128_S1x128_3_0) shapeCasts_S1x128_S128) shapeCasts_S128_S1x128)
    (shapeCast S128x64 (extractStridedSlice S1x128x64 ![3, 0, 0] a17 slices_S4x128x64_S1x128x64_3_0_0) shapeCasts_S1x128x64_S128x64)
    (shapeCast S1x64 (shapeCast S64 (extractStridedSlice S1x64 ![3, 0] a18 slices_S4x64_S1x64_3_0) shapeCasts_S1x64_S64) shapeCasts_S64_S1x64)
    (shapeCast S1x64 (shapeCast S64 (extractStridedSlice S1x64 ![4, 0] a19 slices_S5x64_S1x64_4_0) shapeCasts_S1x64_S64) shapeCasts_S64_S1x64)
    (shapeCast S1x64 (shapeCast S64 (extractStridedSlice S1x64 ![4, 0] a20 slices_S5x64_S1x64_4_0) shapeCasts_S1x64_S64) shapeCasts_S64_S1x64)
    (shapeCast S1x64 (shapeCast S64 (extractStridedSlice S1x64 ![4, 0] a21 slices_S5x64_S1x64_4_0) shapeCasts_S1x64_S64) shapeCasts_S64_S1x64)
    (shapeCast S1x64 (shapeCast S64 (extractStridedSlice S1x64 ![4, 0] a22 slices_S5x64_S1x64_4_0) shapeCasts_S1x64_S64) shapeCasts_S64_S1x64)

/-- The program's result: the pooled features of the last layer. -/
def kerNet (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S4x64x128, .f32⟩ : BufTy).Contents (Elt Ideal)) (a12 : (⟨S4x128, .f32⟩ : BufTy).Contents (Elt Ideal)) (a13 : (⟨S4x128, .f32⟩ : BufTy).Contents (Elt Ideal)) (a14 : (⟨S4x128, .f32⟩ : BufTy).Contents (Elt Ideal)) (a15 : (⟨S4x128, .f32⟩ : BufTy).Contents (Elt Ideal)) (a16 : (⟨S4x128, .f32⟩ : BufTy).Contents (Elt Ideal)) (a17 : (⟨S4x128x64, .f32⟩ : BufTy).Contents (Elt Ideal)) (a18 : (⟨S4x64, .f32⟩ : BufTy).Contents (Elt Ideal)) (a19 : (⟨S5x64, .f32⟩ : BufTy).Contents (Elt Ideal)) (a20 : (⟨S5x64, .f32⟩ : BufTy).Contents (Elt Ideal)) (a21 : (⟨S5x64, .f32⟩ : BufTy).Contents (Elt Ideal)) (a22 : (⟨S5x64, .f32⟩ : BufTy).Contents (Elt Ideal)) : (⟨S128x64, .f32⟩ : BufTy).Contents (Elt Ideal) :=
  pool a2 (H5 a0 a1 a2 a3 a4 a5 a6 a7 a8 a9 a10 a11 a12 a13 a14 a15 a16 a17 a18 a19 a20 a21 a22)

/-! ## What a stretch of host operations leaves alone -/

theorem ho0 : (hostOps0 : List (HloOp τ sig (Elt Ideal))).Forall (WritesFrom 23) := by writes_own
theorem ho1 : (hostOps1 : List (HloOp τ sig (Elt Ideal))).Forall (WritesFrom 66) := by writes_own
theorem ho2 : (hostOps2 : List (HloOp τ sig (Elt Ideal))).Forall (WritesFrom 121) := by writes_own
theorem ho3 : (hostOps3 : List (HloOp τ sig (Elt Ideal))).Forall (WritesFrom 176) := by writes_own
theorem ho4 : (hostOps4 : List (HloOp τ sig (Elt Ideal))).Forall (WritesFrom 231) := by writes_own

variable (m : (ℓ : Loc nD τ sig) → Buf (Elt Ideal) ℓ) (ρ : Dev nD → PrngReg)

/-- An argument array when the first region is entered: as launched. -/
theorem W1_low (c : Dev nD) (r : Ref sig .tc) (hr : r.idx.val < 23) :
    W1 m ρ c (Proc.devRef .tc r) = m ((c : Thread nD τ).loc r) :=
  (after_below 23 hostOps0 (W0 m ρ c) ho0 r hr).trans rfl

/-- The source row when the first region is entered. -/
theorem W1_src (c : Dev nD) : W1 m ρ c (Proc.devRef .tc main_v1) = src (m ((c : Thread nD τ).loc main_arg1)) := by
  show StableHlo.after hostOps0 (W0 m ρ c) (Proc.devRef .tc main_v1) = _
  after_results_simp
  rfl

/-- The destination row when the first region is entered. -/
theorem W1_dst (c : Dev nD) : W1 m ρ c (Proc.devRef .tc main_v3) = dst (m ((c : Thread nD τ).loc main_arg1)) := by
  show StableHlo.after hostOps0 (W0 m ρ c) (Proc.devRef .tc main_v3) = _
  after_results_simp
  rfl

/-- A buffer no window of the first region stages, and that the later stretches and regions leave alone,
    holds when each later region is left what it held when the first was entered. -/
theorem keep2 (c : Dev nD) (r : Ref sig .tc) (h0 : ∀ w, Pipeline.arrRef spec0 w ≠ r) :
    W2 m ρ c (Proc.devRef .tc r) = W1 m ρ c (Proc.devRef .tc r) := W2_of_ne m ρ c r h0

theorem keep4 (c : Dev nD) (r : Ref sig .tc) (hr : r.idx.val < 66) (h0 : ∀ w, Pipeline.arrRef spec0 w ≠ r)
    (h1 : ∀ w, Pipeline.arrRef spec1 w ≠ r) : W4 m ρ c (Proc.devRef .tc r) = W1 m ρ c (Proc.devRef .tc r) :=
  (W4_of_ne m ρ c r h1).trans ((after_below 66 hostOps1 (W2 m ρ c) ho1 r hr).trans (keep2 m ρ c r h0))

theorem keep6 (c : Dev nD) (r : Ref sig .tc) (hr : r.idx.val < 66) (h0 : ∀ w, Pipeline.arrRef spec0 w ≠ r)
    (h1 : ∀ w, Pipeline.arrRef spec1 w ≠ r) (h2 : ∀ w, Pipeline.arrRef spec2 w ≠ r) :
    W6 m ρ c (Proc.devRef .tc r) = W1 m ρ c (Proc.devRef .tc r) :=
  (W6_of_ne m ρ c r h2).trans ((after_below 121 hostOps2 (W4 m ρ c) ho2 r (by omega)).trans (keep4 m ρ c r hr h0 h1))

theorem keep8 (c : Dev nD) (r : Ref sig .tc) (hr : r.idx.val < 66) (h0 : ∀ w, Pipeline.arrRef spec0 w ≠ r)
    (h1 : ∀ w, Pipeline.arrRef spec1 w ≠ r) (h2 : ∀ w, Pipeline.arrRef spec2 w ≠ r) (h3 : ∀ w, Pipeline.arrRef spec3 w ≠ r) :
    W8 m ρ c (Proc.devRef .tc r) = W1 m ρ c (Proc.devRef .tc r) :=
  (W8_of_ne m ρ c r h3).trans ((after_below 176 hostOps3 (W6 m ρ c) ho3 r (by omega)).trans (keep6 m ρ c r hr h0 h1 h2))

theorem keep10 (c : Dev nD) (r : Ref sig .tc) (hr : r.idx.val < 66) (h0 : ∀ w, Pipeline.arrRef spec0 w ≠ r)
    (h1 : ∀ w, Pipeline.arrRef spec1 w ≠ r) (h2 : ∀ w, Pipeline.arrRef spec2 w ≠ r) (h3 : ∀ w, Pipeline.arrRef spec3 w ≠ r)
    (h4 : ∀ w, Pipeline.arrRef spec4 w ≠ r) :
    W10 m ρ c (Proc.devRef .tc r) = W1 m ρ c (Proc.devRef .tc r) :=
  (W10_of_ne m ρ c r h4).trans ((after_below 231 hostOps4 (W8 m ρ c) ho4 r (by omega)).trans (keep8 m ρ c r hr h0 h1 h2 h3))

/-- Equal arguments, equal layers. -/
theorem layer_congr {M K H N : ℕ} {x x' agg agg' : (⟨2, ![M, K]⟩ : Shape).Idx → EReal} {w1 w1' : (⟨2, ![K, H]⟩ : Shape).Idx → EReal}
    {b1 b1' ig ig' ib ib' im im' iv iv' : (⟨2, ![1, H]⟩ : Shape).Idx → EReal} {w2 w2' : (⟨2, ![H, N]⟩ : Shape).Idx → EReal}
    {b2 b2' og og' ob ob' om om' ov ov' : (⟨2, ![1, N]⟩ : Shape).Idx → EReal}
    (h0 : x = x') (h1 : agg = agg') (h2 : w1 = w1') (h3 : b1 = b1') (h4 : ig = ig') (h5 : ib = ib') (h6 : im = im') (h7 : iv = iv')
    (h8 : w2 = w2') (h9 : b2 = b2') (h10 : og = og') (h11 : ob = ob') (h12 : om = om') (h13 : ov = ov') :
    layer x agg w1 b1 ig ib im iv w2 b2 og ob om ov = layer x' agg' w1' b1' ig' ib' im' iv' w2' b2' og' ob' om' ov' := by
  subst h0 h1 h2 h3 h4 h5 h6 h7 h8 h9 h10 h11 h12 h13; rfl

/-- A parameter vector reshaped to a row is the vector laid out as a row. -/
theorem shapeCast_rowOf {N : ℕ} (v : (⟨1, ![N]⟩ : Shape).Idx → EReal) (h : (⟨1, ![N]⟩ : Shape).ShapeCasts ⟨2, ![1, N]⟩) :
    shapeCast (⟨2, ![1, N]⟩ : Shape) v h = rowOf v := by
  funext i
  obtain ⟨a, q, rfl⟩ : ∃ (a : Fin 1) (q : Fin N), i = ix2 a q := ⟨i 0, i 1, eq_ix2 i⟩
  obtain rfl : a = 0 := Subsingleton.elim _ _
  exact Cert.Gcn.shapeCast_row_apply v h q

end Cert.KernelIdeal.KV

end
-- ==== Proof.LibGinKernel.lean ====
/-
  One layer of a graph isomorphism network, as a body computes it on whole blocks.

  A body that holds a block of M feature rows x and the block a of their neighbours' sums computes the layer
  in four steps on whole [M, ·] arrays: the product  (x + a) · W₁  of the bf16-cast operands into a zero
  accumulator; the normalise-and-rectify stage

      v  ↦  max( (v + bias − μ) · rsqrt(σ² + ε) · γ + β , 0 ),

  each of bias, μ, σ², γ, β a [1, H] row laid over the M rows and ε, 0 splat scalars; the product of the
  (bf16-cast) result with W₂; and the same stage again with the second set of rows. At the exact instance a
  change of float format is the identity and the product into a zero accumulator is the plain sum, so the
  four steps are, entry by entry, the layer of `LibGinLayer`: entry (r, c) is `layerAt` of row r.
-/
import Idealize.ShloMosaic.Lib.ValueIdx
import Idealize.ShloMosaic.Lib.ValueLayout
import Idealize.ShloMosaic.Lib.Pipeline.Value
import Idealize.ShloMosaic.PureOps.Ideal.Laws
import proofs.«120131_j65111704207433_2_alg».proof.Proof.LibPlainDense
import proofs.«120131_j65111704207433_2_alg».proof.Proof.LibGinLayer

noncomputable section

namespace Cert.GinLayer

open Idealize.ShloMosaic Idealize.ShloMosaic.ValueIdx Idealize.ShloMosaic.Pipeline Cert.LibDense Cert.Gcn

/-- The normalise-and-rectify stage on a whole block: entry (r, c) is  max((a(r, c) + bias(c) − μ(c)) · rsqrt(σ²(c) + ε) · γ(c) + β(c), 0). -/
def bnRelu {M N : ℕ} (a : (⟨2, ![M, N]⟩ : Shape).Idx → EReal) (bias g b mu var : (⟨2, ![1, N]⟩ : Shape).Idx → EReal) :
    (⟨2, ![M, N]⟩ : Shape).Idx → EReal :=
  fun i => bnReluAt (a i + bias (ix2 (0 : Fin 1) (i 1))) (g (ix2 (0 : Fin 1) (i 1))) (b (ix2 (0 : Fin 1) (i 1)))
    (mu (ix2 (0 : Fin 1) (i 1))) (var (ix2 (0 : Fin 1) (i 1)))

/-- The stage at an entry given by its coordinates. -/
theorem bnRelu_apply {M N : ℕ} (a : (⟨2, ![M, N]⟩ : Shape).Idx → EReal) (bias g b mu var : (⟨2, ![1, N]⟩ : Shape).Idx → EReal)
    (p : Fin M) (c : Fin N) :
    bnRelu a bias g b mu var (ix2 p c)
      = bnReluAt (a (ix2 p c) + bias (ix2 (0 : Fin 1) c)) (g (ix2 (0 : Fin 1) c)) (b (ix2 (0 : Fin 1) c))
          (mu (ix2 (0 : Fin 1) c)) (var (ix2 (0 : Fin 1) c)) := rfl

/-- The layer is the two products, each followed by its stage. -/
theorem layer_eq_stages {M K H N : ℕ} (x agg : (⟨2, ![M, K]⟩ : Shape).Idx → EReal) (w1 : (⟨2, ![K, H]⟩ : Shape).Idx → EReal)
    (b1 ig ib im iv : (⟨2, ![1, H]⟩ : Shape).Idx → EReal) (w2 : (⟨2, ![H, N]⟩ : Shape).Idx → EReal)
    (b2 og ob om ov : (⟨2, ![1, N]⟩ : Shape).Idx → EReal) :
    bnRelu (mm (bnRelu (mm (fun i => x i + agg i) w1) b1 ig ib im iv) w2) b2 og ob om ov
      = layer x agg w1 b1 ig ib im iv w2 b2 og ob om ov := by
  funext j
  obtain ⟨p, c, rfl⟩ : ∃ (p : Fin M) (c : Fin N), j = ix2 p c := ⟨j 0, j 1, eq_ix2 j⟩
  rfl

/-- The body's normalise-and-rectify sequence on a block — each parameter row cast to its own shape and laid over the
    rows, the variance row offset by the splat ε before the reciprocal square root, the maximum with a splat zero — is the stage. -/
theorem bnRelu_block {M N : ℕ} (a : FVec Ideal (⟨2, ![M, N]⟩ : Shape) .f32)
    (bias mu var g b : FVec Ideal (⟨2, ![1, N]⟩ : Shape) .f32)
    (hc₁ hc₂ hc₃ hc₄ hc₅ : (⟨2, ![1, N]⟩ : Shape).ShapeCasts ⟨2, ![1, N]⟩)
    (hb₁ hb₂ hb₃ hb₄ hb₅ : (⟨2, ![1, N]⟩ : Shape).Broadcasts ⟨2, ![M, N]⟩) :
    maximumf
        (addf
          (mulf
            (mulf
              (subf
                (addf a (broadcastTo (⟨2, ![M, N]⟩ : Shape) (shapeCast (⟨2, ![1, N]⟩ : Shape) bias hc₁) hb₁))
                (broadcastTo (⟨2, ![M, N]⟩ : Shape) (shapeCast (⟨2, ![1, N]⟩ : Shape) mu hc₂) hb₂))
              (broadcastTo (⟨2, ![M, N]⟩ : Shape)
                (rsqrt (addf (shapeCast (⟨2, ![1, N]⟩ : Shape) var hc₃)
                  (broadcast (⟨2, ![1, N]⟩ : Shape) (Scalar.ofBits (F := Ideal) .f32 0x3727C5AC#32)))) hb₃))
            (broadcastTo (⟨2, ![M, N]⟩ : Shape) (shapeCast (⟨2, ![1, N]⟩ : Shape) g hc₄) hb₄))
          (broadcastTo (⟨2, ![M, N]⟩ : Shape) (shapeCast (⟨2, ![1, N]⟩ : Shape) b hc₅) hb₅))
        (broadcast (⟨2, ![M, N]⟩ : Shape) (Scalar.ofBits (F := Ideal) .f32 0x00000000#32))
      = bnRelu a bias g b mu var := by
  rw [shapeCast_self bias hc₁, shapeCast_self mu hc₂, shapeCast_self var hc₃, shapeCast_self g hc₄, shapeCast_self b hc₅]
  funext j
  obtain ⟨p, c, rfl⟩ : ∃ (p : Fin M) (c : Fin N), j = ix2 p c := ⟨j 0, j 1, eq_ix2 j⟩
  show max ((a (ix2 p c) + broadcastTo (⟨2, ![M, N]⟩ : Shape) bias hb₁ (ix2 p c)
        - broadcastTo (⟨2, ![M, N]⟩ : Shape) mu hb₂ (ix2 p c))
        * broadcastTo (⟨2, ![M, N]⟩ : Shape)
            (rsqrt (addf var (broadcast (⟨2, ![1, N]⟩ : Shape) (Scalar.ofBits (F := Ideal) .f32 0x3727C5AC#32)))) hb₃ (ix2 p c)
        * broadcastTo (⟨2, ![M, N]⟩ : Shape) g hb₄ (ix2 p c)
        + broadcastTo (⟨2, ![M, N]⟩ : Shape) b hb₅ (ix2 p c)) zero = _
  rw [broadcastTo_1b_ab_apply bias hb₁ p c, broadcastTo_1b_ab_apply mu hb₂ p c, broadcastTo_1b_ab_apply _ hb₃ p c,
    broadcastTo_1b_ab_apply g hb₄ p c, broadcastTo_1b_ab_apply b hb₅ p c]
  rfl

/-- The body's whole operation sequence on a block of rows is the layer of the block. The two operand blocks and the
    two weights may each have passed through a cast to their own shape (`x'`, `agg'`, `w1'`, `w2'` are what the products
    read); the dimension records of the two products are any that equal the plain [M, K] × [K, H] and [M, H] × [H, N] ones. -/
theorem layer_block {M K H N : ℕ}
    (d1 : DotDims (⟨2, ![M, K]⟩ : Shape) (⟨2, ![K, H]⟩ : Shape) (⟨2, ![M, H]⟩ : Shape)) (hd1 : d1 = DotDims.plain M K H)
    (d2 : DotDims (⟨2, ![M, H]⟩ : Shape) (⟨2, ![H, N]⟩ : Shape) (⟨2, ![M, N]⟩ : Shape)) (hd2 : d2 = DotDims.plain M H N)
    (x agg x' agg' : FVec Ideal (⟨2, ![M, K]⟩ : Shape) .f32) (hx : x' = x) (hagg : agg' = agg)
    (w1 w1' : FVec Ideal (⟨2, ![K, H]⟩ : Shape) .f32) (hw1 : w1' = w1)
    (b1 ig ib im iv : FVec Ideal (⟨2, ![1, H]⟩ : Shape) .f32)
    (w2 w2' : FVec Ideal (⟨2, ![H, N]⟩ : Shape) .f32) (hw2 : w2' = w2)
    (b2 og ob om ov : FVec Ideal (⟨2, ![1, N]⟩ : Shape) .f32)
    (t₁ t₂ t₃ t₄ : FTy.bf16.bits < FTy.f32.bits)
    (hc₁ hc₂ hc₃ hc₄ hc₅ : (⟨2, ![1, H]⟩ : Shape).ShapeCasts ⟨2, ![1, H]⟩)
    (hb₁ hb₂ hb₃ hb₄ hb₅ : (⟨2, ![1, H]⟩ : Shape).Broadcasts ⟨2, ![M, H]⟩)
    (kc₁ kc₂ kc₃ kc₄ kc₅ : (⟨2, ![1, N]⟩ : Shape).ShapeCasts ⟨2, ![1, N]⟩)
    (kb₁ kb₂ kb₃ kb₄ kb₅ : (⟨2, ![1, N]⟩ : Shape).Broadcasts ⟨2, ![M, N]⟩) :
    maximumf
        (addf
          (mulf
            (mulf
              (subf
                (addf
                  (matmul d2 none
                    (truncf .bf16
                      (maximumf
                        (addf
                          (mulf
                            (mulf
                              (subf
                                (addf
                                  (matmul d1 none (truncf .bf16 (addf x' agg') t₁) (truncf .bf16 w1' t₂)
                                    (constant (⟨2, ![M, H]⟩ : Shape) .f32 0x00000000#32))
                                  (broadcastTo (⟨2, ![M, H]⟩ : Shape) (shapeCast (⟨2, ![1, H]⟩ : Shape) b1 hc₁) hb₁))
                                (broadcastTo (⟨2, ![M, H]⟩ : Shape) (shapeCast (⟨2, ![1, H]⟩ : Shape) im hc₂) hb₂))
                              (broadcastTo (⟨2, ![M, H]⟩ : Shape)
                                (rsqrt (addf (shapeCast (⟨2, ![1, H]⟩ : Shape) iv hc₃)
                                  (broadcast (⟨2, ![1, H]⟩ : Shape) (Scalar.ofBits (F := Ideal) .f32 0x3727C5AC#32)))) hb₃))
                            (broadcastTo (⟨2, ![M, H]⟩ : Shape) (shapeCast (⟨2, ![1, H]⟩ : Shape) ig hc₄) hb₄))
                          (broadcastTo (⟨2, ![M, H]⟩ : Shape) (shapeCast (⟨2, ![1, H]⟩ : Shape) ib hc₅) hb₅))
                        (broadcast (⟨2, ![M, H]⟩ : Shape) (Scalar.ofBits (F := Ideal) .f32 0x00000000#32)))
                      t₃)
                    (truncf .bf16 w2' t₄) (constant (⟨2, ![M, N]⟩ : Shape) .f32 0x00000000#32))
                  (broadcastTo (⟨2, ![M, N]⟩ : Shape) (shapeCast (⟨2, ![1, N]⟩ : Shape) b2 kc₁) kb₁))
                (broadcastTo (⟨2, ![M, N]⟩ : Shape) (shapeCast (⟨2, ![1, N]⟩ : Shape) om kc₂) kb₂))
              (broadcastTo (⟨2, ![M, N]⟩ : Shape)
                (rsqrt (addf (shapeCast (⟨2, ![1, N]⟩ : Shape) ov kc₃)
                  (broadcast (⟨2, ![1, N]⟩ : Shape) (Scalar.ofBits (F := Ideal) .f32 0x3727C5AC#32)))) kb₃))
            (broadcastTo (⟨2, ![M, N]⟩ : Shape) (shapeCast (⟨2, ![1, N]⟩ : Shape) og kc₄) kb₄))
          (broadcastTo (⟨2, ![M, N]⟩ : Shape) (shapeCast (⟨2, ![1, N]⟩ : Shape) ob kc₅) kb₅))
        (broadcast (⟨2, ![M, N]⟩ : Shape) (Scalar.ofBits (F := Ideal) .f32 0x00000000#32))
      = layer x agg w1 b1 ig ib im iv w2 b2 og ob om ov := by
  subst hd1 hd2 hx hagg hw1 hw2
  rw [matmul_eq_mm (addf x' agg') w1' t₁ t₂, bnRelu_block _ b1 im iv ig ib hc₁ hc₂ hc₃ hc₄ hc₅ hb₁ hb₂ hb₃ hb₄ hb₅,
    matmul_eq_mm _ w2' t₃ t₄, bnRelu_block _ b2 om ov og ob kc₁ kc₂ kc₃ kc₄ kc₅ kb₁ kb₂ kb₃ kb₄ kb₅]
  exact layer_eq_stages x' agg' w1' b1 ig ib im iv w2' b2 og ob om ov

end Cert.GinLayer

end
-- ==== Proof.KernelPay.lean ====
/-
  What each region of the kernel stores, as a function of the blocks it read: the layer of those blocks.

  Each of the five regions reads a block of feature rows, the block of their neighbours' sums, the two weights
  and the ten parameter rows, and stores one block: the product of the bf16-cast sum with the first weight, the
  normalise-and-rectify stage, the product with the second weight, the stage again. The printed matrix products
  have the plain dimension records, so the stored block is `Cert.GinLayer.layer` of the blocks read.
-/
import proofs.«120131_j65111704207433_2_alg».proof.Proof.Gen.KernelIdeal.Skeleton
import proofs.«120131_j65111704207433_2_alg».proof.Proof.LibGinKernel

noncomputable section

namespace Cert.KernelIdeal.Pay

open Idealize.ShloMosaic Idealize.ShloMosaic.ValueIdx Idealize.ShloMosaic.Pipeline Cert.KernelIdeal

/-- The printed record of the [5000, 128] × [128, 128] product is the plain one. -/
theorem dot_5000_128_128 : dot_S5000x128_S128x128_S5000x128_1_0_0_1_n_n = DotDims.plain 5000 128 128 := rfl

/-- The printed record of the [5000, 128] × [128, 64] product is the plain one. -/
theorem dot_5000_128_64 : dot_S5000x128_S128x64_S5000x64_1_0_0_1_n_n = DotDims.plain 5000 128 64 := rfl

/-- The printed record of the [5000, 64] × [64, 128] product is the plain one. -/
theorem dot_5000_64_128 : dot_S5000x64_S64x128_S5000x128_1_0_0_1_n_n = DotDims.plain 5000 64 128 := rfl

/-- Region 0's stored block is the layer of the blocks it read. -/
theorem pay0_eq (x0 x1 : Vec Ideal S5000x128 .f32) (x2 : Vec Ideal S128x128 .f32) (x3 x4 x5 x6 x7 : Vec Ideal S1x128 .f32)
    (x8 : Vec Ideal S128x64 .f32) (x9 x10 x11 x12 x13 : Vec Ideal S1x64 .f32) :
    Gen.k0_pay1 (F := Ideal) (Gen.k0_pay2 x0 x1 x2 x3 x6 x7 x4 x5 x8) x9 x12 x13 x10 x11
      = Cert.GinLayer.layer x0 x1 x2 x3 x4 x5 x6 x7 x8 x9 x10 x11 x12 x13 := by
  unfold Gen.k0_pay1 Gen.k0_pay2
  exact Cert.GinLayer.layer_block _ dot_5000_128_128 _ dot_5000_128_64 x0 x1 _ _ rfl (shapeCast_self x1 _)
    x2 _ rfl x3 x4 x5 x6 x7 x8 _ rfl x9 x10 x11 x12 x13
    _ _ _ _ _ _ _ _ _ _ _ _ _ _ _ _ _ _ _ _ _ _ _ _

/-- Region 1's stored block is the layer of the blocks it read. -/
theorem pay1_eq (x0 x1 : Vec Ideal S5000x64 .f32) (x2 : Vec Ideal S64x128 .f32) (x3 x4 x5 x6 x7 : Vec Ideal S1x128 .f32)
    (x8 : Vec Ideal S128x64 .f32) (x9 x10 x11 x12 x13 : Vec Ideal S1x64 .f32) :
    Gen.k1_pay1 (F := Ideal) (Gen.k1_pay2 x0 x1 x2 x3 x6 x7 x4 x5) (Gen.k1_pay3 x8) x9 x12 x13 x10 x11
      = Cert.GinLayer.layer x0 x1 x2 x3 x4 x5 x6 x7 x8 x9 x10 x11 x12 x13 := by
  unfold Gen.k1_pay1 Gen.k1_pay2 Gen.k1_pay3
  exact Cert.GinLayer.layer_block _ dot_5000_64_128 _ dot_5000_128_64 x0 x1 _ _ (shapeCast_self x0 _) (shapeCast_self x1 _)
    x2 _ (shapeCast_self x2 _) x3 x4 x5 x6 x7 x8 _ (shapeCast_self x8 _) x9 x10 x11 x12 x13
    _ _ _ _ _ _ _ _ _ _ _ _ _ _ _ _ _ _ _ _ _ _ _ _

/-- Region 2's stored block is the layer of the blocks it read. -/
theorem pay2_eq (x0 x1 : Vec Ideal S5000x64 .f32) (x2 : Vec Ideal S64x128 .f32) (x3 x4 x5 x6 x7 : Vec Ideal S1x128 .f32)
    (x8 : Vec Ideal S128x64 .f32) (x9 x10 x11 x12 x13 : Vec Ideal S1x64 .f32) :
    Gen.k2_pay1 (F := Ideal) (Gen.k2_pay2 x0 x1 x2 x3 x6 x7 x4 x5) (Gen.k2_pay3 x8) x9 x12 x13 x10 x11
      = Cert.GinLayer.layer x0 x1 x2 x3 x4 x5 x6 x7 x8 x9 x10 x11 x12 x13 := by
  unfold Gen.k2_pay1 Gen.k2_pay2 Gen.k2_pay3
  exact Cert.GinLayer.layer_block _ dot_5000_64_128 _ dot_5000_128_64 x0 x1 _ _ (shapeCast_self x0 _) (shapeCast_self x1 _)
    x2 _ (shapeCast_self x2 _) x3 x4 x5 x6 x7 x8 _ (shapeCast_self x8 _) x9 x10 x11 x12 x13
    _ _ _ _ _ _ _ _ _ _ _ _ _ _ _ _ _ _ _ _ _ _ _ _

/-- Region 3's stored block is the layer of the blocks it read. -/
theorem pay3_eq (x0 x1 : Vec Ideal S5000x64 .f32) (x2 : Vec Ideal S64x128 .f32) (x3 x4 x5 x6 x7 : Vec Ideal S1x128 .f32)
    (x8 : Vec Ideal S128x64 .f32) (x9 x10 x11 x12 x13 : Vec Ideal S1x64 .f32) :
    Gen.k3_pay1 (F := Ideal) (Gen.k3_pay2 x0 x1 x2 x3 x6 x7 x4 x5) (Gen.k3_pay3 x8) x9 x12 x13 x10 x11
      = Cert.GinLayer.layer x0 x1 x2 x3 x4 x5 x6 x7 x8 x9 x10 x11 x12 x13 := by
  unfold Gen.k3_pay1 Gen.k3_pay2 Gen.k3_pay3
  exact Cert.GinLayer.layer_block _ dot_5000_64_128 _ dot_5000_128_64 x0 x1 _ _ (shapeCast_self x0 _) (shapeCast_self x1 _)
    x2 _ (shapeCast_self x2 _) x3 x4 x5 x6 x7 x8 _ (shapeCast_self x8 _) x9 x10 x11 x12 x13
    _ _ _ _ _ _ _ _ _ _ _ _ _ _ _ _ _ _ _ _ _ _ _ _

/-- Region 4's stored block is the layer of the blocks it read. -/
theorem pay4_eq (x0 x1 : Vec Ideal S5000x64 .f32) (x2 : Vec Ideal S64x128 .f32) (x3 x4 x5 x6 x7 : Vec Ideal S1x128 .f32)
    (x8 : Vec Ideal S128x64 .f32) (x9 x10 x11 x12 x13 : Vec Ideal S1x64 .f32) :
    Gen.k4_pay1 (F := Ideal) (Gen.k4_pay2 x0 x1 x2 x3 x6 x7 x4 x5) (Gen.k4_pay3 x8) x9 x12 x13 x10 x11
      = Cert.GinLayer.layer x0 x1 x2 x3 x4 x5 x6 x7 x8 x9 x10 x11 x12 x13 := by
  unfold Gen.k4_pay1 Gen.k4_pay2 Gen.k4_pay3
  exact Cert.GinLayer.layer_block _ dot_5000_64_128 _ dot_5000_128_64 x0 x1 _ _ (shapeCast_self x0 _) (shapeCast_self x1 _)
    x2 _ (shapeCast_self x2 _) x3 x4 x5 x6 x7 x8 _ (shapeCast_self x8 _) x9 x10 x11 x12 x13
    _ _ _ _ _ _ _ _ _ _ _ _ _ _ _ _ _ _ _ _ _ _ _ _

end Cert.KernelIdeal.Pay

end
-- ==== Proof.Final0.lean ====
/-
  Region 0 of the idealized kernel: what its output array holds when the region is left.

  The region runs one layer over ten blocks of 5000 nodes.  At grid point t the body reads rows
  5000·t … 5000·t + 4999 of the node features and of the aggregate, and the twelve parameter arrays whole;
  it writes rows 5000·t … 5000·t + 4999 of the output.  An entry of a layer reads only its own row of the
  features and of the aggregate, so block t of the layer of the whole arrays is the layer of the blocks;
  the ten blocks fill the 50000 rows, so the output array is the layer of the arrays the region found.
-/
import proofs.«120131_j65111704207433_2_alg».proof.Proof.Gen.KernelIdeal.Frame
import proofs.«120131_j65111704207433_2_alg».proof.Proof.KernelPay
import Idealize.ShloMosaic.Lib.Pipeline.Value
import Idealize.ShloMosaic.Lib.ValueIdx

set_option maxRecDepth 16384

noncomputable section

namespace Cert.KernelIdeal.Final0

open Cert.KernelIdeal Cert.KernelIdeal.Gen Cert.GinLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds at its fourteen input windows. -/
def G (c : Dev nD) : S50000x64.Idx → EReal :=
  layer (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13))

/-- The printed index maps over the grid: the two row windows and the output sit at block (t, 0), every
    parameter window at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_14.index t (0 : Fin 2) = t.val
    ∧ win0_14.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-- Window 2 is resident: its one block is its whole array. -/
theorem whole_2 (c : Dev nD) (t : Fin cfg0.N) : (iblk0 V c 2 t : S128x128.Idx → EReal) = V c (Pipeline.arrRef spec0 2) := by
  have hf := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; have h := hf.2.2.2.2.2.2.1; omega
  | ⟨1, _⟩ => show win0_2.index t (1 : Fin 2) * 128 + 1 * (y 1).val = (y 1).val; have h := hf.2.2.2.2.2.2.2.1; omega

/-- Window 3 is resident: its one block is its whole array. -/
theorem whole_3 (c : Dev nD) (t : Fin cfg0.N) : (iblk0 V c 3 t : S1x128.Idx → EReal) = V c (Pipeline.arrRef spec0 3) := by
  have hf := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1 + 1 * (y 0).val = (y 0).val; have h := hf.2.2.2.2.2.2.2.2.1; omega
  | ⟨1, _⟩ => show win0_3.index t (1 : Fin 2) * 128 + 1 * (y 1).val = (y 1).val; have h := hf.2.2.2.2.2.2.2.2.2.1; omega

/-- Window 4 is resident: its one block is its whole array. -/
theorem whole_4 (c : Dev nD) (t : Fin cfg0.N) : (iblk0 V c 4 t : S1x128.Idx → EReal) = V c (Pipeline.arrRef spec0 4) := by
  have hf := idx_facts t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; have h := hf.2.2.2.2.2.2.2.2.2.2.1; omega
  | ⟨1, _⟩ => show win0_4.index t (1 : Fin 2) * 128 + 1 * (y 1).val = (y 1).val; have h := hf.2.2.2.2.2.2.2.2.2.2.2.1; omega

/-- Window 5 is resident: its one block is its whole array. -/
theorem whole_5 (c : Dev nD) (t : Fin cfg0.N) : (iblk0 V c 5 t : S1x128.Idx → EReal) = V c (Pipeline.arrRef spec0 5) := by
  have hf := idx_facts t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; have h := hf.2.2.2.2.2.2.2.2.2.2.2.2.1; omega
  | ⟨1, _⟩ => show win0_5.index t (1 : Fin 2) * 128 + 1 * (y 1).val = (y 1).val; have h := hf.2.2.2.2.2.2.2.2.2.2.2.2.2.1; omega

/-- Window 6 is resident: its one block is its whole array. -/
theorem whole_6 (c : Dev nD) (t : Fin cfg0.N) : (iblk0 V c 6 t : S1x128.Idx → EReal) = V c (Pipeline.arrRef spec0 6) := by
  have hf := idx_facts t
  funext y
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; have h := hf.2.2.2.2.2.2.2.2.2.2.2.2.2.2.1; omega
  | ⟨1, _⟩ => show win0_6.index t (1 : Fin 2) * 128 + 1 * (y 1).val = (y 1).val; have h := hf.2.2.2.2.2.2.2.2.2.2.2.2.2.2.2.1; omega

/-- Window 7 is resident: its one block is its whole array. -/
theorem whole_7 (c : Dev nD) (t : Fin cfg0.N) : (iblk0 V c 7 t : S1x128.Idx → EReal) = V c (Pipeline.arrRef spec0 7) := by
  have hf := idx_facts t
  funext y
  show V c (Pipeline.arrRef spec0 7) (((cfg0.win 7).blk t).view.emb y) = V c (Pipeline.arrRef spec0 7) y
  refine congrArg _ (funext fun a => Fin.ext ?_)
  match a with
  | ⟨0, _⟩ => show win0_7.index t (0 : Fin 2) * 1 + 1 * (y 0).val = (y 0).val; have h := hf.2.2.2.2.2.2.2.2.2.2.2.2.2.2.2.2.1; omega
  | ⟨1, _⟩ => show win0_7.index t (1 : Fin 2) * 128 + 1 * (y 1).val = (y 1).val; have h := hf.2.2.2.2.2.2.2.2.2.2.2.2.2.2.2.2.2.1; omega

/-- Window 8 is resident: its one block is its whole array. -/
theorem whole_8 (c : Dev nD) (t : Fin cfg0.N) : (iblk0 V c 8 t : S128x64.Idx → EReal) = V c (Pipeline.arrRef spec0 8) := by
  have hf := idx_facts t
  funext y
  show V c (Pipeline.arrRef spec0 8) (((cfg0.win 8).blk t).view.emb y) = V c (Pipeline.arrRef spec0 8) y
  refine congrArg _ (funext fun a => Fin.ext ?_)
  match a with
  | ⟨0, _⟩ => show win0_8.index t (0 : Fin 2) * 128 + 1 * (y 0).val = (y 0).val; have h := hf.2.2.2.2.2.2.2.2.2.2.2.2.2.2.2.2.2.2.1; omega
  | ⟨1, _⟩ => show win0_8.index t (1 : Fin 2) * 64 + 1 * (y 1).val = (y 1).val; have h := hf.2.2.2.2.2.2.2.2.2.2.2.2.2.2.2.2.2.2.2.1; omega

/-- Window 9 is resident: its one block is its whole array. -/
theorem whole_9 (c : Dev nD) (t : Fin cfg0.N) : (iblk0 V c 9 t : S1x64.Idx → EReal) = V c (Pipeline.arrRef spec0 9) := by
  have hf := idx_facts t
  funext y
  show V c (Pipeline.arrRef spec0 9) (((cfg0.win 9).blk t).view.emb y) = V c (Pipeline.arrRef spec0 9) y
  refine congrArg _ (funext fun a => Fin.ext ?_)
  match a with
  | ⟨0, _⟩ => show win0_9.index t (0 : Fin 2) * 1 + 1 * (y 0).val = (y 0).val; have h := hf.2.2.2.2.2.2.2.2.2.2.2.2.2.2.2.2.2.2.2.2.1; omega
  | ⟨1, _⟩ => show win0_9.index t (1 : Fin 2) * 64 + 1 * (y 1).val = (y 1).val; have h := hf.2.2.2.2.2.2.2.2.2.2.2.2.2.2.2.2.2.2.2.2.2.1; omega

/-- Window 10 is resident: its one block is its whole array. -/
theorem whole_10 (c : Dev nD) (t : Fin cfg0.N) : (iblk0 V c 10 t : S1x64.Idx → EReal) = V c (Pipeline.arrRef spec0 10) := by
  have hf := idx_facts t
  funext y
  show V c (Pipeline.arrRef spec0 10) (((cfg0.win 10).blk t).view.emb y) = V c (Pipeline.arrRef spec0 10) y
  refine congrArg _ (funext fun a => Fin.ext ?_)
  match a with
  | ⟨0, _⟩ => show win0_10.index t (0 : Fin 2) * 1 + 1 * (y 0).val = (y 0).val; have h := hf.2.2.2.2.2.2.2.2.2.2.2.2.2.2.2.2.2.2.2.2.2.2.1; omega
  | ⟨1, _⟩ => show win0_10.index t (1 : Fin 2) * 64 + 1 * (y 1).val = (y 1).val; have h := hf.2.2.2.2.2.2.2.2.2.2.2.2.2.2.2.2.2.2.2.2.2.2.2.1; omega

/-- Window 11 is resident: its one block is its whole array. -/
theorem whole_11 (c : Dev nD) (t : Fin cfg0.N) : (iblk0 V c 11 t : S1x64.Idx → EReal) = V c (Pipeline.arrRef spec0 11) := by
  have hf := idx_facts t
  funext y
  show V c (Pipeline.arrRef spec0 11) (((cfg0.win 11).blk t).view.emb y) = V c (Pipeline.arrRef spec0 11) y
  refine congrArg _ (funext fun a => Fin.ext ?_)
  match a with
  | ⟨0, _⟩ => show win0_11.index t (0 : Fin 2) * 1 + 1 * (y 0).val = (y 0).val; have h := hf.2.2.2.2.2.2.2.2.2.2.2.2.2.2.2.2.2.2.2.2.2.2.2.2.1; omega
  | ⟨1, _⟩ => show win0_11.index t (1 : Fin 2) * 64 + 1 * (y 1).val = (y 1).val; have h := hf.2.2.2.2.2.2.2.2.2.2.2.2.2.2.2.2.2.2.2.2.2.2.2.2.2.1; omega

/-- Window 12 is resident: its one block is its whole array. -/
theorem whole_12 (c : Dev nD) (t : Fin cfg0.N) : (iblk0 V c 12 t : S1x64.Idx → EReal) = V c (Pipeline.arrRef spec0 12) := by
  have hf := idx_facts t
  funext y
  show V c (Pipeline.arrRef spec0 12) (((cfg0.win 12).blk t).view.emb y) = V c (Pipeline.arrRef spec0 12) y
  refine congrArg _ (funext fun a => Fin.ext ?_)
  match a with
  | ⟨0, _⟩ => show win0_12.index t (0 : Fin 2) * 1 + 1 * (y 0).val = (y 0).val; have h := hf.2.2.2.2.2.2.2.2.2.2.2.2.2.2.2.2.2.2.2.2.2.2.2.2.2.2.1; omega
  | ⟨1, _⟩ => show win0_12.index t (1 : Fin 2) * 64 + 1 * (y 1).val = (y 1).val; have h := hf.2.2.2.2.2.2.2.2.2.2.2.2.2.2.2.2.2.2.2.2.2.2.2.2.2.2.2.1; omega

/-- Window 13 is resident: its one block is its whole array. -/
theorem whole_13 (c : Dev nD) (t : Fin cfg0.N) : (iblk0 V c 13 t : S1x64.Idx → EReal) = V c (Pipeline.arrRef spec0 13) := by
  have hf := idx_facts t
  funext y
  show V c (Pipeline.arrRef spec0 13) (((cfg0.win 13).blk t).view.emb y) = V c (Pipeline.arrRef spec0 13) y
  refine congrArg _ (funext fun a => Fin.ext ?_)
  match a with
  | ⟨0, _⟩ => show win0_13.index t (0 : Fin 2) * 1 + 1 * (y 0).val = (y 0).val; have h := hf.2.2.2.2.2.2.2.2.2.2.2.2.2.2.2.2.2.2.2.2.2.2.2.2.2.2.2.2.1; omega
  | ⟨1, _⟩ => show win0_13.index t (1 : Fin 2) * 64 + 1 * (y 1).val = (y 1).val; have h := hf.2.2.2.2.2.2.2.2.2.2.2.2.2.2.2.2.2.2.2.2.2.2.2.2.2.2.2.2.2; omega

/-- Row p of a row window's block at point t is row 5000·t + p of its array. -/
theorem rows_0 (c : Dev nD) (t : Fin cfg0.N) (y : S5000x128.Idx) (i : S50000x128.Idx)
    (h0 : (i 0).val = 5000 * t.val + (y 0).val) (h1 : (i 1).val = (y 1).val) :
    (iblk0 V c 0 t : S5000x128.Idx → EReal) y = V c (Pipeline.arrRef spec0 0) i := by
  have hf := idx_facts t
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 5000 + 1 * (y 0).val = (i 0).val; have h := hf.1; omega
  | ⟨1, _⟩ => show win0_0.index t (1 : Fin 2) * 128 + 1 * (y 1).val = (i 1).val; have h := hf.2.1; omega

theorem rows_1 (c : Dev nD) (t : Fin cfg0.N) (y : S5000x128.Idx) (i : S50000x128.Idx)
    (h0 : (i 0).val = 5000 * t.val + (y 0).val) (h1 : (i 1).val = (y 1).val) :
    (iblk0 V c 1 t : S5000x128.Idx → EReal) y = V c (Pipeline.arrRef spec0 1) i := by
  have hf := idx_facts t
  show V c (Pipeline.arrRef spec0 1) (((cfg0.win 1).blk t).view.emb y) = V c (Pipeline.arrRef spec0 1) i
  refine congrArg _ (funext fun a => Fin.ext ?_)
  match a with
  | ⟨0, _⟩ => show win0_1.index t (0 : Fin 2) * 5000 + 1 * (y 0).val = (i 0).val; have h := hf.2.2.1; omega
  | ⟨1, _⟩ => show win0_1.index t (1 : Fin 2) * 128 + 1 * (y 1).val = (i 1).val; have h := hf.2.2.2.1; omega

/-- The layer of two blocks of rows 5000·tv … of X and A, at (p, q), is the layer of X and A at (5000·tv + p, q);
    the twelve parameter blocks may be given as any arrays equal to the parameters. -/
theorem point_eq (X A : S50000x128.Idx → EReal) (x a : S5000x128.Idx → EReal) (tv : ℕ)
    (hx : ∀ (y : S5000x128.Idx) (i : S50000x128.Idx), (i 0).val = 5000 * tv + (y 0).val → (i 1).val = (y 1).val → x y = X i)
    (ha : ∀ (y : S5000x128.Idx) (i : S50000x128.Idx), (i 0).val = 5000 * tv + (y 0).val → (i 1).val = (y 1).val → a y = A i)
    (w1 w1' : S128x128.Idx → EReal) (b1 ig ib im iv b1' ig' ib' im' iv' : S1x128.Idx → EReal) (w2 w2' : S128x64.Idx → EReal)
    (b2 og ob om ov b2' og' ob' om' ov' : S1x64.Idx → EReal)
    (e2 : w1' = w1) (e3 : b1' = b1) (e4 : ig' = ig) (e5 : ib' = ib) (e6 : im' = im) (e7 : iv' = iv) (e8 : w2' = w2)
    (e9 : b2' = b2) (e10 : og' = og) (e11 : ob' = ob) (e12 : om' = om) (e13 : ov' = ov)
    (j : S5000x64.Idx) (i : S50000x64.Idx) (h0 : (i 0).val = 5000 * tv + (j 0).val) (h1 : (i 1).val = (j 1).val) :
    layer x a w1' b1' ig' ib' im' iv' w2' b2' og' ob' om' ov' j = layer X A w1 b1 ig ib im iv w2 b2 og ob om ov i := by
  subst e2 e3 e4 e5 e6 e7 e8 e9 e10 e11 e12 e13
  obtain ⟨p, q, rfl⟩ : ∃ (p : Fin 5000) (q : Fin 64), j = ix2 p q := ⟨j 0, j 1, eq_ix2 j⟩
  have hi : (i 0).val < 50000 := (i 0).isLt
  have e : (i 0).val = 5000 * tv + p.val := h0
  have hr : 5000 * tv + p.val < 50000 := by omega
  obtain rfl : i = ix2 (⟨5000 * tv + p.val, hr⟩ : Fin 50000) q := by
    rw [eq_ix2 i]
    congr 1
    · exact Fin.ext h0
    · exact Fin.ext h1
  show layerAt (fun k => x (ix2 p k)) (fun k => a (ix2 p k)) w1' b1' ig' ib' im' iv' w2' b2' og' ob' om' ov' q
    = layerAt (fun k => X (ix2 (⟨5000 * tv + p.val, hr⟩ : Fin 50000) k)) (fun k => A (ix2 (⟨5000 * tv + p.val, hr⟩ : Fin 50000) k)) w1' b1' ig' ib' im' iv' w2' b2' og' ob' om' ov' q
  rw [funext fun k => hx (ix2 p k) (ix2 (⟨5000 * tv + p.val, hr⟩ : Fin 50000) k) rfl rfl,
    funext fun k => ha (ix2 p k) (ix2 (⟨5000 * tv + p.val, hr⟩ : Fin 50000) k) rfl rfl]

/-- The buffer the body leaves, as a function of the fourteen blocks it read: their layer. -/
theorem out_eq (x0 x1 : Vec Ideal S5000x128 .f32) (x2 : Vec Ideal S128x128 .f32) (x3 x4 x5 x6 x7 : Vec Ideal S1x128 .f32)
    (x8 : Vec Ideal S128x64 .f32) (x9 x10 x11 x12 x13 : Vec Ideal S1x64 .f32) :
    out0_14 x0 x1 x2 x3 x4 x5 x6 x7 x8 x9 x10 x11 x12 x13 = layer x0 x1 x2 x3 x4 x5 x6 x7 x8 x9 x10 x11 x12 x13 := by
  unfold out0_14
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz]
  exact Cert.KernelIdeal.Pay.pay0_eq x0 x1 x2 x3 x4 x5 x6 x7 x8 x9 x10 x11 x12 x13

/-- What point t writes back is block t of the layer of the arrays. -/
theorem flushed_eq (c : Dev nD) (t : Fin cfg0.N) :
    (dat0 V c).flushed 14 t = ((cfg0.win 14).blk t).view.read (Elt Ideal) (G V c) := by
  show (cfg0.win 14).cut (grid0.coords t) ((dat0 V c).after 14 t) = _
  rw [after0_14, out_eq]
  have hf := idx_facts t
  funext j
  refine point_eq (V c (Pipeline.arrRef spec0 0)) (V c (Pipeline.arrRef spec0 1)) (iblk0 V c 0 t) (iblk0 V c 1 t) t.val
    (fun y i h0 h1 => rows_0 V c t y i h0 h1) (fun y i h0 h1 => rows_1 V c t y i h0 h1)
    _ _ _ _ _ _ _ _ _ _ _ _ _ _ _ _ _ _ _ _ _ _ _ _
    (whole_2 V c t) (whole_3 V c t) (whole_4 V c t) (whole_5 V c t) (whole_6 V c t) (whole_7 V c t) (whole_8 V c t)
    (whole_9 V c t) (whole_10 V c t) (whole_11 V c t) (whole_12 V c t) (whole_13 V c t) j _ ?_ ?_
  · show win0_14.index t (0 : Fin 2) * 5000 + 1 * (j 0).val = 5000 * t.val + (j 0).val
    have h := hf.2.2.2.2.1; omega
  · show win0_14.index t (1 : Fin 2) * 64 + 1 * (j 1).val = (j 1).val
    have h := hf.2.2.2.2.2.1; omega

/-- An index of the output array is in point t's block iff each coordinate is in the block's range. -/
theorem mem_blk (t : Fin cfg0.N) (i : S50000x64.Idx) :
    i ∈ ((cfg0.win 14).blk t).view.set ↔ ∀ a : Fin 2, win0_14.index t a * S5000x64.size a ≤ (i a).val ∧ (i a).val < win0_14.index t a * S5000x64.size a + S5000x64.size a := by
  show i ∈ ((View.whole main_v37).slice (win0_14.rect t)).set ↔ _
  rw [View.set_slice_whole, Rect.mem_set_unit]
  exact Iff.rfl

/-- Every row lies in the block of the point numbered by its quotient by 5000. -/
theorem cover (i : S50000x64.Idx) : ∃ t : Fin cfg0.N, (cfg0.win 14).flush t = true ∧ i ∈ ((cfg0.win 14).blk t).view.set := by
  have hi0 : (i 0).val < 50000 := (i 0).isLt
  have hi1 : (i 1).val < 64 := (i 1).isLt
  have hlt : (i 0).val / 5000 < cfg0.N := by show _ < grid0.N; rw [N_0]; omega
  refine ⟨⟨(i 0).val / 5000, hlt⟩, flush0_14 _, ?_⟩
  rw [mem_blk]
  have hf := idx_facts ⟨(i 0).val / 5000, hlt⟩
  intro a
  match a with
  | ⟨0, _⟩ =>
    show win0_14.index _ (0 : Fin 2) * 5000 ≤ (i 0).val ∧ (i 0).val < win0_14.index _ (0 : Fin 2) * 5000 + 5000
    have h' : win0_14.index ⟨(i 0).val / 5000, hlt⟩ (0 : Fin 2) = (i 0).val / 5000 := hf.2.2.2.2.1
    omega
  | ⟨1, _⟩ =>
    show win0_14.index _ (1 : Fin 2) * 64 ≤ (i 1).val ∧ (i 1).val < win0_14.index _ (1 : Fin 2) * 64 + 64
    have h' : win0_14.index ⟨(i 0).val / 5000, hlt⟩ (1 : Fin 2) = 0 := hf.2.2.2.2.2.1
    omega

/-- The output array when the region is left: the layer of the arrays it found. -/
theorem final (c : Dev nD) : (dat0 V c).arrAt 14 cfg0.N = G V c :=
  (dat0 V c).arrAt_eq_of_cover 14 (G V c) (fun t _ => flushed_eq V c t) (cover)

end Cert.KernelIdeal.Final0

end
-- ==== Proof.Stage0.lean ====
/-
  Region 0 of the idealized kernel, in the arguments' terms.

  Each of the fourteen arrays the region stages is what the host operations before it computed: the node
  features are the argument itself, the aggregate is the scatter-add of the gathered rows along the edge
  list, each parameter is an argument, a vector laid out as a row, or a row sliced from a stacked argument.  The stacked
  arguments and the edge list's two rows are as the first region found them: no later host operation or
  region writes them.  With the region's value this gives its output array as the layer of those terms.
-/
import proofs.«120131_j65111704207433_2_alg».proof.Proof.NetDefs
import proofs.«120131_j65111704207433_2_alg».proof.Proof.Final0

set_option maxRecDepth 16384

noncomputable section

namespace Cert.KernelIdeal.KV.Stage0

open Cert.KernelIdeal Cert.KernelIdeal.Gen Cert.GinLayer Cert.KernelIdeal.KV
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem e0 (c : Dev nD) : (V1 m ρ c (Pipeline.arrRef spec0 0) : (⟨S50000x128, .f32⟩ : BufTy).Contents (Elt Ideal)) = (m ((c : Thread nD τ).loc main_arg0)) :=
  W1_low m ρ c main_arg0 (by decide)
theorem e1 (c : Dev nD) : (V1 m ρ c (Pipeline.arrRef spec0 1) : (⟨S50000x128, .f32⟩ : BufTy).Contents (Elt Ideal)) = aggA (src (m ((c : Thread nD τ).loc main_arg1))) (dst (m ((c : Thread nD τ).loc main_arg1))) (m ((c : Thread nD τ).loc main_arg0)) := by
  show StableHlo.after hostOps0 (W0 m ρ c) (Proc.devRef .tc main_v26) = _
  after_results_simp
  rfl
theorem e2 (c : Dev nD) : (V1 m ρ c (Pipeline.arrRef spec0 2) : (⟨S128x128, .f32⟩ : BufTy).Contents (Elt Ideal)) = (m ((c : Thread nD τ).loc main_arg3)) :=
  W1_low m ρ c main_arg3 (by decide)
theorem e3 (c : Dev nD) : (V1 m ρ c (Pipeline.arrRef spec0 3) : (⟨S1x128, .f32⟩ : BufTy).Contents (Elt Ideal)) = (shapeCast S1x128 (m ((c : Thread nD τ).loc main_arg4)) shapeCasts_S128_S1x128) := by
  show StableHlo.after hostOps0 (W0 m ρ c) (Proc.devRef .tc main_v27) = _
  after_results_simp
  rfl
theorem e4 (c : Dev nD) : (V1 m ρ c (Pipeline.arrRef spec0 4) : (⟨S1x128, .f32⟩ : BufTy).Contents (Elt Ideal)) = (shapeCast S1x128 (m ((c : Thread nD τ).loc main_arg5)) shapeCasts_S128_S1x128) := by
  show StableHlo.after hostOps0 (W0 m ρ c) (Proc.devRef .tc main_v28) = _
  after_results_simp
  rfl
theorem e5 (c : Dev nD) : (V1 m ρ c (Pipeline.arrRef spec0 5) : (⟨S1x128, .f32⟩ : BufTy).Contents (Elt Ideal)) = (shapeCast S1x128 (m ((c : Thread nD τ).loc main_arg6)) shapeCasts_S128_S1x128) := by
  show StableHlo.after hostOps0 (W0 m ρ c) (Proc.devRef .tc main_v29) = _
  after_results_simp
  rfl
theorem e6 (c : Dev nD) : (V1 m ρ c (Pipeline.arrRef spec0 6) : (⟨S1x128, .f32⟩ : BufTy).Contents (Elt Ideal)) = (shapeCast S1x128 (m ((c : Thread nD τ).loc main_arg7)) shapeCasts_S128_S1x128) := by
  show StableHlo.after hostOps0 (W0 m ρ c) (Proc.devRef .tc main_v30) = _
  after_results_simp
  rfl
theorem e7 (c : Dev nD) : (V1 m ρ c (Pipeline.arrRef spec0 7) : (⟨S1x128, .f32⟩ : BufTy).Contents (Elt Ideal)) = (shapeCast S1x128 (m ((c : Thread nD τ).loc main_arg8)) shapeCasts_S128_S1x128) := by
  show StableHlo.after hostOps0 (W0 m ρ c) (Proc.devRef .tc main_v31) = _
  after_results_simp
  rfl
theorem e8 (c : Dev nD) : (V1 m ρ c (Pipeline.arrRef spec0 8) : (⟨S128x64, .f32⟩ : BufTy).Contents (Elt Ideal)) = (m ((c : Thread nD τ).loc main_arg9)) :=
  W1_low m ρ c main_arg9 (by decide)
theorem e9 (c : Dev nD) : (V1 m ρ c (Pipeline.arrRef spec0 9) : (⟨S1x64, .f32⟩ : BufTy).Contents (Elt Ideal)) = (shapeCast S1x64 (m ((c : Thread nD τ).loc main_arg10)) shapeCasts_S64_S1x64) := by
  show StableHlo.after hostOps0 (W0 m ρ c) (Proc.devRef .tc main_v32) = _
  after_results_simp
  rfl
theorem e10 (c : Dev nD) : (V1 m ρ c (Pipeline.arrRef spec0 10) : (⟨S1x64, .f32⟩ : BufTy).Contents (Elt Ideal)) = (shapeCast S1x64 (shapeCast S64 (extractStridedSlice S1x64 ![0, 0] (m ((c : Thread nD τ).loc main_arg19)) slices_S5x64_S1x64_0_0) shapeCasts_S1x64_S64) shapeCasts_S64_S1x64) := by
  show StableHlo.after hostOps0 (W0 m ρ c) (Proc.devRef .tc main_v33) = _
  after_results_simp
  rfl
theorem e11 (c : Dev nD) : (V1 m ρ c (Pipeline.arrRef spec0 11) : (⟨S1x64, .f32⟩ : BufTy).Contents (Elt Ideal)) = (shapeCast S1x64 (shapeCast S64 (extractStridedSlice S1x64 ![0, 0] (m ((c : Thread nD τ).loc main_arg20)) slices_S5x64_S1x64_0_0) shapeCasts_S1x64_S64) shapeCasts_S64_S1x64) := by
  show StableHlo.after hostOps0 (W0 m ρ c) (Proc.devRef .tc main_v34) = _
  after_results_simp
  rfl
theorem e12 (c : Dev nD) : (V1 m ρ c (Pipeline.arrRef spec0 12) : (⟨S1x64, .f32⟩ : BufTy).Contents (Elt Ideal)) = (shapeCast S1x64 (shapeCast S64 (extractStridedSlice S1x64 ![0, 0] (m ((c : Thread nD τ).loc main_arg21)) slices_S5x64_S1x64_0_0) shapeCasts_S1x64_S64) shapeCasts_S64_S1x64) := by
  show StableHlo.after hostOps0 (W0 m ρ c) (Proc.devRef .tc main_v35) = _
  after_results_simp
  rfl
theorem e13 (c : Dev nD) : (V1 m ρ c (Pipeline.arrRef spec0 13) : (⟨S1x64, .f32⟩ : BufTy).Contents (Elt Ideal)) = (shapeCast S1x64 (shapeCast S64 (extractStridedSlice S1x64 ![0, 0] (m ((c : Thread nD τ).loc main_arg22)) slices_S5x64_S1x64_0_0) shapeCasts_S1x64_S64) shapeCasts_S64_S1x64) := by
  show StableHlo.after hostOps0 (W0 m ρ c) (Proc.devRef .tc main_v36) = _
  after_results_simp
  rfl

set_option maxHeartbeats 2000000 in
/-- The region's output array when it is left: the layer of what the region found, in the arguments' terms
    (for a later layer, of the previous region's output array). -/
theorem out (c : Dev nD) : W2 m ρ c (Proc.devRef .tc main_v37) =
    layer (m ((c : Thread nD τ).loc main_arg0)) (aggA (src (m ((c : Thread nD τ).loc main_arg1))) (dst (m ((c : Thread nD τ).loc main_arg1))) (m ((c : Thread nD τ).loc main_arg0)))
      (m ((c : Thread nD τ).loc main_arg3))
      (shapeCast S1x128 (m ((c : Thread nD τ).loc main_arg4)) shapeCasts_S128_S1x128)
      (shapeCast S1x128 (m ((c : Thread nD τ).loc main_arg5)) shapeCasts_S128_S1x128)
      (shapeCast S1x128 (m ((c : Thread nD τ).loc main_arg6)) shapeCasts_S128_S1x128)
      (shapeCast S1x128 (m ((c : Thread nD τ).loc main_arg7)) shapeCasts_S128_S1x128)
      (shapeCast S1x128 (m ((c : Thread nD τ).loc main_arg8)) shapeCasts_S128_S1x128)
      (m ((c : Thread nD τ).loc main_arg9))
      (shapeCast S1x64 (m ((c : Thread nD τ).loc main_arg10)) shapeCasts_S64_S1x64)
      (shapeCast S1x64 (shapeCast S64 (extractStridedSlice S1x64 ![0, 0] (m ((c : Thread nD τ).loc main_arg19)) slices_S5x64_S1x64_0_0) shapeCasts_S1x64_S64) shapeCasts_S64_S1x64)
      (shapeCast S1x64 (shapeCast S64 (extractStridedSlice S1x64 ![0, 0] (m ((c : Thread nD τ).loc main_arg20)) slices_S5x64_S1x64_0_0) shapeCasts_S1x64_S64) shapeCasts_S64_S1x64)
      (shapeCast S1x64 (shapeCast S64 (extractStridedSlice S1x64 ![0, 0] (m ((c : Thread nD τ).loc main_arg21)) slices_S5x64_S1x64_0_0) shapeCasts_S1x64_S64) shapeCasts_S64_S1x64)
      (shapeCast S1x64 (shapeCast S64 (extractStridedSlice S1x64 ![0, 0] (m ((c : Thread nD τ).loc main_arg22)) slices_S5x64_S1x64_0_0) shapeCasts_S1x64_S64) shapeCasts_S64_S1x64) := by
  refine (W2_arr m ρ c 14).trans ?_
  refine (Cert.KernelIdeal.Final0.final (V1 m ρ) c).trans ?_
  unfold Cert.KernelIdeal.Final0.G
  exact layer_congr (e0 m ρ c) (e1 m ρ c) (e2 m ρ c) (e3 m ρ c) (e4 m ρ c) (e5 m ρ c) (e6 m ρ c) (e7 m ρ c) (e8 m ρ c) (e9 m ρ c)
    (e10 m ρ c) (e11 m ρ c) (e12 m ρ c) (e13 m ρ c)

end Cert.KernelIdeal.KV.Stage0

end
-- ==== Proof.Final1.lean ====
/-
  Region 1 of the idealized kernel: what its output array holds when the region is left.

  The region runs one layer over ten blocks of 5000 nodes.  At grid point t the body reads rows
  5000·t … 5000·t + 4999 of the node features and of the aggregate, and the twelve parameter arrays whole;
  it writes rows 5000·t … 5000·t + 4999 of the output.  An entry of a layer reads only its own row of the
  features and of the aggregate, so block t of the layer of the whole arrays is the layer of the blocks;
  the ten blocks fill the 50000 rows, so the output array is the layer of the arrays the region found.
-/
import proofs.«120131_j65111704207433_2_alg».proof.Proof.Gen.KernelIdeal.Frame
import proofs.«120131_j65111704207433_2_alg».proof.Proof.KernelPay
import Idealize.ShloMosaic.Lib.Pipeline.Value
import Idealize.ShloMosaic.Lib.ValueIdx

set_option maxRecDepth 16384

noncomputable section

namespace Cert.KernelIdeal.Final1

open Cert.KernelIdeal Cert.KernelIdeal.Gen Cert.GinLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds at its fourteen input windows. -/
def G (c : Dev nD) : S50000x64.Idx → EReal :=
  layer (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13))

/-- The printed index maps over the grid: the two row windows and the output sit at block (t, 0), every
    parameter window at block (0, 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_14.index t (0 : Fin 2) = t.val
    ∧ win1_14.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = 0
    ∧ win1_13.index t (1 : Fin 2) = 0 :=
  (by decide +kernel : ∀ t : Fin grid1.N, _)

/-- Window 2 is resident: its one block is its whole array. -/
theorem whole_2 (c : Dev nD) (t : Fin cfg1.N) : (iblk1 V c 2 t : S64x128.Idx → EReal) = V c (Pipeline.arrRef spec1 2) := by
  have hf := idx_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 64 + 1 * (y 0).val = (y 0).val; have h := hf.2.2.2.2.2.2.1; omega
  | ⟨1, _⟩ => show win1_2.index t (1 : Fin 2) * 128 + 1 * (y 1).val = (y 1).val; have h := hf.2.2.2.2.2.2.2.1; omega

/-- Window 3 is resident: its one block is its whole array. -/
theorem whole_3 (c : Dev nD) (t : Fin cfg1.N) : (iblk1 V c 3 t : S1x128.Idx → EReal) = V c (Pipeline.arrRef spec1 3) := by
  have hf := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; have h := hf.2.2.2.2.2.2.2.2.1; omega
  | ⟨1, _⟩ => show win1_3.index t (1 : Fin 2) * 128 + 1 * (y 1).val = (y 1).val; have h := hf.2.2.2.2.2.2.2.2.2.1; omega

/-- Window 4 is resident: its one block is its whole array. -/
theorem whole_4 (c : Dev nD) (t : Fin cfg1.N) : (iblk1 V c 4 t : S1x128.Idx → EReal) = V c (Pipeline.arrRef spec1 4) := by
  have hf := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; have h := hf.2.2.2.2.2.2.2.2.2.2.1; omega
  | ⟨1, _⟩ => show win1_4.index t (1 : Fin 2) * 128 + 1 * (y 1).val = (y 1).val; have h := hf.2.2.2.2.2.2.2.2.2.2.2.1; omega

/-- Window 5 is resident: its one block is its whole array. -/
theorem whole_5 (c : Dev nD) (t : Fin cfg1.N) : (iblk1 V c 5 t : S1x128.Idx → EReal) = V c (Pipeline.arrRef spec1 5) := by
  have hf := idx_facts t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; have h := hf.2.2.2.2.2.2.2.2.2.2.2.2.1; omega
  | ⟨1, _⟩ => show win1_5.index t (1 : Fin 2) * 128 + 1 * (y 1).val = (y 1).val; have h := hf.2.2.2.2.2.2.2.2.2.2.2.2.2.1; omega

/-- Window 6 is resident: its one block is its whole array. -/
theorem whole_6 (c : Dev nD) (t : Fin cfg1.N) : (iblk1 V c 6 t : S1x128.Idx → EReal) = V c (Pipeline.arrRef spec1 6) := by
  have hf := idx_facts t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; have h := hf.2.2.2.2.2.2.2.2.2.2.2.2.2.2.1; omega
  | ⟨1, _⟩ => show win1_6.index t (1 : Fin 2) * 128 + 1 * (y 1).val = (y 1).val; have h := hf.2.2.2.2.2.2.2.2.2.2.2.2.2.2.2.1; omega

/-- Window 7 is resident: its one block is its whole array. -/
theorem whole_7 (c : Dev nD) (t : Fin cfg1.N) : (iblk1 V c 7 t : S1x128.Idx → EReal) = V c (Pipeline.arrRef spec1 7) := by
  have hf := idx_facts t
  funext y
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 1 + 1 * (y 0).val = (y 0).val; have h := hf.2.2.2.2.2.2.2.2.2.2.2.2.2.2.2.2.1; omega
  | ⟨1, _⟩ => show win1_7.index t (1 : Fin 2) * 128 + 1 * (y 1).val = (y 1).val; have h := hf.2.2.2.2.2.2.2.2.2.2.2.2.2.2.2.2.2.1; omega

/-- Window 8 is resident: its one block is its whole array. -/
theorem whole_8 (c : Dev nD) (t : Fin cfg1.N) : (iblk1 V c 8 t : S128x64.Idx → EReal) = V c (Pipeline.arrRef spec1 8) := by
  have hf := idx_facts t
  funext y
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 128 + 1 * (y 0).val = (y 0).val; have h := hf.2.2.2.2.2.2.2.2.2.2.2.2.2.2.2.2.2.2.1; omega
  | ⟨1, _⟩ => show win1_8.index t (1 : Fin 2) * 64 + 1 * (y 1).val = (y 1).val; have h := hf.2.2.2.2.2.2.2.2.2.2.2.2.2.2.2.2.2.2.2.1; omega

/-- Window 9 is resident: its one block is its whole array. -/
theorem whole_9 (c : Dev nD) (t : Fin cfg1.N) : (iblk1 V c 9 t : S1x64.Idx → EReal) = V c (Pipeline.arrRef spec1 9) := by
  have hf := idx_facts t
  funext y
  show V c (Pipeline.arrRef spec1 9) (((cfg1.win 9).blk t).view.emb y) = V c (Pipeline.arrRef spec1 9) y
  refine congrArg _ (funext fun a => Fin.ext ?_)
  match a with
  | ⟨0, _⟩ => show win1_9.index t (0 : Fin 2) * 1 + 1 * (y 0).val = (y 0).val; have h := hf.2.2.2.2.2.2.2.2.2.2.2.2.2.2.2.2.2.2.2.2.1; omega
  | ⟨1, _⟩ => show win1_9.index t (1 : Fin 2) * 64 + 1 * (y 1).val = (y 1).val; have h := hf.2.2.2.2.2.2.2.2.2.2.2.2.2.2.2.2.2.2.2.2.2.1; omega

/-- Window 10 is resident: its one block is its whole array. -/
theorem whole_10 (c : Dev nD) (t : Fin cfg1.N) : (iblk1 V c 10 t : S1x64.Idx → EReal) = V c (Pipeline.arrRef spec1 10) := by
  have hf := idx_facts t
  funext y
  show V c (Pipeline.arrRef spec1 10) (((cfg1.win 10).blk t).view.emb y) = V c (Pipeline.arrRef spec1 10) y
  refine congrArg _ (funext fun a => Fin.ext ?_)
  match a with
  | ⟨0, _⟩ => show win1_10.index t (0 : Fin 2) * 1 + 1 * (y 0).val = (y 0).val; have h := hf.2.2.2.2.2.2.2.2.2.2.2.2.2.2.2.2.2.2.2.2.2.2.1; omega
  | ⟨1, _⟩ => show win1_10.index t (1 : Fin 2) * 64 + 1 * (y 1).val = (y 1).val; have h := hf.2.2.2.2.2.2.2.2.2.2.2.2.2.2.2.2.2.2.2.2.2.2.2.1; omega

/-- Window 11 is resident: its one block is its whole array. -/
theorem whole_11 (c : Dev nD) (t : Fin cfg1.N) : (iblk1 V c 11 t : S1x64.Idx → EReal) = V c (Pipeline.arrRef spec1 11) := by
  have hf := idx_facts t
  funext y
  show V c (Pipeline.arrRef spec1 11) (((cfg1.win 11).blk t).view.emb y) = V c (Pipeline.arrRef spec1 11) y
  refine congrArg _ (funext fun a => Fin.ext ?_)
  match a with
  | ⟨0, _⟩ => show win1_11.index t (0 : Fin 2) * 1 + 1 * (y 0).val = (y 0).val; have h := hf.2.2.2.2.2.2.2.2.2.2.2.2.2.2.2.2.2.2.2.2.2.2.2.2.1; omega
  | ⟨1, _⟩ => show win1_11.index t (1 : Fin 2) * 64 + 1 * (y 1).val = (y 1).val; have h := hf.2.2.2.2.2.2.2.2.2.2.2.2.2.2.2.2.2.2.2.2.2.2.2.2.2.1; omega

/-- Window 12 is resident: its one block is its whole array. -/
theorem whole_12 (c : Dev nD) (t : Fin cfg1.N) : (iblk1 V c 12 t : S1x64.Idx → EReal) = V c (Pipeline.arrRef spec1 12) := by
  have hf := idx_facts t
  funext y
  show V c (Pipeline.arrRef spec1 12) (((cfg1.win 12).blk t).view.emb y) = V c (Pipeline.arrRef spec1 12) y
  refine congrArg _ (funext fun a => Fin.ext ?_)
  match a with
  | ⟨0, _⟩ => show win1_12.index t (0 : Fin 2) * 1 + 1 * (y 0).val = (y 0).val; have h := hf.2.2.2.2.2.2.2.2.2.2.2.2.2.2.2.2.2.2.2.2.2.2.2.2.2.2.1; omega
  | ⟨1, _⟩ => show win1_12.index t (1 : Fin 2) * 64 + 1 * (y 1).val = (y 1).val; have h := hf.2.2.2.2.2.2.2.2.2.2.2.2.2.2.2.2.2.2.2.2.2.2.2.2.2.2.2.1; omega

/-- Window 13 is resident: its one block is its whole array. -/
theorem whole_13 (c : Dev nD) (t : Fin cfg1.N) : (iblk1 V c 13 t : S1x64.Idx → EReal) = V c (Pipeline.arrRef spec1 13) := by
  have hf := idx_facts t
  funext y
  show V c (Pipeline.arrRef spec1 13) (((cfg1.win 13).blk t).view.emb y) = V c (Pipeline.arrRef spec1 13) y
  refine congrArg _ (funext fun a => Fin.ext ?_)
  match a with
  | ⟨0, _⟩ => show win1_13.index t (0 : Fin 2) * 1 + 1 * (y 0).val = (y 0).val; have h := hf.2.2.2.2.2.2.2.2.2.2.2.2.2.2.2.2.2.2.2.2.2.2.2.2.2.2.2.2.1; omega
  | ⟨1, _⟩ => show win1_13.index t (1 : Fin 2) * 64 + 1 * (y 1).val = (y 1).val; have h := hf.2.2.2.2.2.2.2.2.2.2.2.2.2.2.2.2.2.2.2.2.2.2.2.2.2.2.2.2.2; omega

/-- Row p of a row window's block at point t is row 5000·t + p of its array. -/
theorem rows_0 (c : Dev nD) (t : Fin cfg1.N) (y : S5000x64.Idx) (i : S50000x64.Idx)
    (h0 : (i 0).val = 5000 * t.val + (y 0).val) (h1 : (i 1).val = (y 1).val) :
    (iblk1 V c 0 t : S5000x64.Idx → EReal) y = V c (Pipeline.arrRef spec1 0) i := by
  have hf := idx_facts t
  show V c (Pipeline.arrRef spec1 0) (((cfg1.win 0).blk t).view.emb y) = V c (Pipeline.arrRef spec1 0) i
  refine congrArg _ (funext fun a => Fin.ext ?_)
  match a with
  | ⟨0, _⟩ => show win1_0.index t (0 : Fin 2) * 5000 + 1 * (y 0).val = (i 0).val; have h := hf.1; omega
  | ⟨1, _⟩ => show win1_0.index t (1 : Fin 2) * 64 + 1 * (y 1).val = (i 1).val; have h := hf.2.1; omega

theorem rows_1 (c : Dev nD) (t : Fin cfg1.N) (y : S5000x64.Idx) (i : S50000x64.Idx)
    (h0 : (i 0).val = 5000 * t.val + (y 0).val) (h1 : (i 1).val = (y 1).val) :
    (iblk1 V c 1 t : S5000x64.Idx → EReal) y = V c (Pipeline.arrRef spec1 1) i := by
  have hf := idx_facts t
  show V c (Pipeline.arrRef spec1 1) (((cfg1.win 1).blk t).view.emb y) = V c (Pipeline.arrRef spec1 1) i
  refine congrArg _ (funext fun a => Fin.ext ?_)
  match a with
  | ⟨0, _⟩ => show win1_1.index t (0 : Fin 2) * 5000 + 1 * (y 0).val = (i 0).val; have h := hf.2.2.1; omega
  | ⟨1, _⟩ => show win1_1.index t (1 : Fin 2) * 64 + 1 * (y 1).val = (i 1).val; have h := hf.2.2.2.1; omega

/-- The layer of two blocks of rows 5000·tv … of X and A, at (p, q), is the layer of X and A at (5000·tv + p, q);
    the twelve parameter blocks may be given as any arrays equal to the parameters. -/
theorem point_eq (X A : S50000x64.Idx → EReal) (x a : S5000x64.Idx → EReal) (tv : ℕ)
    (hx : ∀ (y : S5000x64.Idx) (i : S50000x64.Idx), (i 0).val = 5000 * tv + (y 0).val → (i 1).val = (y 1).val → x y = X i)
    (ha : ∀ (y : S5000x64.Idx) (i : S50000x64.Idx), (i 0).val = 5000 * tv + (y 0).val → (i 1).val = (y 1).val → a y = A i)
    (w1 w1' : S64x128.Idx → EReal) (b1 ig ib im iv b1' ig' ib' im' iv' : S1x128.Idx → EReal) (w2 w2' : S128x64.Idx → EReal)
    (b2 og ob om ov b2' og' ob' om' ov' : S1x64.Idx → EReal)
    (e2 : w1' = w1) (e3 : b1' = b1) (e4 : ig' = ig) (e5 : ib' = ib) (e6 : im' = im) (e7 : iv' = iv) (e8 : w2' = w2)
    (e9 : b2' = b2) (e10 : og' = og) (e11 : ob' = ob) (e12 : om' = om) (e13 : ov' = ov)
    (j : S5000x64.Idx) (i : S50000x64.Idx) (h0 : (i 0).val = 5000 * tv + (j 0).val) (h1 : (i 1).val = (j 1).val) :
    layer x a w1' b1' ig' ib' im' iv' w2' b2' og' ob' om' ov' j = layer X A w1 b1 ig ib im iv w2 b2 og ob om ov i := by
  subst e2 e3 e4 e5 e6 e7 e8 e9 e10 e11 e12 e13
  obtain ⟨p, q, rfl⟩ : ∃ (p : Fin 5000) (q : Fin 64), j = ix2 p q := ⟨j 0, j 1, eq_ix2 j⟩
  have hi : (i 0).val < 50000 := (i 0).isLt
  have e : (i 0).val = 5000 * tv + p.val := h0
  have hr : 5000 * tv + p.val < 50000 := by omega
  obtain rfl : i = ix2 (⟨5000 * tv + p.val, hr⟩ : Fin 50000) q := by
    rw [eq_ix2 i]
    congr 1
    · exact Fin.ext h0
    · exact Fin.ext h1
  show layerAt (fun k => x (ix2 p k)) (fun k => a (ix2 p k)) w1' b1' ig' ib' im' iv' w2' b2' og' ob' om' ov' q
    = layerAt (fun k => X (ix2 (⟨5000 * tv + p.val, hr⟩ : Fin 50000) k)) (fun k => A (ix2 (⟨5000 * tv + p.val, hr⟩ : Fin 50000) k)) w1' b1' ig' ib' im' iv' w2' b2' og' ob' om' ov' q
  rw [funext fun k => hx (ix2 p k) (ix2 (⟨5000 * tv + p.val, hr⟩ : Fin 50000) k) rfl rfl,
    funext fun k => ha (ix2 p k) (ix2 (⟨5000 * tv + p.val, hr⟩ : Fin 50000) k) rfl rfl]

/-- The buffer the body leaves, as a function of the fourteen blocks it read: their layer. -/
theorem out_eq (x0 x1 : Vec Ideal S5000x64 .f32) (x2 : Vec Ideal S64x128 .f32) (x3 x4 x5 x6 x7 : Vec Ideal S1x128 .f32)
    (x8 : Vec Ideal S128x64 .f32) (x9 x10 x11 x12 x13 : Vec Ideal S1x64 .f32) :
    out1_14 x0 x1 x2 x3 x4 x5 x6 x7 x8 x9 x10 x11 x12 x13 = layer x0 x1 x2 x3 x4 x5 x6 x7 x8 x9 x10 x11 x12 x13 := by
  unfold out1_14
  rw [View.canon_unit_zero hz]
  simp only [View.ld_unit_zero (S := S5000x64) hz, View.ld_unit_zero (S := S64x128) hz, View.ld_unit_zero (S := S1x128) hz,
    View.ld_unit_zero (S := S128x64) hz, View.ld_unit_zero (S := S1x64) hz]
  exact Cert.KernelIdeal.Pay.pay1_eq x0 x1 x2 x3 x4 x5 x6 x7 x8 x9 x10 x11 x12 x13

/-- What point t writes back is block t of the layer of the arrays. -/
theorem flushed_eq (c : Dev nD) (t : Fin cfg1.N) :
    (dat1 V c).flushed 14 t = ((cfg1.win 14).blk t).view.read (Elt Ideal) (G V c) := by
  show (cfg1.win 14).cut (grid1.coords t) ((dat1 V c).after 14 t) = _
  rw [after1_14, out_eq]
  have hf := idx_facts t
  funext j
  refine point_eq (V c (Pipeline.arrRef spec1 0)) (V c (Pipeline.arrRef spec1 1)) (iblk1 V c 0 t) (iblk1 V c 1 t) t.val
    (fun y i h0 h1 => rows_0 V c t y i h0 h1) (fun y i h0 h1 => rows_1 V c t y i h0 h1)
    _ _ _ _ _ _ _ _ _ _ _ _ _ _ _ _ _ _ _ _ _ _ _ _
    (whole_2 V c t) (whole_3 V c t) (whole_4 V c t) (whole_5 V c t) (whole_6 V c t) (whole_7 V c t) (whole_8 V c t)
    (whole_9 V c t) (whole_10 V c t) (whole_11 V c t) (whole_12 V c t) (whole_13 V c t) j _ ?_ ?_
  · show win1_14.index t (0 : Fin 2) * 5000 + 1 * (j 0).val = 5000 * t.val + (j 0).val
    have h := hf.2.2.2.2.1; omega
  · show win1_14.index t (1 : Fin 2) * 64 + 1 * (j 1).val = (j 1).val
    have h := hf.2.2.2.2.2.1; omega

/-- An index of the output array is in point t's block iff each coordinate is in the block's range. -/
theorem mem_blk (t : Fin cfg1.N) (i : S50000x64.Idx) :
    i ∈ ((cfg1.win 14).blk t).view.set ↔ ∀ a : Fin 2, win1_14.index t a * S5000x64.size a ≤ (i a).val ∧ (i a).val < win1_14.index t a * S5000x64.size a + S5000x64.size a := by
  show i ∈ ((View.whole main_v87).slice (win1_14.rect t)).set ↔ _
  rw [View.set_slice_whole, Rect.mem_set_unit]
  exact Iff.rfl

/-- Every row lies in the block of the point numbered by its quotient by 5000. -/
theorem cover (i : S50000x64.Idx) : ∃ t : Fin cfg1.N, (cfg1.win 14).flush t = true ∧ i ∈ ((cfg1.win 14).blk t).view.set := by
  have hi0 : (i 0).val < 50000 := (i 0).isLt
  have hi1 : (i 1).val < 64 := (i 1).isLt
  have hlt : (i 0).val / 5000 < cfg1.N := by show _ < grid1.N; rw [N_1]; omega
  refine ⟨⟨(i 0).val / 5000, hlt⟩, flush1_14 _, ?_⟩
  rw [mem_blk]
  have hf := idx_facts ⟨(i 0).val / 5000, hlt⟩
  intro a
  match a with
  | ⟨0, _⟩ =>
    show win1_14.index _ (0 : Fin 2) * 5000 ≤ (i 0).val ∧ (i 0).val < win1_14.index _ (0 : Fin 2) * 5000 + 5000
    have h' : win1_14.index ⟨(i 0).val / 5000, hlt⟩ (0 : Fin 2) = (i 0).val / 5000 := hf.2.2.2.2.1
    omega
  | ⟨1, _⟩ =>
    show win1_14.index _ (1 : Fin 2) * 64 ≤ (i 1).val ∧ (i 1).val < win1_14.index _ (1 : Fin 2) * 64 + 64
    have h' : win1_14.index ⟨(i 0).val / 5000, hlt⟩ (1 : Fin 2) = 0 := hf.2.2.2.2.2.1
    omega

/-- The output array when the region is left: the layer of the arrays it found. -/
theorem final (c : Dev nD) : (dat1 V c).arrAt 14 cfg1.N = G V c :=
  (dat1 V c).arrAt_eq_of_cover 14 (G V c) (fun t _ => flushed_eq V c t) (cover)

end Cert.KernelIdeal.Final1

end
-- ==== Proof.Stage1.lean ====
/-
  Region 1 of the idealized kernel, in the arguments' terms.

  Each of the fourteen arrays the region stages is what the host operations before it computed: the node
  features are the previous region's output, the aggregate is the scatter-add of the gathered rows along the edge
  list, each parameter is sliced from a stacked argument and, for a vector, laid out as a row.  The stacked
  arguments and the edge list's two rows are as the first region found them: no later host operation or
  region writes them.  With the region's value this gives its output array as the layer of those terms.
-/
import proofs.«120131_j65111704207433_2_alg».proof.Proof.NetDefs
import proofs.«120131_j65111704207433_2_alg».proof.Proof.Final1

set_option maxRecDepth 16384

noncomputable section

namespace Cert.KernelIdeal.KV.Stage1

open Cert.KernelIdeal Cert.KernelIdeal.Gen Cert.GinLayer Cert.KernelIdeal.KV
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem k_src (c : Dev nD) : W2 m ρ c (Proc.devRef .tc main_v1) = src (m ((c : Thread nD τ).loc main_arg1)) :=
  (keep2 m ρ c main_v1 (by decide)).trans (W1_src m ρ c)
theorem k_dst (c : Dev nD) : W2 m ρ c (Proc.devRef .tc main_v3) = dst (m ((c : Thread nD τ).loc main_arg1)) :=
  (keep2 m ρ c main_v3 (by decide)).trans (W1_dst m ρ c)
theorem k_arg11 (c : Dev nD) : W2 m ρ c (Proc.devRef .tc main_arg11) = (m ((c : Thread nD τ).loc main_arg11)) :=
  (keep2 m ρ c main_arg11 (by decide)).trans (W1_low m ρ c main_arg11 (by decide))
theorem k_arg12 (c : Dev nD) : W2 m ρ c (Proc.devRef .tc main_arg12) = (m ((c : Thread nD τ).loc main_arg12)) :=
  (keep2 m ρ c main_arg12 (by decide)).trans (W1_low m ρ c main_arg12 (by decide))
theorem k_arg13 (c : Dev nD) : W2 m ρ c (Proc.devRef .tc main_arg13) = (m ((c : Thread nD τ).loc main_arg13)) :=
  (keep2 m ρ c main_arg13 (by decide)).trans (W1_low m ρ c main_arg13 (by decide))
theorem k_arg14 (c : Dev nD) : W2 m ρ c (Proc.devRef .tc main_arg14) = (m ((c : Thread nD τ).loc main_arg14)) :=
  (keep2 m ρ c main_arg14 (by decide)).trans (W1_low m ρ c main_arg14 (by decide))
theorem k_arg15 (c : Dev nD) : W2 m ρ c (Proc.devRef .tc main_arg15) = (m ((c : Thread nD τ).loc main_arg15)) :=
  (keep2 m ρ c main_arg15 (by decide)).trans (W1_low m ρ c main_arg15 (by decide))
theorem k_arg16 (c : Dev nD) : W2 m ρ c (Proc.devRef .tc main_arg16) = (m ((c : Thread nD τ).loc main_arg16)) :=
  (keep2 m ρ c main_arg16 (by decide)).trans (W1_low m ρ c main_arg16 (by decide))
theorem k_arg17 (c : Dev nD) : W2 m ρ c (Proc.devRef .tc main_arg17) = (m ((c : Thread nD τ).loc main_arg17)) :=
  (keep2 m ρ c main_arg17 (by decide)).trans (W1_low m ρ c main_arg17 (by decide))
theorem k_arg18 (c : Dev nD) : W2 m ρ c (Proc.devRef .tc main_arg18) = (m ((c : Thread nD τ).loc main_arg18)) :=
  (keep2 m ρ c main_arg18 (by decide)).trans (W1_low m ρ c main_arg18 (by decide))
theorem k_arg19 (c : Dev nD) : W2 m ρ c (Proc.devRef .tc main_arg19) = (m ((c : Thread nD τ).loc main_arg19)) :=
  (keep2 m ρ c main_arg19 (by decide)).trans (W1_low m ρ c main_arg19 (by decide))
theorem k_arg20 (c : Dev nD) : W2 m ρ c (Proc.devRef .tc main_arg20) = (m ((c : Thread nD τ).loc main_arg20)) :=
  (keep2 m ρ c main_arg20 (by decide)).trans (W1_low m ρ c main_arg20 (by decide))
theorem k_arg21 (c : Dev nD) : W2 m ρ c (Proc.devRef .tc main_arg21) = (m ((c : Thread nD τ).loc main_arg21)) :=
  (keep2 m ρ c main_arg21 (by decide)).trans (W1_low m ρ c main_arg21 (by decide))
theorem k_arg22 (c : Dev nD) : W2 m ρ c (Proc.devRef .tc main_arg22) = (m ((c : Thread nD τ).loc main_arg22)) :=
  (keep2 m ρ c main_arg22 (by decide)).trans (W1_low m ρ c main_arg22 (by decide))

theorem e0 (c : Dev nD) : (V3 m ρ c (Pipeline.arrRef spec1 0) : (⟨S50000x64, .f32⟩ : BufTy).Contents (Elt Ideal)) = W2 m ρ c (Proc.devRef .tc main_v37) :=
  after_below 66 hostOps1 (W2 m ρ c) ho1 main_v37 (by decide)
theorem e1 (c : Dev nD) : (V3 m ρ c (Pipeline.arrRef spec1 1) : (⟨S50000x64, .f32⟩ : BufTy).Contents (Elt Ideal)) = aggB (src (m ((c : Thread nD τ).loc main_arg1))) (dst (m ((c : Thread nD τ).loc main_arg1))) (W2 m ρ c (Proc.devRef .tc main_v37)) := by
  show StableHlo.after hostOps1 (W2 m ρ c) (Proc.devRef .tc main_v76) = _
  after_results_simp
  simp only [k_src m ρ c, k_dst m ρ c]
  rfl
theorem e2 (c : Dev nD) : (V3 m ρ c (Pipeline.arrRef spec1 2) : (⟨S64x128, .f32⟩ : BufTy).Contents (Elt Ideal)) = (shapeCast S64x128 (extractStridedSlice S1x64x128 ![0, 0, 0] (m ((c : Thread nD τ).loc main_arg11)) slices_S4x64x128_S1x64x128_0_0_0) shapeCasts_S1x64x128_S64x128) := by
  show StableHlo.after hostOps1 (W2 m ρ c) (Proc.devRef .tc main_v39) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e3 (c : Dev nD) : (V3 m ρ c (Pipeline.arrRef spec1 3) : (⟨S1x128, .f32⟩ : BufTy).Contents (Elt Ideal)) = (shapeCast S1x128 (shapeCast S128 (extractStridedSlice S1x128 ![0, 0] (m ((c : Thread nD τ).loc main_arg12)) slices_S4x128_S1x128_0_0) shapeCasts_S1x128_S128) shapeCasts_S128_S1x128) := by
  show StableHlo.after hostOps1 (W2 m ρ c) (Proc.devRef .tc main_v77) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e4 (c : Dev nD) : (V3 m ρ c (Pipeline.arrRef spec1 4) : (⟨S1x128, .f32⟩ : BufTy).Contents (Elt Ideal)) = (shapeCast S1x128 (shapeCast S128 (extractStridedSlice S1x128 ![0, 0] (m ((c : Thread nD τ).loc main_arg13)) slices_S4x128_S1x128_0_0) shapeCasts_S1x128_S128) shapeCasts_S128_S1x128) := by
  show StableHlo.after hostOps1 (W2 m ρ c) (Proc.devRef .tc main_v78) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e5 (c : Dev nD) : (V3 m ρ c (Pipeline.arrRef spec1 5) : (⟨S1x128, .f32⟩ : BufTy).Contents (Elt Ideal)) = (shapeCast S1x128 (shapeCast S128 (extractStridedSlice S1x128 ![0, 0] (m ((c : Thread nD τ).loc main_arg14)) slices_S4x128_S1x128_0_0) shapeCasts_S1x128_S128) shapeCasts_S128_S1x128) := by
  show StableHlo.after hostOps1 (W2 m ρ c) (Proc.devRef .tc main_v79) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e6 (c : Dev nD) : (V3 m ρ c (Pipeline.arrRef spec1 6) : (⟨S1x128, .f32⟩ : BufTy).Contents (Elt Ideal)) = (shapeCast S1x128 (shapeCast S128 (extractStridedSlice S1x128 ![0, 0] (m ((c : Thread nD τ).loc main_arg15)) slices_S4x128_S1x128_0_0) shapeCasts_S1x128_S128) shapeCasts_S128_S1x128) := by
  show StableHlo.after hostOps1 (W2 m ρ c) (Proc.devRef .tc main_v80) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e7 (c : Dev nD) : (V3 m ρ c (Pipeline.arrRef spec1 7) : (⟨S1x128, .f32⟩ : BufTy).Contents (Elt Ideal)) = (shapeCast S1x128 (shapeCast S128 (extractStridedSlice S1x128 ![0, 0] (m ((c : Thread nD τ).loc main_arg16)) slices_S4x128_S1x128_0_0) shapeCasts_S1x128_S128) shapeCasts_S128_S1x128) := by
  show StableHlo.after hostOps1 (W2 m ρ c) (Proc.devRef .tc main_v81) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e8 (c : Dev nD) : (V3 m ρ c (Pipeline.arrRef spec1 8) : (⟨S128x64, .f32⟩ : BufTy).Contents (Elt Ideal)) = (shapeCast S128x64 (extractStridedSlice S1x128x64 ![0, 0, 0] (m ((c : Thread nD τ).loc main_arg17)) slices_S4x128x64_S1x128x64_0_0_0) shapeCasts_S1x128x64_S128x64) := by
  show StableHlo.after hostOps1 (W2 m ρ c) (Proc.devRef .tc main_v51) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e9 (c : Dev nD) : (V3 m ρ c (Pipeline.arrRef spec1 9) : (⟨S1x64, .f32⟩ : BufTy).Contents (Elt Ideal)) = (shapeCast S1x64 (shapeCast S64 (extractStridedSlice S1x64 ![0, 0] (m ((c : Thread nD τ).loc main_arg18)) slices_S4x64_S1x64_0_0) shapeCasts_S1x64_S64) shapeCasts_S64_S1x64) := by
  show StableHlo.after hostOps1 (W2 m ρ c) (Proc.devRef .tc main_v82) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e10 (c : Dev nD) : (V3 m ρ c (Pipeline.arrRef spec1 10) : (⟨S1x64, .f32⟩ : BufTy).Contents (Elt Ideal)) = (shapeCast S1x64 (shapeCast S64 (extractStridedSlice S1x64 ![1, 0] (m ((c : Thread nD τ).loc main_arg19)) slices_S5x64_S1x64_1_0) shapeCasts_S1x64_S64) shapeCasts_S64_S1x64) := by
  show StableHlo.after hostOps1 (W2 m ρ c) (Proc.devRef .tc main_v83) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e11 (c : Dev nD) : (V3 m ρ c (Pipeline.arrRef spec1 11) : (⟨S1x64, .f32⟩ : BufTy).Contents (Elt Ideal)) = (shapeCast S1x64 (shapeCast S64 (extractStridedSlice S1x64 ![1, 0] (m ((c : Thread nD τ).loc main_arg20)) slices_S5x64_S1x64_1_0) shapeCasts_S1x64_S64) shapeCasts_S64_S1x64) := by
  show StableHlo.after hostOps1 (W2 m ρ c) (Proc.devRef .tc main_v84) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e12 (c : Dev nD) : (V3 m ρ c (Pipeline.arrRef spec1 12) : (⟨S1x64, .f32⟩ : BufTy).Contents (Elt Ideal)) = (shapeCast S1x64 (shapeCast S64 (extractStridedSlice S1x64 ![1, 0] (m ((c : Thread nD τ).loc main_arg21)) slices_S5x64_S1x64_1_0) shapeCasts_S1x64_S64) shapeCasts_S64_S1x64) := by
  show StableHlo.after hostOps1 (W2 m ρ c) (Proc.devRef .tc main_v85) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e13 (c : Dev nD) : (V3 m ρ c (Pipeline.arrRef spec1 13) : (⟨S1x64, .f32⟩ : BufTy).Contents (Elt Ideal)) = (shapeCast S1x64 (shapeCast S64 (extractStridedSlice S1x64 ![1, 0] (m ((c : Thread nD τ).loc main_arg22)) slices_S5x64_S1x64_1_0) shapeCasts_S1x64_S64) shapeCasts_S64_S1x64) := by
  show StableHlo.after hostOps1 (W2 m ρ c) (Proc.devRef .tc main_v86) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl

set_option maxHeartbeats 2000000 in
/-- The region's output array when it is left: the layer of what the region found, in the arguments' terms
    (for a later layer, of the previous region's output array). -/
theorem out (c : Dev nD) : W4 m ρ c (Proc.devRef .tc main_v87) =
    layer (W2 m ρ c (Proc.devRef .tc main_v37)) (aggB (src (m ((c : Thread nD τ).loc main_arg1))) (dst (m ((c : Thread nD τ).loc main_arg1))) (W2 m ρ c (Proc.devRef .tc main_v37)))
      (shapeCast S64x128 (extractStridedSlice S1x64x128 ![0, 0, 0] (m ((c : Thread nD τ).loc main_arg11)) slices_S4x64x128_S1x64x128_0_0_0) shapeCasts_S1x64x128_S64x128)
      (shapeCast S1x128 (shapeCast S128 (extractStridedSlice S1x128 ![0, 0] (m ((c : Thread nD τ).loc main_arg12)) slices_S4x128_S1x128_0_0) shapeCasts_S1x128_S128) shapeCasts_S128_S1x128)
      (shapeCast S1x128 (shapeCast S128 (extractStridedSlice S1x128 ![0, 0] (m ((c : Thread nD τ).loc main_arg13)) slices_S4x128_S1x128_0_0) shapeCasts_S1x128_S128) shapeCasts_S128_S1x128)
      (shapeCast S1x128 (shapeCast S128 (extractStridedSlice S1x128 ![0, 0] (m ((c : Thread nD τ).loc main_arg14)) slices_S4x128_S1x128_0_0) shapeCasts_S1x128_S128) shapeCasts_S128_S1x128)
      (shapeCast S1x128 (shapeCast S128 (extractStridedSlice S1x128 ![0, 0] (m ((c : Thread nD τ).loc main_arg15)) slices_S4x128_S1x128_0_0) shapeCasts_S1x128_S128) shapeCasts_S128_S1x128)
      (shapeCast S1x128 (shapeCast S128 (extractStridedSlice S1x128 ![0, 0] (m ((c : Thread nD τ).loc main_arg16)) slices_S4x128_S1x128_0_0) shapeCasts_S1x128_S128) shapeCasts_S128_S1x128)
      (shapeCast S128x64 (extractStridedSlice S1x128x64 ![0, 0, 0] (m ((c : Thread nD τ).loc main_arg17)) slices_S4x128x64_S1x128x64_0_0_0) shapeCasts_S1x128x64_S128x64)
      (shapeCast S1x64 (shapeCast S64 (extractStridedSlice S1x64 ![0, 0] (m ((c : Thread nD τ).loc main_arg18)) slices_S4x64_S1x64_0_0) shapeCasts_S1x64_S64) shapeCasts_S64_S1x64)
      (shapeCast S1x64 (shapeCast S64 (extractStridedSlice S1x64 ![1, 0] (m ((c : Thread nD τ).loc main_arg19)) slices_S5x64_S1x64_1_0) shapeCasts_S1x64_S64) shapeCasts_S64_S1x64)
      (shapeCast S1x64 (shapeCast S64 (extractStridedSlice S1x64 ![1, 0] (m ((c : Thread nD τ).loc main_arg20)) slices_S5x64_S1x64_1_0) shapeCasts_S1x64_S64) shapeCasts_S64_S1x64)
      (shapeCast S1x64 (shapeCast S64 (extractStridedSlice S1x64 ![1, 0] (m ((c : Thread nD τ).loc main_arg21)) slices_S5x64_S1x64_1_0) shapeCasts_S1x64_S64) shapeCasts_S64_S1x64)
      (shapeCast S1x64 (shapeCast S64 (extractStridedSlice S1x64 ![1, 0] (m ((c : Thread nD τ).loc main_arg22)) slices_S5x64_S1x64_1_0) shapeCasts_S1x64_S64) shapeCasts_S64_S1x64) := by
  refine (W4_arr m ρ c 14).trans ?_
  refine (Cert.KernelIdeal.Final1.final (V3 m ρ) c).trans ?_
  unfold Cert.KernelIdeal.Final1.G
  exact layer_congr (e0 m ρ c) (e1 m ρ c) (e2 m ρ c) (e3 m ρ c) (e4 m ρ c) (e5 m ρ c) (e6 m ρ c) (e7 m ρ c) (e8 m ρ c) (e9 m ρ c)
    (e10 m ρ c) (e11 m ρ c) (e12 m ρ c) (e13 m ρ c)

end Cert.KernelIdeal.KV.Stage1

end
-- ==== Proof.Final2.lean ====
/-
  Region 2 of the idealized kernel: what its output array holds when the region is left.

  The region runs one layer over ten blocks of 5000 nodes.  At grid point t the body reads rows
  5000·t … 5000·t + 4999 of the node features and of the aggregate, and the twelve parameter arrays whole;
  it writes rows 5000·t … 5000·t + 4999 of the output.  An entry of a layer reads only its own row of the
  features and of the aggregate, so block t of the layer of the whole arrays is the layer of the blocks;
  the ten blocks fill the 50000 rows, so the output array is the layer of the arrays the region found.
-/
import proofs.«120131_j65111704207433_2_alg».proof.Proof.Gen.KernelIdeal.Frame
import proofs.«120131_j65111704207433_2_alg».proof.Proof.KernelPay
import Idealize.ShloMosaic.Lib.Pipeline.Value
import Idealize.ShloMosaic.Lib.ValueIdx

set_option maxRecDepth 16384

noncomputable section

namespace Cert.KernelIdeal.Final2

open Cert.KernelIdeal Cert.KernelIdeal.Gen Cert.GinLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds at its fourteen input windows. -/
def G (c : Dev nD) : S50000x64.Idx → EReal :=
  layer (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13))

/-- The printed index maps over the grid: the two row windows and the output sit at block (t, 0), every
    parameter window at block (0, 0). -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_14.index t (0 : Fin 2) = t.val
    ∧ win2_14.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0 :=
  (by decide +kernel : ∀ t : Fin grid2.N, _)

/-- Window 2 is resident: its one block is its whole array. -/
theorem whole_2 (c : Dev nD) (t : Fin cfg2.N) : (iblk2 V c 2 t : S64x128.Idx → EReal) = V c (Pipeline.arrRef spec2 2) := by
  have hf := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 64 + 1 * (y 0).val = (y 0).val; have h := hf.2.2.2.2.2.2.1; omega
  | ⟨1, _⟩ => show win2_2.index t (1 : Fin 2) * 128 + 1 * (y 1).val = (y 1).val; have h := hf.2.2.2.2.2.2.2.1; omega

/-- Window 3 is resident: its one block is its whole array. -/
theorem whole_3 (c : Dev nD) (t : Fin cfg2.N) : (iblk2 V c 3 t : S1x128.Idx → EReal) = V c (Pipeline.arrRef spec2 3) := by
  have hf := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; have h := hf.2.2.2.2.2.2.2.2.1; omega
  | ⟨1, _⟩ => show win2_3.index t (1 : Fin 2) * 128 + 1 * (y 1).val = (y 1).val; have h := hf.2.2.2.2.2.2.2.2.2.1; omega

/-- Window 4 is resident: its one block is its whole array. -/
theorem whole_4 (c : Dev nD) (t : Fin cfg2.N) : (iblk2 V c 4 t : S1x128.Idx → EReal) = V c (Pipeline.arrRef spec2 4) := by
  have hf := idx_facts t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; have h := hf.2.2.2.2.2.2.2.2.2.2.1; omega
  | ⟨1, _⟩ => show win2_4.index t (1 : Fin 2) * 128 + 1 * (y 1).val = (y 1).val; have h := hf.2.2.2.2.2.2.2.2.2.2.2.1; omega

/-- Window 5 is resident: its one block is its whole array. -/
theorem whole_5 (c : Dev nD) (t : Fin cfg2.N) : (iblk2 V c 5 t : S1x128.Idx → EReal) = V c (Pipeline.arrRef spec2 5) := by
  have hf := idx_facts t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; have h := hf.2.2.2.2.2.2.2.2.2.2.2.2.1; omega
  | ⟨1, _⟩ => show win2_5.index t (1 : Fin 2) * 128 + 1 * (y 1).val = (y 1).val; have h := hf.2.2.2.2.2.2.2.2.2.2.2.2.2.1; omega

/-- Window 6 is resident: its one block is its whole array. -/
theorem whole_6 (c : Dev nD) (t : Fin cfg2.N) : (iblk2 V c 6 t : S1x128.Idx → EReal) = V c (Pipeline.arrRef spec2 6) := by
  have hf := idx_facts t
  funext y
  show V c (Pipeline.arrRef spec2 6) (((cfg2.win 6).blk t).view.emb y) = V c (Pipeline.arrRef spec2 6) y
  refine congrArg _ (funext fun a => Fin.ext ?_)
  match a with
  | ⟨0, _⟩ => show win2_6.index t (0 : Fin 2) * 1 + 1 * (y 0).val = (y 0).val; have h := hf.2.2.2.2.2.2.2.2.2.2.2.2.2.2.1; omega
  | ⟨1, _⟩ => show win2_6.index t (1 : Fin 2) * 128 + 1 * (y 1).val = (y 1).val; have h := hf.2.2.2.2.2.2.2.2.2.2.2.2.2.2.2.1; omega

/-- Window 7 is resident: its one block is its whole array. -/
theorem whole_7 (c : Dev nD) (t : Fin cfg2.N) : (iblk2 V c 7 t : S1x128.Idx → EReal) = V c (Pipeline.arrRef spec2 7) := by
  have hf := idx_facts t
  funext y
  show V c (Pipeline.arrRef spec2 7) (((cfg2.win 7).blk t).view.emb y) = V c (Pipeline.arrRef spec2 7) y
  refine congrArg _ (funext fun a => Fin.ext ?_)
  match a with
  | ⟨0, _⟩ => show win2_7.index t (0 : Fin 2) * 1 + 1 * (y 0).val = (y 0).val; have h := hf.2.2.2.2.2.2.2.2.2.2.2.2.2.2.2.2.1; omega
  | ⟨1, _⟩ => show win2_7.index t (1 : Fin 2) * 128 + 1 * (y 1).val = (y 1).val; have h := hf.2.2.2.2.2.2.2.2.2.2.2.2.2.2.2.2.2.1; omega

/-- Window 8 is resident: its one block is its whole array. -/
theorem whole_8 (c : Dev nD) (t : Fin cfg2.N) : (iblk2 V c 8 t : S128x64.Idx → EReal) = V c (Pipeline.arrRef spec2 8) := by
  have hf := idx_facts t
  funext y
  show V c (Pipeline.arrRef spec2 8) (((cfg2.win 8).blk t).view.emb y) = V c (Pipeline.arrRef spec2 8) y
  refine congrArg _ (funext fun a => Fin.ext ?_)
  match a with
  | ⟨0, _⟩ => show win2_8.index t (0 : Fin 2) * 128 + 1 * (y 0).val = (y 0).val; have h := hf.2.2.2.2.2.2.2.2.2.2.2.2.2.2.2.2.2.2.1; omega
  | ⟨1, _⟩ => show win2_8.index t (1 : Fin 2) * 64 + 1 * (y 1).val = (y 1).val; have h := hf.2.2.2.2.2.2.2.2.2.2.2.2.2.2.2.2.2.2.2.1; omega

/-- Window 9 is resident: its one block is its whole array. -/
theorem whole_9 (c : Dev nD) (t : Fin cfg2.N) : (iblk2 V c 9 t : S1x64.Idx → EReal) = V c (Pipeline.arrRef spec2 9) := by
  have hf := idx_facts t
  funext y
  show V c (Pipeline.arrRef spec2 9) (((cfg2.win 9).blk t).view.emb y) = V c (Pipeline.arrRef spec2 9) y
  refine congrArg _ (funext fun a => Fin.ext ?_)
  match a with
  | ⟨0, _⟩ => show win2_9.index t (0 : Fin 2) * 1 + 1 * (y 0).val = (y 0).val; have h := hf.2.2.2.2.2.2.2.2.2.2.2.2.2.2.2.2.2.2.2.2.1; omega
  | ⟨1, _⟩ => show win2_9.index t (1 : Fin 2) * 64 + 1 * (y 1).val = (y 1).val; have h := hf.2.2.2.2.2.2.2.2.2.2.2.2.2.2.2.2.2.2.2.2.2.1; omega

/-- Window 10 is resident: its one block is its whole array. -/
theorem whole_10 (c : Dev nD) (t : Fin cfg2.N) : (iblk2 V c 10 t : S1x64.Idx → EReal) = V c (Pipeline.arrRef spec2 10) := by
  have hf := idx_facts t
  funext y
  show V c (Pipeline.arrRef spec2 10) (((cfg2.win 10).blk t).view.emb y) = V c (Pipeline.arrRef spec2 10) y
  refine congrArg _ (funext fun a => Fin.ext ?_)
  match a with
  | ⟨0, _⟩ => show win2_10.index t (0 : Fin 2) * 1 + 1 * (y 0).val = (y 0).val; have h := hf.2.2.2.2.2.2.2.2.2.2.2.2.2.2.2.2.2.2.2.2.2.2.1; omega
  | ⟨1, _⟩ => show win2_10.index t (1 : Fin 2) * 64 + 1 * (y 1).val = (y 1).val; have h := hf.2.2.2.2.2.2.2.2.2.2.2.2.2.2.2.2.2.2.2.2.2.2.2.1; omega

/-- Window 11 is resident: its one block is its whole array. -/
theorem whole_11 (c : Dev nD) (t : Fin cfg2.N) : (iblk2 V c 11 t : S1x64.Idx → EReal) = V c (Pipeline.arrRef spec2 11) := by
  have hf := idx_facts t
  funext y
  show V c (Pipeline.arrRef spec2 11) (((cfg2.win 11).blk t).view.emb y) = V c (Pipeline.arrRef spec2 11) y
  refine congrArg _ (funext fun a => Fin.ext ?_)
  match a with
  | ⟨0, _⟩ => show win2_11.index t (0 : Fin 2) * 1 + 1 * (y 0).val = (y 0).val; have h := hf.2.2.2.2.2.2.2.2.2.2.2.2.2.2.2.2.2.2.2.2.2.2.2.2.1; omega
  | ⟨1, _⟩ => show win2_11.index t (1 : Fin 2) * 64 + 1 * (y 1).val = (y 1).val; have h := hf.2.2.2.2.2.2.2.2.2.2.2.2.2.2.2.2.2.2.2.2.2.2.2.2.2.1; omega

/-- Window 12 is resident: its one block is its whole array. -/
theorem whole_12 (c : Dev nD) (t : Fin cfg2.N) : (iblk2 V c 12 t : S1x64.Idx → EReal) = V c (Pipeline.arrRef spec2 12) := by
  have hf := idx_facts t
  funext y
  show V c (Pipeline.arrRef spec2 12) (((cfg2.win 12).blk t).view.emb y) = V c (Pipeline.arrRef spec2 12) y
  refine congrArg _ (funext fun a => Fin.ext ?_)
  match a with
  | ⟨0, _⟩ => show win2_12.index t (0 : Fin 2) * 1 + 1 * (y 0).val = (y 0).val; have h := hf.2.2.2.2.2.2.2.2.2.2.2.2.2.2.2.2.2.2.2.2.2.2.2.2.2.2.1; omega
  | ⟨1, _⟩ => show win2_12.index t (1 : Fin 2) * 64 + 1 * (y 1).val = (y 1).val; have h := hf.2.2.2.2.2.2.2.2.2.2.2.2.2.2.2.2.2.2.2.2.2.2.2.2.2.2.2.1; omega

/-- Window 13 is resident: its one block is its whole array. -/
theorem whole_13 (c : Dev nD) (t : Fin cfg2.N) : (iblk2 V c 13 t : S1x64.Idx → EReal) = V c (Pipeline.arrRef spec2 13) := by
  have hf := idx_facts t
  funext y
  show V c (Pipeline.arrRef spec2 13) (((cfg2.win 13).blk t).view.emb y) = V c (Pipeline.arrRef spec2 13) y
  refine congrArg _ (funext fun a => Fin.ext ?_)
  match a with
  | ⟨0, _⟩ => show win2_13.index t (0 : Fin 2) * 1 + 1 * (y 0).val = (y 0).val; have h := hf.2.2.2.2.2.2.2.2.2.2.2.2.2.2.2.2.2.2.2.2.2.2.2.2.2.2.2.2.1; omega
  | ⟨1, _⟩ => show win2_13.index t (1 : Fin 2) * 64 + 1 * (y 1).val = (y 1).val; have h := hf.2.2.2.2.2.2.2.2.2.2.2.2.2.2.2.2.2.2.2.2.2.2.2.2.2.2.2.2.2; omega

/-- Row p of a row window's block at point t is row 5000·t + p of its array. -/
theorem rows_0 (c : Dev nD) (t : Fin cfg2.N) (y : S5000x64.Idx) (i : S50000x64.Idx)
    (h0 : (i 0).val = 5000 * t.val + (y 0).val) (h1 : (i 1).val = (y 1).val) :
    (iblk2 V c 0 t : S5000x64.Idx → EReal) y = V c (Pipeline.arrRef spec2 0) i := by
  have hf := idx_facts t
  show V c (Pipeline.arrRef spec2 0) (((cfg2.win 0).blk t).view.emb y) = V c (Pipeline.arrRef spec2 0) i
  refine congrArg _ (funext fun a => Fin.ext ?_)
  match a with
  | ⟨0, _⟩ => show win2_0.index t (0 : Fin 2) * 5000 + 1 * (y 0).val = (i 0).val; have h := hf.1; omega
  | ⟨1, _⟩ => show win2_0.index t (1 : Fin 2) * 64 + 1 * (y 1).val = (i 1).val; have h := hf.2.1; omega

theorem rows_1 (c : Dev nD) (t : Fin cfg2.N) (y : S5000x64.Idx) (i : S50000x64.Idx)
    (h0 : (i 0).val = 5000 * t.val + (y 0).val) (h1 : (i 1).val = (y 1).val) :
    (iblk2 V c 1 t : S5000x64.Idx → EReal) y = V c (Pipeline.arrRef spec2 1) i := by
  have hf := idx_facts t
  show V c (Pipeline.arrRef spec2 1) (((cfg2.win 1).blk t).view.emb y) = V c (Pipeline.arrRef spec2 1) i
  refine congrArg _ (funext fun a => Fin.ext ?_)
  match a with
  | ⟨0, _⟩ => show win2_1.index t (0 : Fin 2) * 5000 + 1 * (y 0).val = (i 0).val; have h := hf.2.2.1; omega
  | ⟨1, _⟩ => show win2_1.index t (1 : Fin 2) * 64 + 1 * (y 1).val = (i 1).val; have h := hf.2.2.2.1; omega

/-- The layer of two blocks of rows 5000·tv … of X and A, at (p, q), is the layer of X and A at (5000·tv + p, q);
    the twelve parameter blocks may be given as any arrays equal to the parameters. -/
theorem point_eq (X A : S50000x64.Idx → EReal) (x a : S5000x64.Idx → EReal) (tv : ℕ)
    (hx : ∀ (y : S5000x64.Idx) (i : S50000x64.Idx), (i 0).val = 5000 * tv + (y 0).val → (i 1).val = (y 1).val → x y = X i)
    (ha : ∀ (y : S5000x64.Idx) (i : S50000x64.Idx), (i 0).val = 5000 * tv + (y 0).val → (i 1).val = (y 1).val → a y = A i)
    (w1 w1' : S64x128.Idx → EReal) (b1 ig ib im iv b1' ig' ib' im' iv' : S1x128.Idx → EReal) (w2 w2' : S128x64.Idx → EReal)
    (b2 og ob om ov b2' og' ob' om' ov' : S1x64.Idx → EReal)
    (e2 : w1' = w1) (e3 : b1' = b1) (e4 : ig' = ig) (e5 : ib' = ib) (e6 : im' = im) (e7 : iv' = iv) (e8 : w2' = w2)
    (e9 : b2' = b2) (e10 : og' = og) (e11 : ob' = ob) (e12 : om' = om) (e13 : ov' = ov)
    (j : S5000x64.Idx) (i : S50000x64.Idx) (h0 : (i 0).val = 5000 * tv + (j 0).val) (h1 : (i 1).val = (j 1).val) :
    layer x a w1' b1' ig' ib' im' iv' w2' b2' og' ob' om' ov' j = layer X A w1 b1 ig ib im iv w2 b2 og ob om ov i := by
  subst e2 e3 e4 e5 e6 e7 e8 e9 e10 e11 e12 e13
  obtain ⟨p, q, rfl⟩ : ∃ (p : Fin 5000) (q : Fin 64), j = ix2 p q := ⟨j 0, j 1, eq_ix2 j⟩
  have hi : (i 0).val < 50000 := (i 0).isLt
  have e : (i 0).val = 5000 * tv + p.val := h0
  have hr : 5000 * tv + p.val < 50000 := by omega
  obtain rfl : i = ix2 (⟨5000 * tv + p.val, hr⟩ : Fin 50000) q := by
    rw [eq_ix2 i]
    congr 1
    · exact Fin.ext h0
    · exact Fin.ext h1
  show layerAt (fun k => x (ix2 p k)) (fun k => a (ix2 p k)) w1' b1' ig' ib' im' iv' w2' b2' og' ob' om' ov' q
    = layerAt (fun k => X (ix2 (⟨5000 * tv + p.val, hr⟩ : Fin 50000) k)) (fun k => A (ix2 (⟨5000 * tv + p.val, hr⟩ : Fin 50000) k)) w1' b1' ig' ib' im' iv' w2' b2' og' ob' om' ov' q
  rw [funext fun k => hx (ix2 p k) (ix2 (⟨5000 * tv + p.val, hr⟩ : Fin 50000) k) rfl rfl,
    funext fun k => ha (ix2 p k) (ix2 (⟨5000 * tv + p.val, hr⟩ : Fin 50000) k) rfl rfl]

/-- The buffer the body leaves, as a function of the fourteen blocks it read: their layer. -/
theorem out_eq (x0 x1 : Vec Ideal S5000x64 .f32) (x2 : Vec Ideal S64x128 .f32) (x3 x4 x5 x6 x7 : Vec Ideal S1x128 .f32)
    (x8 : Vec Ideal S128x64 .f32) (x9 x10 x11 x12 x13 : Vec Ideal S1x64 .f32) :
    out2_14 x0 x1 x2 x3 x4 x5 x6 x7 x8 x9 x10 x11 x12 x13 = layer x0 x1 x2 x3 x4 x5 x6 x7 x8 x9 x10 x11 x12 x13 := by
  unfold out2_14
  rw [View.canon_unit_zero hz]
  simp only [View.ld_unit_zero (S := S5000x64) hz, View.ld_unit_zero (S := S64x128) hz, View.ld_unit_zero (S := S1x128) hz,
    View.ld_unit_zero (S := S128x64) hz, View.ld_unit_zero (S := S1x64) hz]
  exact Cert.KernelIdeal.Pay.pay2_eq x0 x1 x2 x3 x4 x5 x6 x7 x8 x9 x10 x11 x12 x13

/-- What point t writes back is block t of the layer of the arrays. -/
theorem flushed_eq (c : Dev nD) (t : Fin cfg2.N) :
    (dat2 V c).flushed 14 t = ((cfg2.win 14).blk t).view.read (Elt Ideal) (G V c) := by
  show (cfg2.win 14).cut (grid2.coords t) ((dat2 V c).after 14 t) = _
  rw [after2_14, out_eq]
  have hf := idx_facts t
  funext j
  refine point_eq (V c (Pipeline.arrRef spec2 0)) (V c (Pipeline.arrRef spec2 1)) (iblk2 V c 0 t) (iblk2 V c 1 t) t.val
    (fun y i h0 h1 => rows_0 V c t y i h0 h1) (fun y i h0 h1 => rows_1 V c t y i h0 h1)
    _ _ _ _ _ _ _ _ _ _ _ _ _ _ _ _ _ _ _ _ _ _ _ _
    (whole_2 V c t) (whole_3 V c t) (whole_4 V c t) (whole_5 V c t) (whole_6 V c t) (whole_7 V c t) (whole_8 V c t)
    (whole_9 V c t) (whole_10 V c t) (whole_11 V c t) (whole_12 V c t) (whole_13 V c t) j _ ?_ ?_
  · show win2_14.index t (0 : Fin 2) * 5000 + 1 * (j 0).val = 5000 * t.val + (j 0).val
    have h := hf.2.2.2.2.1; omega
  · show win2_14.index t (1 : Fin 2) * 64 + 1 * (j 1).val = (j 1).val
    have h := hf.2.2.2.2.2.1; omega

/-- An index of the output array is in point t's block iff each coordinate is in the block's range. -/
theorem mem_blk (t : Fin cfg2.N) (i : S50000x64.Idx) :
    i ∈ ((cfg2.win 14).blk t).view.set ↔ ∀ a : Fin 2, win2_14.index t a * S5000x64.size a ≤ (i a).val ∧ (i a).val < win2_14.index t a * S5000x64.size a + S5000x64.size a := by
  show i ∈ ((View.whole main_v137).slice (win2_14.rect t)).set ↔ _
  rw [View.set_slice_whole, Rect.mem_set_unit]
  exact Iff.rfl

/-- Every row lies in the block of the point numbered by its quotient by 5000. -/
theorem cover (i : S50000x64.Idx) : ∃ t : Fin cfg2.N, (cfg2.win 14).flush t = true ∧ i ∈ ((cfg2.win 14).blk t).view.set := by
  have hi0 : (i 0).val < 50000 := (i 0).isLt
  have hi1 : (i 1).val < 64 := (i 1).isLt
  have hlt : (i 0).val / 5000 < cfg2.N := by show _ < grid2.N; rw [N_2]; omega
  refine ⟨⟨(i 0).val / 5000, hlt⟩, flush2_14 _, ?_⟩
  rw [mem_blk]
  have hf := idx_facts ⟨(i 0).val / 5000, hlt⟩
  intro a
  match a with
  | ⟨0, _⟩ =>
    show win2_14.index _ (0 : Fin 2) * 5000 ≤ (i 0).val ∧ (i 0).val < win2_14.index _ (0 : Fin 2) * 5000 + 5000
    have h' : win2_14.index ⟨(i 0).val / 5000, hlt⟩ (0 : Fin 2) = (i 0).val / 5000 := hf.2.2.2.2.1
    omega
  | ⟨1, _⟩ =>
    show win2_14.index _ (1 : Fin 2) * 64 ≤ (i 1).val ∧ (i 1).val < win2_14.index _ (1 : Fin 2) * 64 + 64
    have h' : win2_14.index ⟨(i 0).val / 5000, hlt⟩ (1 : Fin 2) = 0 := hf.2.2.2.2.2.1
    omega

/-- The output array when the region is left: the layer of the arrays it found. -/
theorem final (c : Dev nD) : (dat2 V c).arrAt 14 cfg2.N = G V c :=
  (dat2 V c).arrAt_eq_of_cover 14 (G V c) (fun t _ => flushed_eq V c t) (cover)

end Cert.KernelIdeal.Final2

end
-- ==== Proof.Stage2.lean ====
/-
  Region 2 of the idealized kernel, in the arguments' terms.

  Each of the fourteen arrays the region stages is what the host operations before it computed: the node
  features are the previous region's output, the aggregate is the scatter-add of the gathered rows along the edge
  list, each parameter is sliced from a stacked argument and, for a vector, laid out as a row.  The stacked
  arguments and the edge list's two rows are as the first region found them: no later host operation or
  region writes them.  With the region's value this gives its output array as the layer of those terms.
-/
import proofs.«120131_j65111704207433_2_alg».proof.Proof.NetDefs
import proofs.«120131_j65111704207433_2_alg».proof.Proof.Final2

set_option maxRecDepth 16384

noncomputable section

namespace Cert.KernelIdeal.KV.Stage2

open Cert.KernelIdeal Cert.KernelIdeal.Gen Cert.GinLayer Cert.KernelIdeal.KV
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem k_src (c : Dev nD) : W4 m ρ c (Proc.devRef .tc main_v1) = src (m ((c : Thread nD τ).loc main_arg1)) :=
  (keep4 m ρ c main_v1 (by decide) (by decide) (by decide)).trans (W1_src m ρ c)
theorem k_dst (c : Dev nD) : W4 m ρ c (Proc.devRef .tc main_v3) = dst (m ((c : Thread nD τ).loc main_arg1)) :=
  (keep4 m ρ c main_v3 (by decide) (by decide) (by decide)).trans (W1_dst m ρ c)
theorem k_arg11 (c : Dev nD) : W4 m ρ c (Proc.devRef .tc main_arg11) = (m ((c : Thread nD τ).loc main_arg11)) :=
  (keep4 m ρ c main_arg11 (by decide) (by decide) (by decide)).trans (W1_low m ρ c main_arg11 (by decide))
theorem k_arg12 (c : Dev nD) : W4 m ρ c (Proc.devRef .tc main_arg12) = (m ((c : Thread nD τ).loc main_arg12)) :=
  (keep4 m ρ c main_arg12 (by decide) (by decide) (by decide)).trans (W1_low m ρ c main_arg12 (by decide))
theorem k_arg13 (c : Dev nD) : W4 m ρ c (Proc.devRef .tc main_arg13) = (m ((c : Thread nD τ).loc main_arg13)) :=
  (keep4 m ρ c main_arg13 (by decide) (by decide) (by decide)).trans (W1_low m ρ c main_arg13 (by decide))
theorem k_arg14 (c : Dev nD) : W4 m ρ c (Proc.devRef .tc main_arg14) = (m ((c : Thread nD τ).loc main_arg14)) :=
  (keep4 m ρ c main_arg14 (by decide) (by decide) (by decide)).trans (W1_low m ρ c main_arg14 (by decide))
theorem k_arg15 (c : Dev nD) : W4 m ρ c (Proc.devRef .tc main_arg15) = (m ((c : Thread nD τ).loc main_arg15)) :=
  (keep4 m ρ c main_arg15 (by decide) (by decide) (by decide)).trans (W1_low m ρ c main_arg15 (by decide))
theorem k_arg16 (c : Dev nD) : W4 m ρ c (Proc.devRef .tc main_arg16) = (m ((c : Thread nD τ).loc main_arg16)) :=
  (keep4 m ρ c main_arg16 (by decide) (by decide) (by decide)).trans (W1_low m ρ c main_arg16 (by decide))
theorem k_arg17 (c : Dev nD) : W4 m ρ c (Proc.devRef .tc main_arg17) = (m ((c : Thread nD τ).loc main_arg17)) :=
  (keep4 m ρ c main_arg17 (by decide) (by decide) (by decide)).trans (W1_low m ρ c main_arg17 (by decide))
theorem k_arg18 (c : Dev nD) : W4 m ρ c (Proc.devRef .tc main_arg18) = (m ((c : Thread nD τ).loc main_arg18)) :=
  (keep4 m ρ c main_arg18 (by decide) (by decide) (by decide)).trans (W1_low m ρ c main_arg18 (by decide))
theorem k_arg19 (c : Dev nD) : W4 m ρ c (Proc.devRef .tc main_arg19) = (m ((c : Thread nD τ).loc main_arg19)) :=
  (keep4 m ρ c main_arg19 (by decide) (by decide) (by decide)).trans (W1_low m ρ c main_arg19 (by decide))
theorem k_arg20 (c : Dev nD) : W4 m ρ c (Proc.devRef .tc main_arg20) = (m ((c : Thread nD τ).loc main_arg20)) :=
  (keep4 m ρ c main_arg20 (by decide) (by decide) (by decide)).trans (W1_low m ρ c main_arg20 (by decide))
theorem k_arg21 (c : Dev nD) : W4 m ρ c (Proc.devRef .tc main_arg21) = (m ((c : Thread nD τ).loc main_arg21)) :=
  (keep4 m ρ c main_arg21 (by decide) (by decide) (by decide)).trans (W1_low m ρ c main_arg21 (by decide))
theorem k_arg22 (c : Dev nD) : W4 m ρ c (Proc.devRef .tc main_arg22) = (m ((c : Thread nD τ).loc main_arg22)) :=
  (keep4 m ρ c main_arg22 (by decide) (by decide) (by decide)).trans (W1_low m ρ c main_arg22 (by decide))

theorem e0 (c : Dev nD) : (V5 m ρ c (Pipeline.arrRef spec2 0) : (⟨S50000x64, .f32⟩ : BufTy).Contents (Elt Ideal)) = W4 m ρ c (Proc.devRef .tc main_v87) :=
  after_below 121 hostOps2 (W4 m ρ c) ho2 main_v87 (by decide)
theorem e1 (c : Dev nD) : (V5 m ρ c (Pipeline.arrRef spec2 1) : (⟨S50000x64, .f32⟩ : BufTy).Contents (Elt Ideal)) = aggB (src (m ((c : Thread nD τ).loc main_arg1))) (dst (m ((c : Thread nD τ).loc main_arg1))) (W4 m ρ c (Proc.devRef .tc main_v87)) := by
  show StableHlo.after hostOps2 (W4 m ρ c) (Proc.devRef .tc main_v126) = _
  after_results_simp
  simp only [k_src m ρ c, k_dst m ρ c]
  rfl
theorem e2 (c : Dev nD) : (V5 m ρ c (Pipeline.arrRef spec2 2) : (⟨S64x128, .f32⟩ : BufTy).Contents (Elt Ideal)) = (shapeCast S64x128 (extractStridedSlice S1x64x128 ![1, 0, 0] (m ((c : Thread nD τ).loc main_arg11)) slices_S4x64x128_S1x64x128_1_0_0) shapeCasts_S1x64x128_S64x128) := by
  show StableHlo.after hostOps2 (W4 m ρ c) (Proc.devRef .tc main_v89) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e3 (c : Dev nD) : (V5 m ρ c (Pipeline.arrRef spec2 3) : (⟨S1x128, .f32⟩ : BufTy).Contents (Elt Ideal)) = (shapeCast S1x128 (shapeCast S128 (extractStridedSlice S1x128 ![1, 0] (m ((c : Thread nD τ).loc main_arg12)) slices_S4x128_S1x128_1_0) shapeCasts_S1x128_S128) shapeCasts_S128_S1x128) := by
  show StableHlo.after hostOps2 (W4 m ρ c) (Proc.devRef .tc main_v127) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e4 (c : Dev nD) : (V5 m ρ c (Pipeline.arrRef spec2 4) : (⟨S1x128, .f32⟩ : BufTy).Contents (Elt Ideal)) = (shapeCast S1x128 (shapeCast S128 (extractStridedSlice S1x128 ![1, 0] (m ((c : Thread nD τ).loc main_arg13)) slices_S4x128_S1x128_1_0) shapeCasts_S1x128_S128) shapeCasts_S128_S1x128) := by
  show StableHlo.after hostOps2 (W4 m ρ c) (Proc.devRef .tc main_v128) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e5 (c : Dev nD) : (V5 m ρ c (Pipeline.arrRef spec2 5) : (⟨S1x128, .f32⟩ : BufTy).Contents (Elt Ideal)) = (shapeCast S1x128 (shapeCast S128 (extractStridedSlice S1x128 ![1, 0] (m ((c : Thread nD τ).loc main_arg14)) slices_S4x128_S1x128_1_0) shapeCasts_S1x128_S128) shapeCasts_S128_S1x128) := by
  show StableHlo.after hostOps2 (W4 m ρ c) (Proc.devRef .tc main_v129) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e6 (c : Dev nD) : (V5 m ρ c (Pipeline.arrRef spec2 6) : (⟨S1x128, .f32⟩ : BufTy).Contents (Elt Ideal)) = (shapeCast S1x128 (shapeCast S128 (extractStridedSlice S1x128 ![1, 0] (m ((c : Thread nD τ).loc main_arg15)) slices_S4x128_S1x128_1_0) shapeCasts_S1x128_S128) shapeCasts_S128_S1x128) := by
  show StableHlo.after hostOps2 (W4 m ρ c) (Proc.devRef .tc main_v130) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e7 (c : Dev nD) : (V5 m ρ c (Pipeline.arrRef spec2 7) : (⟨S1x128, .f32⟩ : BufTy).Contents (Elt Ideal)) = (shapeCast S1x128 (shapeCast S128 (extractStridedSlice S1x128 ![1, 0] (m ((c : Thread nD τ).loc main_arg16)) slices_S4x128_S1x128_1_0) shapeCasts_S1x128_S128) shapeCasts_S128_S1x128) := by
  show StableHlo.after hostOps2 (W4 m ρ c) (Proc.devRef .tc main_v131) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e8 (c : Dev nD) : (V5 m ρ c (Pipeline.arrRef spec2 8) : (⟨S128x64, .f32⟩ : BufTy).Contents (Elt Ideal)) = (shapeCast S128x64 (extractStridedSlice S1x128x64 ![1, 0, 0] (m ((c : Thread nD τ).loc main_arg17)) slices_S4x128x64_S1x128x64_1_0_0) shapeCasts_S1x128x64_S128x64) := by
  show StableHlo.after hostOps2 (W4 m ρ c) (Proc.devRef .tc main_v101) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e9 (c : Dev nD) : (V5 m ρ c (Pipeline.arrRef spec2 9) : (⟨S1x64, .f32⟩ : BufTy).Contents (Elt Ideal)) = (shapeCast S1x64 (shapeCast S64 (extractStridedSlice S1x64 ![1, 0] (m ((c : Thread nD τ).loc main_arg18)) slices_S4x64_S1x64_1_0) shapeCasts_S1x64_S64) shapeCasts_S64_S1x64) := by
  show StableHlo.after hostOps2 (W4 m ρ c) (Proc.devRef .tc main_v132) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e10 (c : Dev nD) : (V5 m ρ c (Pipeline.arrRef spec2 10) : (⟨S1x64, .f32⟩ : BufTy).Contents (Elt Ideal)) = (shapeCast S1x64 (shapeCast S64 (extractStridedSlice S1x64 ![2, 0] (m ((c : Thread nD τ).loc main_arg19)) slices_S5x64_S1x64_2_0) shapeCasts_S1x64_S64) shapeCasts_S64_S1x64) := by
  show StableHlo.after hostOps2 (W4 m ρ c) (Proc.devRef .tc main_v133) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e11 (c : Dev nD) : (V5 m ρ c (Pipeline.arrRef spec2 11) : (⟨S1x64, .f32⟩ : BufTy).Contents (Elt Ideal)) = (shapeCast S1x64 (shapeCast S64 (extractStridedSlice S1x64 ![2, 0] (m ((c : Thread nD τ).loc main_arg20)) slices_S5x64_S1x64_2_0) shapeCasts_S1x64_S64) shapeCasts_S64_S1x64) := by
  show StableHlo.after hostOps2 (W4 m ρ c) (Proc.devRef .tc main_v134) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e12 (c : Dev nD) : (V5 m ρ c (Pipeline.arrRef spec2 12) : (⟨S1x64, .f32⟩ : BufTy).Contents (Elt Ideal)) = (shapeCast S1x64 (shapeCast S64 (extractStridedSlice S1x64 ![2, 0] (m ((c : Thread nD τ).loc main_arg21)) slices_S5x64_S1x64_2_0) shapeCasts_S1x64_S64) shapeCasts_S64_S1x64) := by
  show StableHlo.after hostOps2 (W4 m ρ c) (Proc.devRef .tc main_v135) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e13 (c : Dev nD) : (V5 m ρ c (Pipeline.arrRef spec2 13) : (⟨S1x64, .f32⟩ : BufTy).Contents (Elt Ideal)) = (shapeCast S1x64 (shapeCast S64 (extractStridedSlice S1x64 ![2, 0] (m ((c : Thread nD τ).loc main_arg22)) slices_S5x64_S1x64_2_0) shapeCasts_S1x64_S64) shapeCasts_S64_S1x64) := by
  show StableHlo.after hostOps2 (W4 m ρ c) (Proc.devRef .tc main_v136) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl

set_option maxHeartbeats 2000000 in
/-- The region's output array when it is left: the layer of what the region found, in the arguments' terms
    (for a later layer, of the previous region's output array). -/
theorem out (c : Dev nD) : W6 m ρ c (Proc.devRef .tc main_v137) =
    layer (W4 m ρ c (Proc.devRef .tc main_v87)) (aggB (src (m ((c : Thread nD τ).loc main_arg1))) (dst (m ((c : Thread nD τ).loc main_arg1))) (W4 m ρ c (Proc.devRef .tc main_v87)))
      (shapeCast S64x128 (extractStridedSlice S1x64x128 ![1, 0, 0] (m ((c : Thread nD τ).loc main_arg11)) slices_S4x64x128_S1x64x128_1_0_0) shapeCasts_S1x64x128_S64x128)
      (shapeCast S1x128 (shapeCast S128 (extractStridedSlice S1x128 ![1, 0] (m ((c : Thread nD τ).loc main_arg12)) slices_S4x128_S1x128_1_0) shapeCasts_S1x128_S128) shapeCasts_S128_S1x128)
      (shapeCast S1x128 (shapeCast S128 (extractStridedSlice S1x128 ![1, 0] (m ((c : Thread nD τ).loc main_arg13)) slices_S4x128_S1x128_1_0) shapeCasts_S1x128_S128) shapeCasts_S128_S1x128)
      (shapeCast S1x128 (shapeCast S128 (extractStridedSlice S1x128 ![1, 0] (m ((c : Thread nD τ).loc main_arg14)) slices_S4x128_S1x128_1_0) shapeCasts_S1x128_S128) shapeCasts_S128_S1x128)
      (shapeCast S1x128 (shapeCast S128 (extractStridedSlice S1x128 ![1, 0] (m ((c : Thread nD τ).loc main_arg15)) slices_S4x128_S1x128_1_0) shapeCasts_S1x128_S128) shapeCasts_S128_S1x128)
      (shapeCast S1x128 (shapeCast S128 (extractStridedSlice S1x128 ![1, 0] (m ((c : Thread nD τ).loc main_arg16)) slices_S4x128_S1x128_1_0) shapeCasts_S1x128_S128) shapeCasts_S128_S1x128)
      (shapeCast S128x64 (extractStridedSlice S1x128x64 ![1, 0, 0] (m ((c : Thread nD τ).loc main_arg17)) slices_S4x128x64_S1x128x64_1_0_0) shapeCasts_S1x128x64_S128x64)
      (shapeCast S1x64 (shapeCast S64 (extractStridedSlice S1x64 ![1, 0] (m ((c : Thread nD τ).loc main_arg18)) slices_S4x64_S1x64_1_0) shapeCasts_S1x64_S64) shapeCasts_S64_S1x64)
      (shapeCast S1x64 (shapeCast S64 (extractStridedSlice S1x64 ![2, 0] (m ((c : Thread nD τ).loc main_arg19)) slices_S5x64_S1x64_2_0) shapeCasts_S1x64_S64) shapeCasts_S64_S1x64)
      (shapeCast S1x64 (shapeCast S64 (extractStridedSlice S1x64 ![2, 0] (m ((c : Thread nD τ).loc main_arg20)) slices_S5x64_S1x64_2_0) shapeCasts_S1x64_S64) shapeCasts_S64_S1x64)
      (shapeCast S1x64 (shapeCast S64 (extractStridedSlice S1x64 ![2, 0] (m ((c : Thread nD τ).loc main_arg21)) slices_S5x64_S1x64_2_0) shapeCasts_S1x64_S64) shapeCasts_S64_S1x64)
      (shapeCast S1x64 (shapeCast S64 (extractStridedSlice S1x64 ![2, 0] (m ((c : Thread nD τ).loc main_arg22)) slices_S5x64_S1x64_2_0) shapeCasts_S1x64_S64) shapeCasts_S64_S1x64) := by
  refine (W6_arr m ρ c 14).trans ?_
  refine (Cert.KernelIdeal.Final2.final (V5 m ρ) c).trans ?_
  unfold Cert.KernelIdeal.Final2.G
  exact layer_congr (e0 m ρ c) (e1 m ρ c) (e2 m ρ c) (e3 m ρ c) (e4 m ρ c) (e5 m ρ c) (e6 m ρ c) (e7 m ρ c) (e8 m ρ c) (e9 m ρ c)
    (e10 m ρ c) (e11 m ρ c) (e12 m ρ c) (e13 m ρ c)

end Cert.KernelIdeal.KV.Stage2

end
-- ==== Proof.Final3.lean ====
/-
  Region 3 of the idealized kernel: what its output array holds when the region is left.

  The region runs one layer over ten blocks of 5000 nodes.  At grid point t the body reads rows
  5000·t … 5000·t + 4999 of the node features and of the aggregate, and the twelve parameter arrays whole;
  it writes rows 5000·t … 5000·t + 4999 of the output.  An entry of a layer reads only its own row of the
  features and of the aggregate, so block t of the layer of the whole arrays is the layer of the blocks;
  the ten blocks fill the 50000 rows, so the output array is the layer of the arrays the region found.
-/
import proofs.«120131_j65111704207433_2_alg».proof.Proof.Gen.KernelIdeal.Frame
import proofs.«120131_j65111704207433_2_alg».proof.Proof.KernelPay
import Idealize.ShloMosaic.Lib.Pipeline.Value
import Idealize.ShloMosaic.Lib.ValueIdx

set_option maxRecDepth 16384

noncomputable section

namespace Cert.KernelIdeal.Final3

open Cert.KernelIdeal Cert.KernelIdeal.Gen Cert.GinLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds at its fourteen input windows. -/
def G (c : Dev nD) : S50000x64.Idx → EReal :=
  layer (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13))

/-- The printed index maps over the grid: the two row windows and the output sit at block (t, 0), every
    parameter window at block (0, 0). -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_14.index t (0 : Fin 2) = t.val
    ∧ win3_14.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = 0
    ∧ win3_11.index t (1 : Fin 2) = 0
    ∧ win3_12.index t (0 : Fin 2) = 0
    ∧ win3_12.index t (1 : Fin 2) = 0
    ∧ win3_13.index t (0 : Fin 2) = 0
    ∧ win3_13.index t (1 : Fin 2) = 0 :=
  (by decide +kernel : ∀ t : Fin grid3.N, _)

/-- Window 2 is resident: its one block is its whole array. -/
theorem whole_2 (c : Dev nD) (t : Fin cfg3.N) : (iblk3 V c 2 t : S64x128.Idx → EReal) = V c (Pipeline.arrRef spec3 2) := by
  have hf := idx_facts t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 64 + 1 * (y 0).val = (y 0).val; have h := hf.2.2.2.2.2.2.1; omega
  | ⟨1, _⟩ => show win3_2.index t (1 : Fin 2) * 128 + 1 * (y 1).val = (y 1).val; have h := hf.2.2.2.2.2.2.2.1; omega

/-- Window 3 is resident: its one block is its whole array. -/
theorem whole_3 (c : Dev nD) (t : Fin cfg3.N) : (iblk3 V c 3 t : S1x128.Idx → EReal) = V c (Pipeline.arrRef spec3 3) := by
  have hf := idx_facts t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; have h := hf.2.2.2.2.2.2.2.2.1; omega
  | ⟨1, _⟩ => show win3_3.index t (1 : Fin 2) * 128 + 1 * (y 1).val = (y 1).val; have h := hf.2.2.2.2.2.2.2.2.2.1; omega

/-- Window 4 is resident: its one block is its whole array. -/
theorem whole_4 (c : Dev nD) (t : Fin cfg3.N) : (iblk3 V c 4 t : S1x128.Idx → EReal) = V c (Pipeline.arrRef spec3 4) := by
  have hf := idx_facts t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; have h := hf.2.2.2.2.2.2.2.2.2.2.1; omega
  | ⟨1, _⟩ => show win3_4.index t (1 : Fin 2) * 128 + 1 * (y 1).val = (y 1).val; have h := hf.2.2.2.2.2.2.2.2.2.2.2.1; omega

/-- Window 5 is resident: its one block is its whole array. -/
theorem whole_5 (c : Dev nD) (t : Fin cfg3.N) : (iblk3 V c 5 t : S1x128.Idx → EReal) = V c (Pipeline.arrRef spec3 5) := by
  have hf := idx_facts t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 1 + 1 * (y 0).val = (y 0).val; have h := hf.2.2.2.2.2.2.2.2.2.2.2.2.1; omega
  | ⟨1, _⟩ => show win3_5.index t (1 : Fin 2) * 128 + 1 * (y 1).val = (y 1).val; have h := hf.2.2.2.2.2.2.2.2.2.2.2.2.2.1; omega

/-- Window 6 is resident: its one block is its whole array. -/
theorem whole_6 (c : Dev nD) (t : Fin cfg3.N) : (iblk3 V c 6 t : S1x128.Idx → EReal) = V c (Pipeline.arrRef spec3 6) := by
  have hf := idx_facts t
  funext y
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 1 + 1 * (y 0).val = (y 0).val; have h := hf.2.2.2.2.2.2.2.2.2.2.2.2.2.2.1; omega
  | ⟨1, _⟩ => show win3_6.index t (1 : Fin 2) * 128 + 1 * (y 1).val = (y 1).val; have h := hf.2.2.2.2.2.2.2.2.2.2.2.2.2.2.2.1; omega

/-- Window 7 is resident: its one block is its whole array. -/
theorem whole_7 (c : Dev nD) (t : Fin cfg3.N) : (iblk3 V c 7 t : S1x128.Idx → EReal) = V c (Pipeline.arrRef spec3 7) := by
  have hf := idx_facts t
  funext y
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 2) * 1 + 1 * (y 0).val = (y 0).val; have h := hf.2.2.2.2.2.2.2.2.2.2.2.2.2.2.2.2.1; omega
  | ⟨1, _⟩ => show win3_7.index t (1 : Fin 2) * 128 + 1 * (y 1).val = (y 1).val; have h := hf.2.2.2.2.2.2.2.2.2.2.2.2.2.2.2.2.2.1; omega

/-- Window 8 is resident: its one block is its whole array. -/
theorem whole_8 (c : Dev nD) (t : Fin cfg3.N) : (iblk3 V c 8 t : S128x64.Idx → EReal) = V c (Pipeline.arrRef spec3 8) := by
  have hf := idx_facts t
  funext y
  show V c (Pipeline.arrRef spec3 8) (((cfg3.win 8).blk t).view.emb y) = V c (Pipeline.arrRef spec3 8) y
  refine congrArg _ (funext fun a => Fin.ext ?_)
  match a with
  | ⟨0, _⟩ => show win3_8.index t (0 : Fin 2) * 128 + 1 * (y 0).val = (y 0).val; have h := hf.2.2.2.2.2.2.2.2.2.2.2.2.2.2.2.2.2.2.1; omega
  | ⟨1, _⟩ => show win3_8.index t (1 : Fin 2) * 64 + 1 * (y 1).val = (y 1).val; have h := hf.2.2.2.2.2.2.2.2.2.2.2.2.2.2.2.2.2.2.2.1; omega

/-- Window 9 is resident: its one block is its whole array. -/
theorem whole_9 (c : Dev nD) (t : Fin cfg3.N) : (iblk3 V c 9 t : S1x64.Idx → EReal) = V c (Pipeline.arrRef spec3 9) := by
  have hf := idx_facts t
  funext y
  show V c (Pipeline.arrRef spec3 9) (((cfg3.win 9).blk t).view.emb y) = V c (Pipeline.arrRef spec3 9) y
  refine congrArg _ (funext fun a => Fin.ext ?_)
  match a with
  | ⟨0, _⟩ => show win3_9.index t (0 : Fin 2) * 1 + 1 * (y 0).val = (y 0).val; have h := hf.2.2.2.2.2.2.2.2.2.2.2.2.2.2.2.2.2.2.2.2.1; omega
  | ⟨1, _⟩ => show win3_9.index t (1 : Fin 2) * 64 + 1 * (y 1).val = (y 1).val; have h := hf.2.2.2.2.2.2.2.2.2.2.2.2.2.2.2.2.2.2.2.2.2.1; omega

/-- Window 10 is resident: its one block is its whole array. -/
theorem whole_10 (c : Dev nD) (t : Fin cfg3.N) : (iblk3 V c 10 t : S1x64.Idx → EReal) = V c (Pipeline.arrRef spec3 10) := by
  have hf := idx_facts t
  funext y
  show V c (Pipeline.arrRef spec3 10) (((cfg3.win 10).blk t).view.emb y) = V c (Pipeline.arrRef spec3 10) y
  refine congrArg _ (funext fun a => Fin.ext ?_)
  match a with
  | ⟨0, _⟩ => show win3_10.index t (0 : Fin 2) * 1 + 1 * (y 0).val = (y 0).val; have h := hf.2.2.2.2.2.2.2.2.2.2.2.2.2.2.2.2.2.2.2.2.2.2.1; omega
  | ⟨1, _⟩ => show win3_10.index t (1 : Fin 2) * 64 + 1 * (y 1).val = (y 1).val; have h := hf.2.2.2.2.2.2.2.2.2.2.2.2.2.2.2.2.2.2.2.2.2.2.2.1; omega

/-- Window 11 is resident: its one block is its whole array. -/
theorem whole_11 (c : Dev nD) (t : Fin cfg3.N) : (iblk3 V c 11 t : S1x64.Idx → EReal) = V c (Pipeline.arrRef spec3 11) := by
  have hf := idx_facts t
  funext y
  show V c (Pipeline.arrRef spec3 11) (((cfg3.win 11).blk t).view.emb y) = V c (Pipeline.arrRef spec3 11) y
  refine congrArg _ (funext fun a => Fin.ext ?_)
  match a with
  | ⟨0, _⟩ => show win3_11.index t (0 : Fin 2) * 1 + 1 * (y 0).val = (y 0).val; have h := hf.2.2.2.2.2.2.2.2.2.2.2.2.2.2.2.2.2.2.2.2.2.2.2.2.1; omega
  | ⟨1, _⟩ => show win3_11.index t (1 : Fin 2) * 64 + 1 * (y 1).val = (y 1).val; have h := hf.2.2.2.2.2.2.2.2.2.2.2.2.2.2.2.2.2.2.2.2.2.2.2.2.2.1; omega

/-- Window 12 is resident: its one block is its whole array. -/
theorem whole_12 (c : Dev nD) (t : Fin cfg3.N) : (iblk3 V c 12 t : S1x64.Idx → EReal) = V c (Pipeline.arrRef spec3 12) := by
  have hf := idx_facts t
  funext y
  show V c (Pipeline.arrRef spec3 12) (((cfg3.win 12).blk t).view.emb y) = V c (Pipeline.arrRef spec3 12) y
  refine congrArg _ (funext fun a => Fin.ext ?_)
  match a with
  | ⟨0, _⟩ => show win3_12.index t (0 : Fin 2) * 1 + 1 * (y 0).val = (y 0).val; have h := hf.2.2.2.2.2.2.2.2.2.2.2.2.2.2.2.2.2.2.2.2.2.2.2.2.2.2.1; omega
  | ⟨1, _⟩ => show win3_12.index t (1 : Fin 2) * 64 + 1 * (y 1).val = (y 1).val; have h := hf.2.2.2.2.2.2.2.2.2.2.2.2.2.2.2.2.2.2.2.2.2.2.2.2.2.2.2.1; omega

/-- Window 13 is resident: its one block is its whole array. -/
theorem whole_13 (c : Dev nD) (t : Fin cfg3.N) : (iblk3 V c 13 t : S1x64.Idx → EReal) = V c (Pipeline.arrRef spec3 13) := by
  have hf := idx_facts t
  funext y
  show V c (Pipeline.arrRef spec3 13) (((cfg3.win 13).blk t).view.emb y) = V c (Pipeline.arrRef spec3 13) y
  refine congrArg _ (funext fun a => Fin.ext ?_)
  match a with
  | ⟨0, _⟩ => show win3_13.index t (0 : Fin 2) * 1 + 1 * (y 0).val = (y 0).val; have h := hf.2.2.2.2.2.2.2.2.2.2.2.2.2.2.2.2.2.2.2.2.2.2.2.2.2.2.2.2.1; omega
  | ⟨1, _⟩ => show win3_13.index t (1 : Fin 2) * 64 + 1 * (y 1).val = (y 1).val; have h := hf.2.2.2.2.2.2.2.2.2.2.2.2.2.2.2.2.2.2.2.2.2.2.2.2.2.2.2.2.2; omega

/-- Row p of a row window's block at point t is row 5000·t + p of its array. -/
theorem rows_0 (c : Dev nD) (t : Fin cfg3.N) (y : S5000x64.Idx) (i : S50000x64.Idx)
    (h0 : (i 0).val = 5000 * t.val + (y 0).val) (h1 : (i 1).val = (y 1).val) :
    (iblk3 V c 0 t : S5000x64.Idx → EReal) y = V c (Pipeline.arrRef spec3 0) i := by
  have hf := idx_facts t
  show V c (Pipeline.arrRef spec3 0) (((cfg3.win 0).blk t).view.emb y) = V c (Pipeline.arrRef spec3 0) i
  refine congrArg _ (funext fun a => Fin.ext ?_)
  match a with
  | ⟨0, _⟩ => show win3_0.index t (0 : Fin 2) * 5000 + 1 * (y 0).val = (i 0).val; have h := hf.1; omega
  | ⟨1, _⟩ => show win3_0.index t (1 : Fin 2) * 64 + 1 * (y 1).val = (i 1).val; have h := hf.2.1; omega

theorem rows_1 (c : Dev nD) (t : Fin cfg3.N) (y : S5000x64.Idx) (i : S50000x64.Idx)
    (h0 : (i 0).val = 5000 * t.val + (y 0).val) (h1 : (i 1).val = (y 1).val) :
    (iblk3 V c 1 t : S5000x64.Idx → EReal) y = V c (Pipeline.arrRef spec3 1) i := by
  have hf := idx_facts t
  show V c (Pipeline.arrRef spec3 1) (((cfg3.win 1).blk t).view.emb y) = V c (Pipeline.arrRef spec3 1) i
  refine congrArg _ (funext fun a => Fin.ext ?_)
  match a with
  | ⟨0, _⟩ => show win3_1.index t (0 : Fin 2) * 5000 + 1 * (y 0).val = (i 0).val; have h := hf.2.2.1; omega
  | ⟨1, _⟩ => show win3_1.index t (1 : Fin 2) * 64 + 1 * (y 1).val = (i 1).val; have h := hf.2.2.2.1; omega

/-- The layer of two blocks of rows 5000·tv … of X and A, at (p, q), is the layer of X and A at (5000·tv + p, q);
    the twelve parameter blocks may be given as any arrays equal to the parameters. -/
theorem point_eq (X A : S50000x64.Idx → EReal) (x a : S5000x64.Idx → EReal) (tv : ℕ)
    (hx : ∀ (y : S5000x64.Idx) (i : S50000x64.Idx), (i 0).val = 5000 * tv + (y 0).val → (i 1).val = (y 1).val → x y = X i)
    (ha : ∀ (y : S5000x64.Idx) (i : S50000x64.Idx), (i 0).val = 5000 * tv + (y 0).val → (i 1).val = (y 1).val → a y = A i)
    (w1 w1' : S64x128.Idx → EReal) (b1 ig ib im iv b1' ig' ib' im' iv' : S1x128.Idx → EReal) (w2 w2' : S128x64.Idx → EReal)
    (b2 og ob om ov b2' og' ob' om' ov' : S1x64.Idx → EReal)
    (e2 : w1' = w1) (e3 : b1' = b1) (e4 : ig' = ig) (e5 : ib' = ib) (e6 : im' = im) (e7 : iv' = iv) (e8 : w2' = w2)
    (e9 : b2' = b2) (e10 : og' = og) (e11 : ob' = ob) (e12 : om' = om) (e13 : ov' = ov)
    (j : S5000x64.Idx) (i : S50000x64.Idx) (h0 : (i 0).val = 5000 * tv + (j 0).val) (h1 : (i 1).val = (j 1).val) :
    layer x a w1' b1' ig' ib' im' iv' w2' b2' og' ob' om' ov' j = layer X A w1 b1 ig ib im iv w2 b2 og ob om ov i := by
  subst e2 e3 e4 e5 e6 e7 e8 e9 e10 e11 e12 e13
  obtain ⟨p, q, rfl⟩ : ∃ (p : Fin 5000) (q : Fin 64), j = ix2 p q := ⟨j 0, j 1, eq_ix2 j⟩
  have hi : (i 0).val < 50000 := (i 0).isLt
  have e : (i 0).val = 5000 * tv + p.val := h0
  have hr : 5000 * tv + p.val < 50000 := by omega
  obtain rfl : i = ix2 (⟨5000 * tv + p.val, hr⟩ : Fin 50000) q := by
    rw [eq_ix2 i]
    congr 1
    · exact Fin.ext h0
    · exact Fin.ext h1
  show layerAt (fun k => x (ix2 p k)) (fun k => a (ix2 p k)) w1' b1' ig' ib' im' iv' w2' b2' og' ob' om' ov' q
    = layerAt (fun k => X (ix2 (⟨5000 * tv + p.val, hr⟩ : Fin 50000) k)) (fun k => A (ix2 (⟨5000 * tv + p.val, hr⟩ : Fin 50000) k)) w1' b1' ig' ib' im' iv' w2' b2' og' ob' om' ov' q
  rw [funext fun k => hx (ix2 p k) (ix2 (⟨5000 * tv + p.val, hr⟩ : Fin 50000) k) rfl rfl,
    funext fun k => ha (ix2 p k) (ix2 (⟨5000 * tv + p.val, hr⟩ : Fin 50000) k) rfl rfl]

/-- The buffer the body leaves, as a function of the fourteen blocks it read: their layer. -/
theorem out_eq (x0 x1 : Vec Ideal S5000x64 .f32) (x2 : Vec Ideal S64x128 .f32) (x3 x4 x5 x6 x7 : Vec Ideal S1x128 .f32)
    (x8 : Vec Ideal S128x64 .f32) (x9 x10 x11 x12 x13 : Vec Ideal S1x64 .f32) :
    out3_14 x0 x1 x2 x3 x4 x5 x6 x7 x8 x9 x10 x11 x12 x13 = layer x0 x1 x2 x3 x4 x5 x6 x7 x8 x9 x10 x11 x12 x13 := by
  unfold out3_14
  rw [View.canon_unit_zero hz]
  simp only [View.ld_unit_zero (S := S5000x64) hz, View.ld_unit_zero (S := S64x128) hz, View.ld_unit_zero (S := S1x128) hz,
    View.ld_unit_zero (S := S128x64) hz, View.ld_unit_zero (S := S1x64) hz]
  exact Cert.KernelIdeal.Pay.pay3_eq x0 x1 x2 x3 x4 x5 x6 x7 x8 x9 x10 x11 x12 x13

/-- What point t writes back is block t of the layer of the arrays. -/
theorem flushed_eq (c : Dev nD) (t : Fin cfg3.N) :
    (dat3 V c).flushed 14 t = ((cfg3.win 14).blk t).view.read (Elt Ideal) (G V c) := by
  show (cfg3.win 14).cut (grid3.coords t) ((dat3 V c).after 14 t) = _
  rw [after3_14, out_eq]
  have hf := idx_facts t
  funext j
  refine point_eq (V c (Pipeline.arrRef spec3 0)) (V c (Pipeline.arrRef spec3 1)) (iblk3 V c 0 t) (iblk3 V c 1 t) t.val
    (fun y i h0 h1 => rows_0 V c t y i h0 h1) (fun y i h0 h1 => rows_1 V c t y i h0 h1)
    _ _ _ _ _ _ _ _ _ _ _ _ _ _ _ _ _ _ _ _ _ _ _ _
    (whole_2 V c t) (whole_3 V c t) (whole_4 V c t) (whole_5 V c t) (whole_6 V c t) (whole_7 V c t) (whole_8 V c t)
    (whole_9 V c t) (whole_10 V c t) (whole_11 V c t) (whole_12 V c t) (whole_13 V c t) j _ ?_ ?_
  · show win3_14.index t (0 : Fin 2) * 5000 + 1 * (j 0).val = 5000 * t.val + (j 0).val
    have h := hf.2.2.2.2.1; omega
  · show win3_14.index t (1 : Fin 2) * 64 + 1 * (j 1).val = (j 1).val
    have h := hf.2.2.2.2.2.1; omega

/-- An index of the output array is in point t's block iff each coordinate is in the block's range. -/
theorem mem_blk (t : Fin cfg3.N) (i : S50000x64.Idx) :
    i ∈ ((cfg3.win 14).blk t).view.set ↔ ∀ a : Fin 2, win3_14.index t a * S5000x64.size a ≤ (i a).val ∧ (i a).val < win3_14.index t a * S5000x64.size a + S5000x64.size a := by
  show i ∈ ((View.whole main_v187).slice (win3_14.rect t)).set ↔ _
  rw [View.set_slice_whole, Rect.mem_set_unit]
  exact Iff.rfl

/-- Every row lies in the block of the point numbered by its quotient by 5000. -/
theorem cover (i : S50000x64.Idx) : ∃ t : Fin cfg3.N, (cfg3.win 14).flush t = true ∧ i ∈ ((cfg3.win 14).blk t).view.set := by
  have hi0 : (i 0).val < 50000 := (i 0).isLt
  have hi1 : (i 1).val < 64 := (i 1).isLt
  have hlt : (i 0).val / 5000 < cfg3.N := by show _ < grid3.N; rw [N_3]; omega
  refine ⟨⟨(i 0).val / 5000, hlt⟩, flush3_14 _, ?_⟩
  rw [mem_blk]
  have hf := idx_facts ⟨(i 0).val / 5000, hlt⟩
  intro a
  match a with
  | ⟨0, _⟩ =>
    show win3_14.index _ (0 : Fin 2) * 5000 ≤ (i 0).val ∧ (i 0).val < win3_14.index _ (0 : Fin 2) * 5000 + 5000
    have h' : win3_14.index ⟨(i 0).val / 5000, hlt⟩ (0 : Fin 2) = (i 0).val / 5000 := hf.2.2.2.2.1
    omega
  | ⟨1, _⟩ =>
    show win3_14.index _ (1 : Fin 2) * 64 ≤ (i 1).val ∧ (i 1).val < win3_14.index _ (1 : Fin 2) * 64 + 64
    have h' : win3_14.index ⟨(i 0).val / 5000, hlt⟩ (1 : Fin 2) = 0 := hf.2.2.2.2.2.1
    omega

/-- The output array when the region is left: the layer of the arrays it found. -/
theorem final (c : Dev nD) : (dat3 V c).arrAt 14 cfg3.N = G V c :=
  (dat3 V c).arrAt_eq_of_cover 14 (G V c) (fun t _ => flushed_eq V c t) (cover)

end Cert.KernelIdeal.Final3

end
-- ==== Proof.Stage3.lean ====
/-
  Region 3 of the idealized kernel, in the arguments' terms.

  Each of the fourteen arrays the region stages is what the host operations before it computed: the node
  features are the previous region's output, the aggregate is the scatter-add of the gathered rows along the edge
  list, each parameter is sliced from a stacked argument and, for a vector, laid out as a row.  The stacked
  arguments and the edge list's two rows are as the first region found them: no later host operation or
  region writes them.  With the region's value this gives its output array as the layer of those terms.
-/
import proofs.«120131_j65111704207433_2_alg».proof.Proof.NetDefs
import proofs.«120131_j65111704207433_2_alg».proof.Proof.Final3

set_option maxRecDepth 16384

noncomputable section

namespace Cert.KernelIdeal.KV.Stage3

open Cert.KernelIdeal Cert.KernelIdeal.Gen Cert.GinLayer Cert.KernelIdeal.KV
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem k_src (c : Dev nD) : W6 m ρ c (Proc.devRef .tc main_v1) = src (m ((c : Thread nD τ).loc main_arg1)) :=
  (keep6 m ρ c main_v1 (by decide) (by decide) (by decide) (by decide)).trans (W1_src m ρ c)
theorem k_dst (c : Dev nD) : W6 m ρ c (Proc.devRef .tc main_v3) = dst (m ((c : Thread nD τ).loc main_arg1)) :=
  (keep6 m ρ c main_v3 (by decide) (by decide) (by decide) (by decide)).trans (W1_dst m ρ c)
theorem k_arg11 (c : Dev nD) : W6 m ρ c (Proc.devRef .tc main_arg11) = (m ((c : Thread nD τ).loc main_arg11)) :=
  (keep6 m ρ c main_arg11 (by decide) (by decide) (by decide) (by decide)).trans (W1_low m ρ c main_arg11 (by decide))
theorem k_arg12 (c : Dev nD) : W6 m ρ c (Proc.devRef .tc main_arg12) = (m ((c : Thread nD τ).loc main_arg12)) :=
  (keep6 m ρ c main_arg12 (by decide) (by decide) (by decide) (by decide)).trans (W1_low m ρ c main_arg12 (by decide))
theorem k_arg13 (c : Dev nD) : W6 m ρ c (Proc.devRef .tc main_arg13) = (m ((c : Thread nD τ).loc main_arg13)) :=
  (keep6 m ρ c main_arg13 (by decide) (by decide) (by decide) (by decide)).trans (W1_low m ρ c main_arg13 (by decide))
theorem k_arg14 (c : Dev nD) : W6 m ρ c (Proc.devRef .tc main_arg14) = (m ((c : Thread nD τ).loc main_arg14)) :=
  (keep6 m ρ c main_arg14 (by decide) (by decide) (by decide) (by decide)).trans (W1_low m ρ c main_arg14 (by decide))
theorem k_arg15 (c : Dev nD) : W6 m ρ c (Proc.devRef .tc main_arg15) = (m ((c : Thread nD τ).loc main_arg15)) :=
  (keep6 m ρ c main_arg15 (by decide) (by decide) (by decide) (by decide)).trans (W1_low m ρ c main_arg15 (by decide))
theorem k_arg16 (c : Dev nD) : W6 m ρ c (Proc.devRef .tc main_arg16) = (m ((c : Thread nD τ).loc main_arg16)) :=
  (keep6 m ρ c main_arg16 (by decide) (by decide) (by decide) (by decide)).trans (W1_low m ρ c main_arg16 (by decide))
theorem k_arg17 (c : Dev nD) : W6 m ρ c (Proc.devRef .tc main_arg17) = (m ((c : Thread nD τ).loc main_arg17)) :=
  (keep6 m ρ c main_arg17 (by decide) (by decide) (by decide) (by decide)).trans (W1_low m ρ c main_arg17 (by decide))
theorem k_arg18 (c : Dev nD) : W6 m ρ c (Proc.devRef .tc main_arg18) = (m ((c : Thread nD τ).loc main_arg18)) :=
  (keep6 m ρ c main_arg18 (by decide) (by decide) (by decide) (by decide)).trans (W1_low m ρ c main_arg18 (by decide))
theorem k_arg19 (c : Dev nD) : W6 m ρ c (Proc.devRef .tc main_arg19) = (m ((c : Thread nD τ).loc main_arg19)) :=
  (keep6 m ρ c main_arg19 (by decide) (by decide) (by decide) (by decide)).trans (W1_low m ρ c main_arg19 (by decide))
theorem k_arg20 (c : Dev nD) : W6 m ρ c (Proc.devRef .tc main_arg20) = (m ((c : Thread nD τ).loc main_arg20)) :=
  (keep6 m ρ c main_arg20 (by decide) (by decide) (by decide) (by decide)).trans (W1_low m ρ c main_arg20 (by decide))
theorem k_arg21 (c : Dev nD) : W6 m ρ c (Proc.devRef .tc main_arg21) = (m ((c : Thread nD τ).loc main_arg21)) :=
  (keep6 m ρ c main_arg21 (by decide) (by decide) (by decide) (by decide)).trans (W1_low m ρ c main_arg21 (by decide))
theorem k_arg22 (c : Dev nD) : W6 m ρ c (Proc.devRef .tc main_arg22) = (m ((c : Thread nD τ).loc main_arg22)) :=
  (keep6 m ρ c main_arg22 (by decide) (by decide) (by decide) (by decide)).trans (W1_low m ρ c main_arg22 (by decide))

theorem e0 (c : Dev nD) : (V7 m ρ c (Pipeline.arrRef spec3 0) : (⟨S50000x64, .f32⟩ : BufTy).Contents (Elt Ideal)) = W6 m ρ c (Proc.devRef .tc main_v137) :=
  after_below 176 hostOps3 (W6 m ρ c) ho3 main_v137 (by decide)
theorem e1 (c : Dev nD) : (V7 m ρ c (Pipeline.arrRef spec3 1) : (⟨S50000x64, .f32⟩ : BufTy).Contents (Elt Ideal)) = aggB (src (m ((c : Thread nD τ).loc main_arg1))) (dst (m ((c : Thread nD τ).loc main_arg1))) (W6 m ρ c (Proc.devRef .tc main_v137)) := by
  show StableHlo.after hostOps3 (W6 m ρ c) (Proc.devRef .tc main_v176) = _
  after_results_simp
  simp only [k_src m ρ c, k_dst m ρ c]
  rfl
theorem e2 (c : Dev nD) : (V7 m ρ c (Pipeline.arrRef spec3 2) : (⟨S64x128, .f32⟩ : BufTy).Contents (Elt Ideal)) = (shapeCast S64x128 (extractStridedSlice S1x64x128 ![2, 0, 0] (m ((c : Thread nD τ).loc main_arg11)) slices_S4x64x128_S1x64x128_2_0_0) shapeCasts_S1x64x128_S64x128) := by
  show StableHlo.after hostOps3 (W6 m ρ c) (Proc.devRef .tc main_v139) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e3 (c : Dev nD) : (V7 m ρ c (Pipeline.arrRef spec3 3) : (⟨S1x128, .f32⟩ : BufTy).Contents (Elt Ideal)) = (shapeCast S1x128 (shapeCast S128 (extractStridedSlice S1x128 ![2, 0] (m ((c : Thread nD τ).loc main_arg12)) slices_S4x128_S1x128_2_0) shapeCasts_S1x128_S128) shapeCasts_S128_S1x128) := by
  show StableHlo.after hostOps3 (W6 m ρ c) (Proc.devRef .tc main_v177) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e4 (c : Dev nD) : (V7 m ρ c (Pipeline.arrRef spec3 4) : (⟨S1x128, .f32⟩ : BufTy).Contents (Elt Ideal)) = (shapeCast S1x128 (shapeCast S128 (extractStridedSlice S1x128 ![2, 0] (m ((c : Thread nD τ).loc main_arg13)) slices_S4x128_S1x128_2_0) shapeCasts_S1x128_S128) shapeCasts_S128_S1x128) := by
  show StableHlo.after hostOps3 (W6 m ρ c) (Proc.devRef .tc main_v178) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e5 (c : Dev nD) : (V7 m ρ c (Pipeline.arrRef spec3 5) : (⟨S1x128, .f32⟩ : BufTy).Contents (Elt Ideal)) = (shapeCast S1x128 (shapeCast S128 (extractStridedSlice S1x128 ![2, 0] (m ((c : Thread nD τ).loc main_arg14)) slices_S4x128_S1x128_2_0) shapeCasts_S1x128_S128) shapeCasts_S128_S1x128) := by
  show StableHlo.after hostOps3 (W6 m ρ c) (Proc.devRef .tc main_v179) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e6 (c : Dev nD) : (V7 m ρ c (Pipeline.arrRef spec3 6) : (⟨S1x128, .f32⟩ : BufTy).Contents (Elt Ideal)) = (shapeCast S1x128 (shapeCast S128 (extractStridedSlice S1x128 ![2, 0] (m ((c : Thread nD τ).loc main_arg15)) slices_S4x128_S1x128_2_0) shapeCasts_S1x128_S128) shapeCasts_S128_S1x128) := by
  show StableHlo.after hostOps3 (W6 m ρ c) (Proc.devRef .tc main_v180) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e7 (c : Dev nD) : (V7 m ρ c (Pipeline.arrRef spec3 7) : (⟨S1x128, .f32⟩ : BufTy).Contents (Elt Ideal)) = (shapeCast S1x128 (shapeCast S128 (extractStridedSlice S1x128 ![2, 0] (m ((c : Thread nD τ).loc main_arg16)) slices_S4x128_S1x128_2_0) shapeCasts_S1x128_S128) shapeCasts_S128_S1x128) := by
  show StableHlo.after hostOps3 (W6 m ρ c) (Proc.devRef .tc main_v181) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e8 (c : Dev nD) : (V7 m ρ c (Pipeline.arrRef spec3 8) : (⟨S128x64, .f32⟩ : BufTy).Contents (Elt Ideal)) = (shapeCast S128x64 (extractStridedSlice S1x128x64 ![2, 0, 0] (m ((c : Thread nD τ).loc main_arg17)) slices_S4x128x64_S1x128x64_2_0_0) shapeCasts_S1x128x64_S128x64) := by
  show StableHlo.after hostOps3 (W6 m ρ c) (Proc.devRef .tc main_v151) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e9 (c : Dev nD) : (V7 m ρ c (Pipeline.arrRef spec3 9) : (⟨S1x64, .f32⟩ : BufTy).Contents (Elt Ideal)) = (shapeCast S1x64 (shapeCast S64 (extractStridedSlice S1x64 ![2, 0] (m ((c : Thread nD τ).loc main_arg18)) slices_S4x64_S1x64_2_0) shapeCasts_S1x64_S64) shapeCasts_S64_S1x64) := by
  show StableHlo.after hostOps3 (W6 m ρ c) (Proc.devRef .tc main_v182) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e10 (c : Dev nD) : (V7 m ρ c (Pipeline.arrRef spec3 10) : (⟨S1x64, .f32⟩ : BufTy).Contents (Elt Ideal)) = (shapeCast S1x64 (shapeCast S64 (extractStridedSlice S1x64 ![3, 0] (m ((c : Thread nD τ).loc main_arg19)) slices_S5x64_S1x64_3_0) shapeCasts_S1x64_S64) shapeCasts_S64_S1x64) := by
  show StableHlo.after hostOps3 (W6 m ρ c) (Proc.devRef .tc main_v183) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e11 (c : Dev nD) : (V7 m ρ c (Pipeline.arrRef spec3 11) : (⟨S1x64, .f32⟩ : BufTy).Contents (Elt Ideal)) = (shapeCast S1x64 (shapeCast S64 (extractStridedSlice S1x64 ![3, 0] (m ((c : Thread nD τ).loc main_arg20)) slices_S5x64_S1x64_3_0) shapeCasts_S1x64_S64) shapeCasts_S64_S1x64) := by
  show StableHlo.after hostOps3 (W6 m ρ c) (Proc.devRef .tc main_v184) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e12 (c : Dev nD) : (V7 m ρ c (Pipeline.arrRef spec3 12) : (⟨S1x64, .f32⟩ : BufTy).Contents (Elt Ideal)) = (shapeCast S1x64 (shapeCast S64 (extractStridedSlice S1x64 ![3, 0] (m ((c : Thread nD τ).loc main_arg21)) slices_S5x64_S1x64_3_0) shapeCasts_S1x64_S64) shapeCasts_S64_S1x64) := by
  show StableHlo.after hostOps3 (W6 m ρ c) (Proc.devRef .tc main_v185) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e13 (c : Dev nD) : (V7 m ρ c (Pipeline.arrRef spec3 13) : (⟨S1x64, .f32⟩ : BufTy).Contents (Elt Ideal)) = (shapeCast S1x64 (shapeCast S64 (extractStridedSlice S1x64 ![3, 0] (m ((c : Thread nD τ).loc main_arg22)) slices_S5x64_S1x64_3_0) shapeCasts_S1x64_S64) shapeCasts_S64_S1x64) := by
  show StableHlo.after hostOps3 (W6 m ρ c) (Proc.devRef .tc main_v186) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl

set_option maxHeartbeats 2000000 in
/-- The region's output array when it is left: the layer of what the region found, in the arguments' terms
    (for a later layer, of the previous region's output array). -/
theorem out (c : Dev nD) : W8 m ρ c (Proc.devRef .tc main_v187) =
    layer (W6 m ρ c (Proc.devRef .tc main_v137)) (aggB (src (m ((c : Thread nD τ).loc main_arg1))) (dst (m ((c : Thread nD τ).loc main_arg1))) (W6 m ρ c (Proc.devRef .tc main_v137)))
      (shapeCast S64x128 (extractStridedSlice S1x64x128 ![2, 0, 0] (m ((c : Thread nD τ).loc main_arg11)) slices_S4x64x128_S1x64x128_2_0_0) shapeCasts_S1x64x128_S64x128)
      (shapeCast S1x128 (shapeCast S128 (extractStridedSlice S1x128 ![2, 0] (m ((c : Thread nD τ).loc main_arg12)) slices_S4x128_S1x128_2_0) shapeCasts_S1x128_S128) shapeCasts_S128_S1x128)
      (shapeCast S1x128 (shapeCast S128 (extractStridedSlice S1x128 ![2, 0] (m ((c : Thread nD τ).loc main_arg13)) slices_S4x128_S1x128_2_0) shapeCasts_S1x128_S128) shapeCasts_S128_S1x128)
      (shapeCast S1x128 (shapeCast S128 (extractStridedSlice S1x128 ![2, 0] (m ((c : Thread nD τ).loc main_arg14)) slices_S4x128_S1x128_2_0) shapeCasts_S1x128_S128) shapeCasts_S128_S1x128)
      (shapeCast S1x128 (shapeCast S128 (extractStridedSlice S1x128 ![2, 0] (m ((c : Thread nD τ).loc main_arg15)) slices_S4x128_S1x128_2_0) shapeCasts_S1x128_S128) shapeCasts_S128_S1x128)
      (shapeCast S1x128 (shapeCast S128 (extractStridedSlice S1x128 ![2, 0] (m ((c : Thread nD τ).loc main_arg16)) slices_S4x128_S1x128_2_0) shapeCasts_S1x128_S128) shapeCasts_S128_S1x128)
      (shapeCast S128x64 (extractStridedSlice S1x128x64 ![2, 0, 0] (m ((c : Thread nD τ).loc main_arg17)) slices_S4x128x64_S1x128x64_2_0_0) shapeCasts_S1x128x64_S128x64)
      (shapeCast S1x64 (shapeCast S64 (extractStridedSlice S1x64 ![2, 0] (m ((c : Thread nD τ).loc main_arg18)) slices_S4x64_S1x64_2_0) shapeCasts_S1x64_S64) shapeCasts_S64_S1x64)
      (shapeCast S1x64 (shapeCast S64 (extractStridedSlice S1x64 ![3, 0] (m ((c : Thread nD τ).loc main_arg19)) slices_S5x64_S1x64_3_0) shapeCasts_S1x64_S64) shapeCasts_S64_S1x64)
      (shapeCast S1x64 (shapeCast S64 (extractStridedSlice S1x64 ![3, 0] (m ((c : Thread nD τ).loc main_arg20)) slices_S5x64_S1x64_3_0) shapeCasts_S1x64_S64) shapeCasts_S64_S1x64)
      (shapeCast S1x64 (shapeCast S64 (extractStridedSlice S1x64 ![3, 0] (m ((c : Thread nD τ).loc main_arg21)) slices_S5x64_S1x64_3_0) shapeCasts_S1x64_S64) shapeCasts_S64_S1x64)
      (shapeCast S1x64 (shapeCast S64 (extractStridedSlice S1x64 ![3, 0] (m ((c : Thread nD τ).loc main_arg22)) slices_S5x64_S1x64_3_0) shapeCasts_S1x64_S64) shapeCasts_S64_S1x64) := by
  refine (W8_arr m ρ c 14).trans ?_
  refine (Cert.KernelIdeal.Final3.final (V7 m ρ) c).trans ?_
  unfold Cert.KernelIdeal.Final3.G
  exact layer_congr (e0 m ρ c) (e1 m ρ c) (e2 m ρ c) (e3 m ρ c) (e4 m ρ c) (e5 m ρ c) (e6 m ρ c) (e7 m ρ c) (e8 m ρ c) (e9 m ρ c)
    (e10 m ρ c) (e11 m ρ c) (e12 m ρ c) (e13 m ρ c)

end Cert.KernelIdeal.KV.Stage3

end
-- ==== Proof.Final4.lean ====
/-
  Region 4 of the idealized kernel: what its output array holds when the region is left.

  The region runs one layer over ten blocks of 5000 nodes.  At grid point t the body reads rows
  5000·t … 5000·t + 4999 of the node features and of the aggregate, and the twelve parameter arrays whole;
  it writes rows 5000·t … 5000·t + 4999 of the output.  An entry of a layer reads only its own row of the
  features and of the aggregate, so block t of the layer of the whole arrays is the layer of the blocks;
  the ten blocks fill the 50000 rows, so the output array is the layer of the arrays the region found.
-/
import proofs.«120131_j65111704207433_2_alg».proof.Proof.Gen.KernelIdeal.Frame
import proofs.«120131_j65111704207433_2_alg».proof.Proof.KernelPay
import Idealize.ShloMosaic.Lib.Pipeline.Value
import Idealize.ShloMosaic.Lib.ValueIdx

set_option maxRecDepth 16384

noncomputable section

namespace Cert.KernelIdeal.Final4

open Cert.KernelIdeal Cert.KernelIdeal.Gen Cert.GinLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds at its fourteen input windows. -/
def G (c : Dev nD) : S50000x64.Idx → EReal :=
  layer (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13))

/-- The printed index maps over the grid: the two row windows and the output sit at block (t, 0), every
    parameter window at block (0, 0). -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_14.index t (0 : Fin 2) = t.val
    ∧ win4_14.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0
    ∧ win4_10.index t (0 : Fin 2) = 0
    ∧ win4_10.index t (1 : Fin 2) = 0
    ∧ win4_11.index t (0 : Fin 2) = 0
    ∧ win4_11.index t (1 : Fin 2) = 0
    ∧ win4_12.index t (0 : Fin 2) = 0
    ∧ win4_12.index t (1 : Fin 2) = 0
    ∧ win4_13.index t (0 : Fin 2) = 0
    ∧ win4_13.index t (1 : Fin 2) = 0 :=
  (by decide +kernel : ∀ t : Fin grid4.N, _)

/-- Window 2 is resident: its one block is its whole array. -/
theorem whole_2 (c : Dev nD) (t : Fin cfg4.N) : (iblk4 V c 2 t : S64x128.Idx → EReal) = V c (Pipeline.arrRef spec4 2) := by
  have hf := idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 64 + 1 * (y 0).val = (y 0).val; have h := hf.2.2.2.2.2.2.1; omega
  | ⟨1, _⟩ => show win4_2.index t (1 : Fin 2) * 128 + 1 * (y 1).val = (y 1).val; have h := hf.2.2.2.2.2.2.2.1; omega

/-- Window 3 is resident: its one block is its whole array. -/
theorem whole_3 (c : Dev nD) (t : Fin cfg4.N) : (iblk4 V c 3 t : S1x128.Idx → EReal) = V c (Pipeline.arrRef spec4 3) := by
  have hf := idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; have h := hf.2.2.2.2.2.2.2.2.1; omega
  | ⟨1, _⟩ => show win4_3.index t (1 : Fin 2) * 128 + 1 * (y 1).val = (y 1).val; have h := hf.2.2.2.2.2.2.2.2.2.1; omega

/-- Window 4 is resident: its one block is its whole array. -/
theorem whole_4 (c : Dev nD) (t : Fin cfg4.N) : (iblk4 V c 4 t : S1x128.Idx → EReal) = V c (Pipeline.arrRef spec4 4) := by
  have hf := idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; have h := hf.2.2.2.2.2.2.2.2.2.2.1; omega
  | ⟨1, _⟩ => show win4_4.index t (1 : Fin 2) * 128 + 1 * (y 1).val = (y 1).val; have h := hf.2.2.2.2.2.2.2.2.2.2.2.1; omega

/-- Window 5 is resident: its one block is its whole array. -/
theorem whole_5 (c : Dev nD) (t : Fin cfg4.N) : (iblk4 V c 5 t : S1x128.Idx → EReal) = V c (Pipeline.arrRef spec4 5) := by
  have hf := idx_facts t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 1 + 1 * (y 0).val = (y 0).val; have h := hf.2.2.2.2.2.2.2.2.2.2.2.2.1; omega
  | ⟨1, _⟩ => show win4_5.index t (1 : Fin 2) * 128 + 1 * (y 1).val = (y 1).val; have h := hf.2.2.2.2.2.2.2.2.2.2.2.2.2.1; omega

/-- Window 6 is resident: its one block is its whole array. -/
theorem whole_6 (c : Dev nD) (t : Fin cfg4.N) : (iblk4 V c 6 t : S1x128.Idx → EReal) = V c (Pipeline.arrRef spec4 6) := by
  have hf := idx_facts t
  funext y
  show V c (Pipeline.arrRef spec4 6) (((cfg4.win 6).blk t).view.emb y) = V c (Pipeline.arrRef spec4 6) y
  refine congrArg _ (funext fun a => Fin.ext ?_)
  match a with
  | ⟨0, _⟩ => show win4_6.index t (0 : Fin 2) * 1 + 1 * (y 0).val = (y 0).val; have h := hf.2.2.2.2.2.2.2.2.2.2.2.2.2.2.1; omega
  | ⟨1, _⟩ => show win4_6.index t (1 : Fin 2) * 128 + 1 * (y 1).val = (y 1).val; have h := hf.2.2.2.2.2.2.2.2.2.2.2.2.2.2.2.1; omega

/-- Window 7 is resident: its one block is its whole array. -/
theorem whole_7 (c : Dev nD) (t : Fin cfg4.N) : (iblk4 V c 7 t : S1x128.Idx → EReal) = V c (Pipeline.arrRef spec4 7) := by
  have hf := idx_facts t
  funext y
  show V c (Pipeline.arrRef spec4 7) (((cfg4.win 7).blk t).view.emb y) = V c (Pipeline.arrRef spec4 7) y
  refine congrArg _ (funext fun a => Fin.ext ?_)
  match a with
  | ⟨0, _⟩ => show win4_7.index t (0 : Fin 2) * 1 + 1 * (y 0).val = (y 0).val; have h := hf.2.2.2.2.2.2.2.2.2.2.2.2.2.2.2.2.1; omega
  | ⟨1, _⟩ => show win4_7.index t (1 : Fin 2) * 128 + 1 * (y 1).val = (y 1).val; have h := hf.2.2.2.2.2.2.2.2.2.2.2.2.2.2.2.2.2.1; omega

/-- Window 8 is resident: its one block is its whole array. -/
theorem whole_8 (c : Dev nD) (t : Fin cfg4.N) : (iblk4 V c 8 t : S128x64.Idx → EReal) = V c (Pipeline.arrRef spec4 8) := by
  have hf := idx_facts t
  funext y
  show V c (Pipeline.arrRef spec4 8) (((cfg4.win 8).blk t).view.emb y) = V c (Pipeline.arrRef spec4 8) y
  refine congrArg _ (funext fun a => Fin.ext ?_)
  match a with
  | ⟨0, _⟩ => show win4_8.index t (0 : Fin 2) * 128 + 1 * (y 0).val = (y 0).val; have h := hf.2.2.2.2.2.2.2.2.2.2.2.2.2.2.2.2.2.2.1; omega
  | ⟨1, _⟩ => show win4_8.index t (1 : Fin 2) * 64 + 1 * (y 1).val = (y 1).val; have h := hf.2.2.2.2.2.2.2.2.2.2.2.2.2.2.2.2.2.2.2.1; omega

/-- Window 9 is resident: its one block is its whole array. -/
theorem whole_9 (c : Dev nD) (t : Fin cfg4.N) : (iblk4 V c 9 t : S1x64.Idx → EReal) = V c (Pipeline.arrRef spec4 9) := by
  have hf := idx_facts t
  funext y
  show V c (Pipeline.arrRef spec4 9) (((cfg4.win 9).blk t).view.emb y) = V c (Pipeline.arrRef spec4 9) y
  refine congrArg _ (funext fun a => Fin.ext ?_)
  match a with
  | ⟨0, _⟩ => show win4_9.index t (0 : Fin 2) * 1 + 1 * (y 0).val = (y 0).val; have h := hf.2.2.2.2.2.2.2.2.2.2.2.2.2.2.2.2.2.2.2.2.1; omega
  | ⟨1, _⟩ => show win4_9.index t (1 : Fin 2) * 64 + 1 * (y 1).val = (y 1).val; have h := hf.2.2.2.2.2.2.2.2.2.2.2.2.2.2.2.2.2.2.2.2.2.1; omega

/-- Window 10 is resident: its one block is its whole array. -/
theorem whole_10 (c : Dev nD) (t : Fin cfg4.N) : (iblk4 V c 10 t : S1x64.Idx → EReal) = V c (Pipeline.arrRef spec4 10) := by
  have hf := idx_facts t
  funext y
  show V c (Pipeline.arrRef spec4 10) (((cfg4.win 10).blk t).view.emb y) = V c (Pipeline.arrRef spec4 10) y
  refine congrArg _ (funext fun a => Fin.ext ?_)
  match a with
  | ⟨0, _⟩ => show win4_10.index t (0 : Fin 2) * 1 + 1 * (y 0).val = (y 0).val; have h := hf.2.2.2.2.2.2.2.2.2.2.2.2.2.2.2.2.2.2.2.2.2.2.1; omega
  | ⟨1, _⟩ => show win4_10.index t (1 : Fin 2) * 64 + 1 * (y 1).val = (y 1).val; have h := hf.2.2.2.2.2.2.2.2.2.2.2.2.2.2.2.2.2.2.2.2.2.2.2.1; omega

/-- Window 11 is resident: its one block is its whole array. -/
theorem whole_11 (c : Dev nD) (t : Fin cfg4.N) : (iblk4 V c 11 t : S1x64.Idx → EReal) = V c (Pipeline.arrRef spec4 11) := by
  have hf := idx_facts t
  funext y
  show V c (Pipeline.arrRef spec4 11) (((cfg4.win 11).blk t).view.emb y) = V c (Pipeline.arrRef spec4 11) y
  refine congrArg _ (funext fun a => Fin.ext ?_)
  match a with
  | ⟨0, _⟩ => show win4_11.index t (0 : Fin 2) * 1 + 1 * (y 0).val = (y 0).val; have h := hf.2.2.2.2.2.2.2.2.2.2.2.2.2.2.2.2.2.2.2.2.2.2.2.2.1; omega
  | ⟨1, _⟩ => show win4_11.index t (1 : Fin 2) * 64 + 1 * (y 1).val = (y 1).val; have h := hf.2.2.2.2.2.2.2.2.2.2.2.2.2.2.2.2.2.2.2.2.2.2.2.2.2.1; omega

/-- Window 12 is resident: its one block is its whole array. -/
theorem whole_12 (c : Dev nD) (t : Fin cfg4.N) : (iblk4 V c 12 t : S1x64.Idx → EReal) = V c (Pipeline.arrRef spec4 12) := by
  have hf := idx_facts t
  funext y
  show V c (Pipeline.arrRef spec4 12) (((cfg4.win 12).blk t).view.emb y) = V c (Pipeline.arrRef spec4 12) y
  refine congrArg _ (funext fun a => Fin.ext ?_)
  match a with
  | ⟨0, _⟩ => show win4_12.index t (0 : Fin 2) * 1 + 1 * (y 0).val = (y 0).val; have h := hf.2.2.2.2.2.2.2.2.2.2.2.2.2.2.2.2.2.2.2.2.2.2.2.2.2.2.1; omega
  | ⟨1, _⟩ => show win4_12.index t (1 : Fin 2) * 64 + 1 * (y 1).val = (y 1).val; have h := hf.2.2.2.2.2.2.2.2.2.2.2.2.2.2.2.2.2.2.2.2.2.2.2.2.2.2.2.1; omega

/-- Window 13 is resident: its one block is its whole array. -/
theorem whole_13 (c : Dev nD) (t : Fin cfg4.N) : (iblk4 V c 13 t : S1x64.Idx → EReal) = V c (Pipeline.arrRef spec4 13) := by
  have hf := idx_facts t
  funext y
  show V c (Pipeline.arrRef spec4 13) (((cfg4.win 13).blk t).view.emb y) = V c (Pipeline.arrRef spec4 13) y
  refine congrArg _ (funext fun a => Fin.ext ?_)
  match a with
  | ⟨0, _⟩ => show win4_13.index t (0 : Fin 2) * 1 + 1 * (y 0).val = (y 0).val; have h := hf.2.2.2.2.2.2.2.2.2.2.2.2.2.2.2.2.2.2.2.2.2.2.2.2.2.2.2.2.1; omega
  | ⟨1, _⟩ => show win4_13.index t (1 : Fin 2) * 64 + 1 * (y 1).val = (y 1).val; have h := hf.2.2.2.2.2.2.2.2.2.2.2.2.2.2.2.2.2.2.2.2.2.2.2.2.2.2.2.2.2; omega

/-- Row p of a row window's block at point t is row 5000·t + p of its array. -/
theorem rows_0 (c : Dev nD) (t : Fin cfg4.N) (y : S5000x64.Idx) (i : S50000x64.Idx)
    (h0 : (i 0).val = 5000 * t.val + (y 0).val) (h1 : (i 1).val = (y 1).val) :
    (iblk4 V c 0 t : S5000x64.Idx → EReal) y = V c (Pipeline.arrRef spec4 0) i := by
  have hf := idx_facts t
  show V c (Pipeline.arrRef spec4 0) (((cfg4.win 0).blk t).view.emb y) = V c (Pipeline.arrRef spec4 0) i
  refine congrArg _ (funext fun a => Fin.ext ?_)
  match a with
  | ⟨0, _⟩ => show win4_0.index t (0 : Fin 2) * 5000 + 1 * (y 0).val = (i 0).val; have h := hf.1; omega
  | ⟨1, _⟩ => show win4_0.index t (1 : Fin 2) * 64 + 1 * (y 1).val = (i 1).val; have h := hf.2.1; omega

theorem rows_1 (c : Dev nD) (t : Fin cfg4.N) (y : S5000x64.Idx) (i : S50000x64.Idx)
    (h0 : (i 0).val = 5000 * t.val + (y 0).val) (h1 : (i 1).val = (y 1).val) :
    (iblk4 V c 1 t : S5000x64.Idx → EReal) y = V c (Pipeline.arrRef spec4 1) i := by
  have hf := idx_facts t
  show V c (Pipeline.arrRef spec4 1) (((cfg4.win 1).blk t).view.emb y) = V c (Pipeline.arrRef spec4 1) i
  refine congrArg _ (funext fun a => Fin.ext ?_)
  match a with
  | ⟨0, _⟩ => show win4_1.index t (0 : Fin 2) * 5000 + 1 * (y 0).val = (i 0).val; have h := hf.2.2.1; omega
  | ⟨1, _⟩ => show win4_1.index t (1 : Fin 2) * 64 + 1 * (y 1).val = (i 1).val; have h := hf.2.2.2.1; omega

/-- The layer of two blocks of rows 5000·tv … of X and A, at (p, q), is the layer of X and A at (5000·tv + p, q);
    the twelve parameter blocks may be given as any arrays equal to the parameters. -/
theorem point_eq (X A : S50000x64.Idx → EReal) (x a : S5000x64.Idx → EReal) (tv : ℕ)
    (hx : ∀ (y : S5000x64.Idx) (i : S50000x64.Idx), (i 0).val = 5000 * tv + (y 0).val → (i 1).val = (y 1).val → x y = X i)
    (ha : ∀ (y : S5000x64.Idx) (i : S50000x64.Idx), (i 0).val = 5000 * tv + (y 0).val → (i 1).val = (y 1).val → a y = A i)
    (w1 w1' : S64x128.Idx → EReal) (b1 ig ib im iv b1' ig' ib' im' iv' : S1x128.Idx → EReal) (w2 w2' : S128x64.Idx → EReal)
    (b2 og ob om ov b2' og' ob' om' ov' : S1x64.Idx → EReal)
    (e2 : w1' = w1) (e3 : b1' = b1) (e4 : ig' = ig) (e5 : ib' = ib) (e6 : im' = im) (e7 : iv' = iv) (e8 : w2' = w2)
    (e9 : b2' = b2) (e10 : og' = og) (e11 : ob' = ob) (e12 : om' = om) (e13 : ov' = ov)
    (j : S5000x64.Idx) (i : S50000x64.Idx) (h0 : (i 0).val = 5000 * tv + (j 0).val) (h1 : (i 1).val = (j 1).val) :
    layer x a w1' b1' ig' ib' im' iv' w2' b2' og' ob' om' ov' j = layer X A w1 b1 ig ib im iv w2 b2 og ob om ov i := by
  subst e2 e3 e4 e5 e6 e7 e8 e9 e10 e11 e12 e13
  obtain ⟨p, q, rfl⟩ : ∃ (p : Fin 5000) (q : Fin 64), j = ix2 p q := ⟨j 0, j 1, eq_ix2 j⟩
  have hi : (i 0).val < 50000 := (i 0).isLt
  have e : (i 0).val = 5000 * tv + p.val := h0
  have hr : 5000 * tv + p.val < 50000 := by omega
  obtain rfl : i = ix2 (⟨5000 * tv + p.val, hr⟩ : Fin 50000) q := by
    rw [eq_ix2 i]
    congr 1
    · exact Fin.ext h0
    · exact Fin.ext h1
  show layerAt (fun k => x (ix2 p k)) (fun k => a (ix2 p k)) w1' b1' ig' ib' im' iv' w2' b2' og' ob' om' ov' q
    = layerAt (fun k => X (ix2 (⟨5000 * tv + p.val, hr⟩ : Fin 50000) k)) (fun k => A (ix2 (⟨5000 * tv + p.val, hr⟩ : Fin 50000) k)) w1' b1' ig' ib' im' iv' w2' b2' og' ob' om' ov' q
  rw [funext fun k => hx (ix2 p k) (ix2 (⟨5000 * tv + p.val, hr⟩ : Fin 50000) k) rfl rfl,
    funext fun k => ha (ix2 p k) (ix2 (⟨5000 * tv + p.val, hr⟩ : Fin 50000) k) rfl rfl]

/-- The buffer the body leaves, as a function of the fourteen blocks it read: their layer. -/
theorem out_eq (x0 x1 : Vec Ideal S5000x64 .f32) (x2 : Vec Ideal S64x128 .f32) (x3 x4 x5 x6 x7 : Vec Ideal S1x128 .f32)
    (x8 : Vec Ideal S128x64 .f32) (x9 x10 x11 x12 x13 : Vec Ideal S1x64 .f32) :
    out4_14 x0 x1 x2 x3 x4 x5 x6 x7 x8 x9 x10 x11 x12 x13 = layer x0 x1 x2 x3 x4 x5 x6 x7 x8 x9 x10 x11 x12 x13 := by
  unfold out4_14
  rw [View.canon_unit_zero hz]
  simp only [View.ld_unit_zero (S := S5000x64) hz, View.ld_unit_zero (S := S64x128) hz, View.ld_unit_zero (S := S1x128) hz,
    View.ld_unit_zero (S := S128x64) hz, View.ld_unit_zero (S := S1x64) hz]
  exact Cert.KernelIdeal.Pay.pay4_eq x0 x1 x2 x3 x4 x5 x6 x7 x8 x9 x10 x11 x12 x13

/-- What point t writes back is block t of the layer of the arrays. -/
theorem flushed_eq (c : Dev nD) (t : Fin cfg4.N) :
    (dat4 V c).flushed 14 t = ((cfg4.win 14).blk t).view.read (Elt Ideal) (G V c) := by
  show (cfg4.win 14).cut (grid4.coords t) ((dat4 V c).after 14 t) = _
  rw [after4_14, out_eq]
  have hf := idx_facts t
  funext j
  refine point_eq (V c (Pipeline.arrRef spec4 0)) (V c (Pipeline.arrRef spec4 1)) (iblk4 V c 0 t) (iblk4 V c 1 t) t.val
    (fun y i h0 h1 => rows_0 V c t y i h0 h1) (fun y i h0 h1 => rows_1 V c t y i h0 h1)
    _ _ _ _ _ _ _ _ _ _ _ _ _ _ _ _ _ _ _ _ _ _ _ _
    (whole_2 V c t) (whole_3 V c t) (whole_4 V c t) (whole_5 V c t) (whole_6 V c t) (whole_7 V c t) (whole_8 V c t)
    (whole_9 V c t) (whole_10 V c t) (whole_11 V c t) (whole_12 V c t) (whole_13 V c t) j _ ?_ ?_
  · show win4_14.index t (0 : Fin 2) * 5000 + 1 * (j 0).val = 5000 * t.val + (j 0).val
    have h := hf.2.2.2.2.1; omega
  · show win4_14.index t (1 : Fin 2) * 64 + 1 * (j 1).val = (j 1).val
    have h := hf.2.2.2.2.2.1; omega

/-- An index of the output array is in point t's block iff each coordinate is in the block's range. -/
theorem mem_blk (t : Fin cfg4.N) (i : S50000x64.Idx) :
    i ∈ ((cfg4.win 14).blk t).view.set ↔ ∀ a : Fin 2, win4_14.index t a * S5000x64.size a ≤ (i a).val ∧ (i a).val < win4_14.index t a * S5000x64.size a + S5000x64.size a := by
  show i ∈ ((View.whole main_v237).slice (win4_14.rect t)).set ↔ _
  rw [View.set_slice_whole, Rect.mem_set_unit]
  exact Iff.rfl

/-- Every row lies in the block of the point numbered by its quotient by 5000. -/
theorem cover (i : S50000x64.Idx) : ∃ t : Fin cfg4.N, (cfg4.win 14).flush t = true ∧ i ∈ ((cfg4.win 14).blk t).view.set := by
  have hi0 : (i 0).val < 50000 := (i 0).isLt
  have hi1 : (i 1).val < 64 := (i 1).isLt
  have hlt : (i 0).val / 5000 < cfg4.N := by show _ < grid4.N; rw [N_4]; omega
  refine ⟨⟨(i 0).val / 5000, hlt⟩, flush4_14 _, ?_⟩
  rw [mem_blk]
  have hf := idx_facts ⟨(i 0).val / 5000, hlt⟩
  intro a
  match a with
  | ⟨0, _⟩ =>
    show win4_14.index _ (0 : Fin 2) * 5000 ≤ (i 0).val ∧ (i 0).val < win4_14.index _ (0 : Fin 2) * 5000 + 5000
    have h' : win4_14.index ⟨(i 0).val / 5000, hlt⟩ (0 : Fin 2) = (i 0).val / 5000 := hf.2.2.2.2.1
    omega
  | ⟨1, _⟩ =>
    show win4_14.index _ (1 : Fin 2) * 64 ≤ (i 1).val ∧ (i 1).val < win4_14.index _ (1 : Fin 2) * 64 + 64
    have h' : win4_14.index ⟨(i 0).val / 5000, hlt⟩ (1 : Fin 2) = 0 := hf.2.2.2.2.2.1
    omega

/-- The output array when the region is left: the layer of the arrays it found. -/
theorem final (c : Dev nD) : (dat4 V c).arrAt 14 cfg4.N = G V c :=
  (dat4 V c).arrAt_eq_of_cover 14 (G V c) (fun t _ => flushed_eq V c t) (cover)

end Cert.KernelIdeal.Final4

end
-- ==== Proof.Stage4.lean ====
/-
  Region 4 of the idealized kernel, in the arguments' terms.

  Each of the fourteen arrays the region stages is what the host operations before it computed: the node
  features are the previous region's output, the aggregate is the scatter-add of the gathered rows along the edge
  list, each parameter is sliced from a stacked argument and, for a vector, laid out as a row.  The stacked
  arguments and the edge list's two rows are as the first region found them: no later host operation or
  region writes them.  With the region's value this gives its output array as the layer of those terms.
-/
import proofs.«120131_j65111704207433_2_alg».proof.Proof.NetDefs
import proofs.«120131_j65111704207433_2_alg».proof.Proof.Final4

set_option maxRecDepth 16384

noncomputable section

namespace Cert.KernelIdeal.KV.Stage4

open Cert.KernelIdeal Cert.KernelIdeal.Gen Cert.GinLayer Cert.KernelIdeal.KV
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

theorem k_src (c : Dev nD) : W8 m ρ c (Proc.devRef .tc main_v1) = src (m ((c : Thread nD τ).loc main_arg1)) :=
  (keep8 m ρ c main_v1 (by decide) (by decide) (by decide) (by decide) (by decide)).trans (W1_src m ρ c)
theorem k_dst (c : Dev nD) : W8 m ρ c (Proc.devRef .tc main_v3) = dst (m ((c : Thread nD τ).loc main_arg1)) :=
  (keep8 m ρ c main_v3 (by decide) (by decide) (by decide) (by decide) (by decide)).trans (W1_dst m ρ c)
theorem k_arg11 (c : Dev nD) : W8 m ρ c (Proc.devRef .tc main_arg11) = (m ((c : Thread nD τ).loc main_arg11)) :=
  (keep8 m ρ c main_arg11 (by decide) (by decide) (by decide) (by decide) (by decide)).trans (W1_low m ρ c main_arg11 (by decide))
theorem k_arg12 (c : Dev nD) : W8 m ρ c (Proc.devRef .tc main_arg12) = (m ((c : Thread nD τ).loc main_arg12)) :=
  (keep8 m ρ c main_arg12 (by decide) (by decide) (by decide) (by decide) (by decide)).trans (W1_low m ρ c main_arg12 (by decide))
theorem k_arg13 (c : Dev nD) : W8 m ρ c (Proc.devRef .tc main_arg13) = (m ((c : Thread nD τ).loc main_arg13)) :=
  (keep8 m ρ c main_arg13 (by decide) (by decide) (by decide) (by decide) (by decide)).trans (W1_low m ρ c main_arg13 (by decide))
theorem k_arg14 (c : Dev nD) : W8 m ρ c (Proc.devRef .tc main_arg14) = (m ((c : Thread nD τ).loc main_arg14)) :=
  (keep8 m ρ c main_arg14 (by decide) (by decide) (by decide) (by decide) (by decide)).trans (W1_low m ρ c main_arg14 (by decide))
theorem k_arg15 (c : Dev nD) : W8 m ρ c (Proc.devRef .tc main_arg15) = (m ((c : Thread nD τ).loc main_arg15)) :=
  (keep8 m ρ c main_arg15 (by decide) (by decide) (by decide) (by decide) (by decide)).trans (W1_low m ρ c main_arg15 (by decide))
theorem k_arg16 (c : Dev nD) : W8 m ρ c (Proc.devRef .tc main_arg16) = (m ((c : Thread nD τ).loc main_arg16)) :=
  (keep8 m ρ c main_arg16 (by decide) (by decide) (by decide) (by decide) (by decide)).trans (W1_low m ρ c main_arg16 (by decide))
theorem k_arg17 (c : Dev nD) : W8 m ρ c (Proc.devRef .tc main_arg17) = (m ((c : Thread nD τ).loc main_arg17)) :=
  (keep8 m ρ c main_arg17 (by decide) (by decide) (by decide) (by decide) (by decide)).trans (W1_low m ρ c main_arg17 (by decide))
theorem k_arg18 (c : Dev nD) : W8 m ρ c (Proc.devRef .tc main_arg18) = (m ((c : Thread nD τ).loc main_arg18)) :=
  (keep8 m ρ c main_arg18 (by decide) (by decide) (by decide) (by decide) (by decide)).trans (W1_low m ρ c main_arg18 (by decide))
theorem k_arg19 (c : Dev nD) : W8 m ρ c (Proc.devRef .tc main_arg19) = (m ((c : Thread nD τ).loc main_arg19)) :=
  (keep8 m ρ c main_arg19 (by decide) (by decide) (by decide) (by decide) (by decide)).trans (W1_low m ρ c main_arg19 (by decide))
theorem k_arg20 (c : Dev nD) : W8 m ρ c (Proc.devRef .tc main_arg20) = (m ((c : Thread nD τ).loc main_arg20)) :=
  (keep8 m ρ c main_arg20 (by decide) (by decide) (by decide) (by decide) (by decide)).trans (W1_low m ρ c main_arg20 (by decide))
theorem k_arg21 (c : Dev nD) : W8 m ρ c (Proc.devRef .tc main_arg21) = (m ((c : Thread nD τ).loc main_arg21)) :=
  (keep8 m ρ c main_arg21 (by decide) (by decide) (by decide) (by decide) (by decide)).trans (W1_low m ρ c main_arg21 (by decide))
theorem k_arg22 (c : Dev nD) : W8 m ρ c (Proc.devRef .tc main_arg22) = (m ((c : Thread nD τ).loc main_arg22)) :=
  (keep8 m ρ c main_arg22 (by decide) (by decide) (by decide) (by decide) (by decide)).trans (W1_low m ρ c main_arg22 (by decide))

theorem e0 (c : Dev nD) : (V9 m ρ c (Pipeline.arrRef spec4 0) : (⟨S50000x64, .f32⟩ : BufTy).Contents (Elt Ideal)) = W8 m ρ c (Proc.devRef .tc main_v187) :=
  after_below 231 hostOps4 (W8 m ρ c) ho4 main_v187 (by decide)
theorem e1 (c : Dev nD) : (V9 m ρ c (Pipeline.arrRef spec4 1) : (⟨S50000x64, .f32⟩ : BufTy).Contents (Elt Ideal)) = aggB (src (m ((c : Thread nD τ).loc main_arg1))) (dst (m ((c : Thread nD τ).loc main_arg1))) (W8 m ρ c (Proc.devRef .tc main_v187)) := by
  show StableHlo.after hostOps4 (W8 m ρ c) (Proc.devRef .tc main_v226) = _
  after_results_simp
  simp only [k_src m ρ c, k_dst m ρ c]
  rfl
theorem e2 (c : Dev nD) : (V9 m ρ c (Pipeline.arrRef spec4 2) : (⟨S64x128, .f32⟩ : BufTy).Contents (Elt Ideal)) = (shapeCast S64x128 (extractStridedSlice S1x64x128 ![3, 0, 0] (m ((c : Thread nD τ).loc main_arg11)) slices_S4x64x128_S1x64x128_3_0_0) shapeCasts_S1x64x128_S64x128) := by
  show StableHlo.after hostOps4 (W8 m ρ c) (Proc.devRef .tc main_v189) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e3 (c : Dev nD) : (V9 m ρ c (Pipeline.arrRef spec4 3) : (⟨S1x128, .f32⟩ : BufTy).Contents (Elt Ideal)) = (shapeCast S1x128 (shapeCast S128 (extractStridedSlice S1x128 ![3, 0] (m ((c : Thread nD τ).loc main_arg12)) slices_S4x128_S1x128_3_0) shapeCasts_S1x128_S128) shapeCasts_S128_S1x128) := by
  show StableHlo.after hostOps4 (W8 m ρ c) (Proc.devRef .tc main_v227) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e4 (c : Dev nD) : (V9 m ρ c (Pipeline.arrRef spec4 4) : (⟨S1x128, .f32⟩ : BufTy).Contents (Elt Ideal)) = (shapeCast S1x128 (shapeCast S128 (extractStridedSlice S1x128 ![3, 0] (m ((c : Thread nD τ).loc main_arg13)) slices_S4x128_S1x128_3_0) shapeCasts_S1x128_S128) shapeCasts_S128_S1x128) := by
  show StableHlo.after hostOps4 (W8 m ρ c) (Proc.devRef .tc main_v228) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e5 (c : Dev nD) : (V9 m ρ c (Pipeline.arrRef spec4 5) : (⟨S1x128, .f32⟩ : BufTy).Contents (Elt Ideal)) = (shapeCast S1x128 (shapeCast S128 (extractStridedSlice S1x128 ![3, 0] (m ((c : Thread nD τ).loc main_arg14)) slices_S4x128_S1x128_3_0) shapeCasts_S1x128_S128) shapeCasts_S128_S1x128) := by
  show StableHlo.after hostOps4 (W8 m ρ c) (Proc.devRef .tc main_v229) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e6 (c : Dev nD) : (V9 m ρ c (Pipeline.arrRef spec4 6) : (⟨S1x128, .f32⟩ : BufTy).Contents (Elt Ideal)) = (shapeCast S1x128 (shapeCast S128 (extractStridedSlice S1x128 ![3, 0] (m ((c : Thread nD τ).loc main_arg15)) slices_S4x128_S1x128_3_0) shapeCasts_S1x128_S128) shapeCasts_S128_S1x128) := by
  show StableHlo.after hostOps4 (W8 m ρ c) (Proc.devRef .tc main_v230) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e7 (c : Dev nD) : (V9 m ρ c (Pipeline.arrRef spec4 7) : (⟨S1x128, .f32⟩ : BufTy).Contents (Elt Ideal)) = (shapeCast S1x128 (shapeCast S128 (extractStridedSlice S1x128 ![3, 0] (m ((c : Thread nD τ).loc main_arg16)) slices_S4x128_S1x128_3_0) shapeCasts_S1x128_S128) shapeCasts_S128_S1x128) := by
  show StableHlo.after hostOps4 (W8 m ρ c) (Proc.devRef .tc main_v231) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e8 (c : Dev nD) : (V9 m ρ c (Pipeline.arrRef spec4 8) : (⟨S128x64, .f32⟩ : BufTy).Contents (Elt Ideal)) = (shapeCast S128x64 (extractStridedSlice S1x128x64 ![3, 0, 0] (m ((c : Thread nD τ).loc main_arg17)) slices_S4x128x64_S1x128x64_3_0_0) shapeCasts_S1x128x64_S128x64) := by
  show StableHlo.after hostOps4 (W8 m ρ c) (Proc.devRef .tc main_v201) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e9 (c : Dev nD) : (V9 m ρ c (Pipeline.arrRef spec4 9) : (⟨S1x64, .f32⟩ : BufTy).Contents (Elt Ideal)) = (shapeCast S1x64 (shapeCast S64 (extractStridedSlice S1x64 ![3, 0] (m ((c : Thread nD τ).loc main_arg18)) slices_S4x64_S1x64_3_0) shapeCasts_S1x64_S64) shapeCasts_S64_S1x64) := by
  show StableHlo.after hostOps4 (W8 m ρ c) (Proc.devRef .tc main_v232) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e10 (c : Dev nD) : (V9 m ρ c (Pipeline.arrRef spec4 10) : (⟨S1x64, .f32⟩ : BufTy).Contents (Elt Ideal)) = (shapeCast S1x64 (shapeCast S64 (extractStridedSlice S1x64 ![4, 0] (m ((c : Thread nD τ).loc main_arg19)) slices_S5x64_S1x64_4_0) shapeCasts_S1x64_S64) shapeCasts_S64_S1x64) := by
  show StableHlo.after hostOps4 (W8 m ρ c) (Proc.devRef .tc main_v233) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e11 (c : Dev nD) : (V9 m ρ c (Pipeline.arrRef spec4 11) : (⟨S1x64, .f32⟩ : BufTy).Contents (Elt Ideal)) = (shapeCast S1x64 (shapeCast S64 (extractStridedSlice S1x64 ![4, 0] (m ((c : Thread nD τ).loc main_arg20)) slices_S5x64_S1x64_4_0) shapeCasts_S1x64_S64) shapeCasts_S64_S1x64) := by
  show StableHlo.after hostOps4 (W8 m ρ c) (Proc.devRef .tc main_v234) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e12 (c : Dev nD) : (V9 m ρ c (Pipeline.arrRef spec4 12) : (⟨S1x64, .f32⟩ : BufTy).Contents (Elt Ideal)) = (shapeCast S1x64 (shapeCast S64 (extractStridedSlice S1x64 ![4, 0] (m ((c : Thread nD τ).loc main_arg21)) slices_S5x64_S1x64_4_0) shapeCasts_S1x64_S64) shapeCasts_S64_S1x64) := by
  show StableHlo.after hostOps4 (W8 m ρ c) (Proc.devRef .tc main_v235) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl
theorem e13 (c : Dev nD) : (V9 m ρ c (Pipeline.arrRef spec4 13) : (⟨S1x64, .f32⟩ : BufTy).Contents (Elt Ideal)) = (shapeCast S1x64 (shapeCast S64 (extractStridedSlice S1x64 ![4, 0] (m ((c : Thread nD τ).loc main_arg22)) slices_S5x64_S1x64_4_0) shapeCasts_S1x64_S64) shapeCasts_S64_S1x64) := by
  show StableHlo.after hostOps4 (W8 m ρ c) (Proc.devRef .tc main_v236) = _
  after_results_simp
  simp only [k_src m ρ c, k_dst m ρ c, k_arg11 m ρ c, k_arg12 m ρ c, k_arg13 m ρ c, k_arg14 m ρ c, k_arg15 m ρ c, k_arg16 m ρ c, k_arg17 m ρ c, k_arg18 m ρ c, k_arg19 m ρ c, k_arg20 m ρ c, k_arg21 m ρ c, k_arg22 m ρ c]
  rfl

set_option maxHeartbeats 2000000 in
/-- The region's output array when it is left: the layer of what the region found, in the arguments' terms
    (for a later layer, of the previous region's output array). -/
theorem out (c : Dev nD) : W10 m ρ c (Proc.devRef .tc main_v237) =
    layer (W8 m ρ c (Proc.devRef .tc main_v187)) (aggB (src (m ((c : Thread nD τ).loc main_arg1))) (dst (m ((c : Thread nD τ).loc main_arg1))) (W8 m ρ c (Proc.devRef .tc main_v187)))
      (shapeCast S64x128 (extractStridedSlice S1x64x128 ![3, 0, 0] (m ((c : Thread nD τ).loc main_arg11)) slices_S4x64x128_S1x64x128_3_0_0) shapeCasts_S1x64x128_S64x128)
      (shapeCast S1x128 (shapeCast S128 (extractStridedSlice S1x128 ![3, 0] (m ((c : Thread nD τ).loc main_arg12)) slices_S4x128_S1x128_3_0) shapeCasts_S1x128_S128) shapeCasts_S128_S1x128)
      (shapeCast S1x128 (shapeCast S128 (extractStridedSlice S1x128 ![3, 0] (m ((c : Thread nD τ).loc main_arg13)) slices_S4x128_S1x128_3_0) shapeCasts_S1x128_S128) shapeCasts_S128_S1x128)
      (shapeCast S1x128 (shapeCast S128 (extractStridedSlice S1x128 ![3, 0] (m ((c : Thread nD τ).loc main_arg14)) slices_S4x128_S1x128_3_0) shapeCasts_S1x128_S128) shapeCasts_S128_S1x128)
      (shapeCast S1x128 (shapeCast S128 (extractStridedSlice S1x128 ![3, 0] (m ((c : Thread nD τ).loc main_arg15)) slices_S4x128_S1x128_3_0) shapeCasts_S1x128_S128) shapeCasts_S128_S1x128)
      (shapeCast S1x128 (shapeCast S128 (extractStridedSlice S1x128 ![3, 0] (m ((c : Thread nD τ).loc main_arg16)) slices_S4x128_S1x128_3_0) shapeCasts_S1x128_S128) shapeCasts_S128_S1x128)
      (shapeCast S128x64 (extractStridedSlice S1x128x64 ![3, 0, 0] (m ((c : Thread nD τ).loc main_arg17)) slices_S4x128x64_S1x128x64_3_0_0) shapeCasts_S1x128x64_S128x64)
      (shapeCast S1x64 (shapeCast S64 (extractStridedSlice S1x64 ![3, 0] (m ((c : Thread nD τ).loc main_arg18)) slices_S4x64_S1x64_3_0) shapeCasts_S1x64_S64) shapeCasts_S64_S1x64)
      (shapeCast S1x64 (shapeCast S64 (extractStridedSlice S1x64 ![4, 0] (m ((c : Thread nD τ).loc main_arg19)) slices_S5x64_S1x64_4_0) shapeCasts_S1x64_S64) shapeCasts_S64_S1x64)
      (shapeCast S1x64 (shapeCast S64 (extractStridedSlice S1x64 ![4, 0] (m ((c : Thread nD τ).loc main_arg20)) slices_S5x64_S1x64_4_0) shapeCasts_S1x64_S64) shapeCasts_S64_S1x64)
      (shapeCast S1x64 (shapeCast S64 (extractStridedSlice S1x64 ![4, 0] (m ((c : Thread nD τ).loc main_arg21)) slices_S5x64_S1x64_4_0) shapeCasts_S1x64_S64) shapeCasts_S64_S1x64)
      (shapeCast S1x64 (shapeCast S64 (extractStridedSlice S1x64 ![4, 0] (m ((c : Thread nD τ).loc main_arg22)) slices_S5x64_S1x64_4_0) shapeCasts_S1x64_S64) shapeCasts_S64_S1x64) := by
  refine (W10_arr m ρ c 14).trans ?_
  refine (Cert.KernelIdeal.Final4.final (V9 m ρ) c).trans ?_
  unfold Cert.KernelIdeal.Final4.G
  exact layer_congr (e0 m ρ c) (e1 m ρ c) (e2 m ρ c) (e3 m ρ c) (e4 m ρ c) (e5 m ρ c) (e6 m ρ c) (e7 m ρ c) (e8 m ρ c) (e9 m ρ c)
    (e10 m ρ c) (e11 m ρ c) (e12 m ρ c) (e13 m ρ c)

end Cert.KernelIdeal.KV.Stage4

end
-- ==== Proof.KernelNet.lean ====
/-
  The idealized kernel's result is `kerNet` of its argument arrays.

  Region by region: the first region's output array is the first layer of the arguments; each later
  region's output array is the next layer of the previous region's output; the last stretch of host
  operations pools the last region's output over the graphs.  Chained, the result buffer holds the
  network of the argument arrays, and the run behind the frame claim ends with that value in it.
-/
import proofs.«120131_j65111704207433_2_alg».proof.Proof.RunValue
import proofs.«120131_j65111704207433_2_alg».proof.Proof.Stage0
import proofs.«120131_j65111704207433_2_alg».proof.Proof.Stage1
import proofs.«120131_j65111704207433_2_alg».proof.Proof.Stage2
import proofs.«120131_j65111704207433_2_alg».proof.Proof.Stage3
import proofs.«120131_j65111704207433_2_alg».proof.Proof.Stage4

set_option maxRecDepth 16384

noncomputable section

namespace Cert.KernelIdeal.KV

open Cert.KernelIdeal Cert.KernelIdeal.Gen Cert.GinLayer
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the first region: the first layer's features. -/
theorem feat1 (c : Dev nD) : W2 m ρ c (Proc.devRef .tc main_v37) = H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  (Stage0.out m ρ c).trans rfl

/-- After the second region. -/
theorem feat2 (c : Dev nD) : W4 m ρ c (Proc.devRef .tc main_v87) = H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [Stage1.out m ρ c, feat1 m ρ c]; rfl

/-- After the third region. -/
theorem feat3 (c : Dev nD) : W6 m ρ c (Proc.devRef .tc main_v137) = H3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [Stage2.out m ρ c, feat2 m ρ c]; rfl

/-- After the fourth region. -/
theorem feat4 (c : Dev nD) : W8 m ρ c (Proc.devRef .tc main_v187) = H4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [Stage3.out m ρ c, feat3 m ρ c]; rfl

/-- After the fifth region. -/
theorem feat5 (c : Dev nD) : W10 m ρ c (Proc.devRef .tc main_v237) = H5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [Stage4.out m ρ c, feat4 m ρ c]; rfl

/-- The graph assignment when the last stretch starts: as launched. -/
theorem batch_kept (c : Dev nD) : W10 m ρ c (Proc.devRef .tc main_arg2) = m ((c : Thread nD τ).loc main_arg2) :=
  (keep10 m ρ c main_arg2 (by decide) (by decide) (by decide) (by decide) (by decide) (by decide)).trans (W1_low m ρ c main_arg2 (by decide))

/-- The result buffer after the last stretch of host operations: the network of the arguments. -/
theorem value (c : Dev nD) : W11 m ρ c (Proc.devRef .tc main_v249) = kerNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  show StableHlo.after hostOps5 (W10 m ρ c) (Proc.devRef .tc main_v249) = _
  after_results_simp
  rw [feat5 m ρ c, batch_kept m ρ c]
  rfl

/-- Every weakly fair execution of the idealized kernel terminates without a fault, the result buffer at the
    network of the argument arrays and the arguments as launched. -/
theorem run : θ_run defs (onTc (τ := τ) (main (F := Ideal))) ⟨m, fun _ => 0, ρ⟩ (fun r => ∀ c : Dev nD,
      r.2.mem ((c.tc : Thread nD τ).loc main_v249) = kerNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(h c).1.trans (value m ρ c), (h c).2⟩) (run_value (F := Ideal) m ρ)

end Cert.KernelIdeal.KV

end
-- ==== Proof.LibGinHost.lean ====
/-
  One layer of a graph isomorphism network, as a host program forms it from whole arrays.

  The host writes a layer as a chain of array operations. A stage of the chain is a matrix product  a · W,
  a bias vector broadcast over the rows and added, and a batch normalisation written with four more
  broadcast vectors — subtract the mean, multiply by  rsqrt(σ² + ε), multiply by γ, add β — followed by the
  maximum with a broadcast zero. A parameter vector of length N reaches the [M, N] array in two steps,
  [N] to [1, N] to [M, N]; the scalars ε and 0 are broadcast from rank 0. A layer is two such stages, the
  first applied to the sum  x + agg  of the feature array and the aggregated array.

  Read at an entry (r, c), every broadcast vector contributes its entry c, the product contributes the
  textbook sum, and the arithmetic is entry by entry: the stage is `bnReluAt` of the biased product entry
  with the column's parameters, and the two stages together are `layer` with the vectors laid out as rows.
-/
import Idealize.ShloMosaic.Lib.ValueIdx
import Idealize.ShloMosaic.Lib.ValueLayout
import Idealize.ShloMosaic.Lib.Pipeline.Value
import Idealize.ShloMosaic.PureOps.Ideal.Laws
import proofs.«120131_j65111704207433_2_alg».proof.Proof.LibPlainDense
import proofs.«120131_j65111704207433_2_alg».proof.Proof.LibGinLayer

noncomputable section

namespace Cert.GinLayer

open Idealize.ShloMosaic Idealize.ShloMosaic.ValueIdx Idealize.ShloMosaic.Pipeline Cert.LibDense Cert.Gcn

/-- A vector broadcast [N] to [1, N] to [M, N], read at (p, c): the vector's entry c. -/
theorem bcast_vec_apply {M N : ℕ} (b : (⟨1, ![N]⟩ : Shape).Idx → EReal)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (p : Fin M) (c : Fin N) :
    broadcastInDim (⟨2, ![M, N]⟩ : Shape) d2 h2 (broadcastInDim (⟨2, ![1, N]⟩ : Shape) d1 h1 b) (ix2 p c) = b (ix1 c) := by
  by_cases hN : N = 1
  · subst hN
    have hc0 : c = 0 := Subsingleton.elim _ _
    subst hc0
    rw [broadcastInDim_apply d2 h2 _ (ix2 p 0) (ix2 (0 : Fin 1) 0) (fun ax => by
        match ax with
        | ⟨0, _⟩ => rfl
        | ⟨1, _⟩ => rfl)]
    rw [broadcastInDim_apply d1 h1 b (ix2 (0 : Fin 1) 0) (ix1 0) (fun ax => by
        match ax with
        | ⟨0, _⟩ => rfl)]
  · rw [broadcastInDim_apply d2 h2 _ (ix2 p c) (ix2 (0 : Fin 1) c) (fun ax => by
        match ax with
        | ⟨0, _⟩ => rfl
        | ⟨1, _⟩ =>
          show c.val = if N = 1 then 0 else ((ix2 p c) (d2 1)).val
          rw [if_neg hN, hd2 1])]
    rw [broadcastInDim_apply d1 h1 b (ix2 (0 : Fin 1) c) (ix1 c) (fun ax => by
        match ax with
        | ⟨0, _⟩ =>
          show c.val = if N = 1 then 0 else ((ix2 (0 : Fin 1) c) (d1 0)).val
          rw [if_neg hN, hd1])]

/-- A sum of two arrays read at an entry. -/
theorem add_at {s : Shape} (A B : FVec Ideal s .f32) (j : s.Idx) (a' b' : EReal) (hA : A j = a') (hB : B j = b') :
    addf A B j = a' + b' := by
  subst hA hB; rfl

/-- The normalise–scale–shift–rectify chain of arrays read at an entry. -/
theorem bn_at {s : Shape} (A Bmu Brs Bg Bb Z : FVec Ideal s .f32) (j : s.Idx) (a' mu' rs' g' b' z' : EReal)
    (hA : A j = a') (hmu : Bmu j = mu') (hrs : Brs j = rs') (hg : Bg j = g') (hb : Bb j = b') (hz : Z j = z') :
    maximumf (addf (mulf (mulf (subf A Bmu) Brs) Bg) Bb) Z j = max ((a' - mu') * rs' * g' + b') z' := by
  subst hA hmu hrs hg hb hz; rfl

/-- One stage as the host forms it — product, bias, normalisation, rectifier — is `bnReluAt` of the biased product
    entry with the column's parameters. -/
theorem host_stage {M K N : ℕ} (a : FVec Ideal (⟨2, ![M, K]⟩ : Shape) .f32) (w : FVec Ideal (⟨2, ![K, N]⟩ : Shape) .f32)
    (bias g b mu var : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (e0 : Fin 0 → Fin 1) (he : (⟨0, ![]⟩ : Shape).BroadcastsInDim ⟨1, ![N]⟩ e0)
    (z0 : Fin 0 → Fin 2) (hz : (⟨0, ![]⟩ : Shape).BroadcastsInDim ⟨2, ![M, N]⟩ z0) :
    maximumf
        (addf
          (mulf
            (mulf
              (subf
                (addf (Host.dotGeneral (F := Ideal) (DotDims.plain M K N) none a w)
                  (broadcastInDim (⟨2, ![M, N]⟩ : Shape) d2 h2 (broadcastInDim (⟨2, ![1, N]⟩ : Shape) d1 h1 bias)))
                (broadcastInDim (⟨2, ![M, N]⟩ : Shape) d2 h2 (broadcastInDim (⟨2, ![1, N]⟩ : Shape) d1 h1 mu)))
              (broadcastInDim (⟨2, ![M, N]⟩ : Shape) d2 h2 (broadcastInDim (⟨2, ![1, N]⟩ : Shape) d1 h1
                (Host.rsqrt (F := Ideal) (addf var (broadcastInDim (⟨1, ![N]⟩ : Shape) e0 he
                  (constant (F := Ideal) (⟨0, ![]⟩ : Shape) .f32 0x3727C5AC#32)))))))
            (broadcastInDim (⟨2, ![M, N]⟩ : Shape) d2 h2 (broadcastInDim (⟨2, ![1, N]⟩ : Shape) d1 h1 g)))
          (broadcastInDim (⟨2, ![M, N]⟩ : Shape) d2 h2 (broadcastInDim (⟨2, ![1, N]⟩ : Shape) d1 h1 b)))
        (broadcastInDim (⟨2, ![M, N]⟩ : Shape) z0 hz (constant (F := Ideal) (⟨0, ![]⟩ : Shape) .f32 0x00000000#32))
      = fun i => bnReluAt (dense (fun k => a (ix2 (i 0) k)) w (i 1) + rowOf bias (ix2 (0 : Fin 1) (i 1)))
          (rowOf g (ix2 (0 : Fin 1) (i 1))) (rowOf b (ix2 (0 : Fin 1) (i 1)))
          (rowOf mu (ix2 (0 : Fin 1) (i 1))) (rowOf var (ix2 (0 : Fin 1) (i 1))) := by
  funext j
  obtain ⟨p, c, rfl⟩ : ∃ (p : Fin M) (c : Fin N), j = ix2 p c := ⟨j 0, j 1, eq_ix2 j⟩
  refine (bn_at _ _ _ _ _ _ (ix2 p c) _ _ _ _ _ _
    (add_at _ _ (ix2 p c) _ _
      (Cert.LibDenseHost.dotGeneral_plain (DotDims.plain M K N) none (plain_rank M K N) (plain_size M K N)
        plain_l0 plain_l1 plain_r0 plain_r1 a w p c)
      (bcast_vec_apply bias d1 hd1 h1 d2 hd2 h2 p c))
    (bcast_vec_apply mu d1 hd1 h1 d2 hd2 h2 p c)
    (bcast_vec_apply _ d1 hd1 h1 d2 hd2 h2 p c)
    (bcast_vec_apply g d1 hd1 h1 d2 hd2 h2 p c)
    (bcast_vec_apply b d1 hd1 h1 d2 hd2 h2 p c)
    rfl).trans ?_
  rfl

/-- The host's form of a layer: the stage applied to  x + agg  with (W₁, b₁) and the inner statistics, then the
    stage applied to that with (W₂, b₂) and the outer statistics. It is `layer` with every vector laid out as a row. -/
theorem host_layer {M K H N : ℕ} (x agg : FVec Ideal (⟨2, ![M, K]⟩ : Shape) .f32) (w1 : FVec Ideal (⟨2, ![K, H]⟩ : Shape) .f32)
    (b1 ig ib im iv : FVec Ideal (⟨1, ![H]⟩ : Shape) .f32) (w2 : FVec Ideal (⟨2, ![H, N]⟩ : Shape) .f32)
    (b2 og ob om ov : FVec Ideal (⟨1, ![N]⟩ : Shape) .f32)
    (c1 : Fin 1 → Fin 2) (hc1 : c1 0 = 1) (k1 : (⟨1, ![H]⟩ : Shape).BroadcastsInDim ⟨2, ![1, H]⟩ c1)
    (c2 : Fin 2 → Fin 2) (hc2 : ∀ a, c2 a = a) (k2 : (⟨2, ![1, H]⟩ : Shape).BroadcastsInDim ⟨2, ![M, H]⟩ c2)
    (ce : Fin 0 → Fin 1) (ke : (⟨0, ![]⟩ : Shape).BroadcastsInDim ⟨1, ![H]⟩ ce)
    (cz : Fin 0 → Fin 2) (kz : (⟨0, ![]⟩ : Shape).BroadcastsInDim ⟨2, ![M, H]⟩ cz)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (e0 : Fin 0 → Fin 1) (he : (⟨0, ![]⟩ : Shape).BroadcastsInDim ⟨1, ![N]⟩ e0)
    (z0 : Fin 0 → Fin 2) (hz : (⟨0, ![]⟩ : Shape).BroadcastsInDim ⟨2, ![M, N]⟩ z0) :
    maximumf
        (addf
          (mulf
            (mulf
              (subf
                (addf
                  (Host.dotGeneral (F := Ideal) (DotDims.plain M H N) none
                    (maximumf
                      (addf
                        (mulf
                          (mulf
                            (subf
                              (addf (Host.dotGeneral (F := Ideal) (DotDims.plain M K H) none (addf x agg) w1)
                                (broadcastInDim (⟨2, ![M, H]⟩ : Shape) c2 k2 (broadcastInDim (⟨2, ![1, H]⟩ : Shape) c1 k1 b1)))
                              (broadcastInDim (⟨2, ![M, H]⟩ : Shape) c2 k2 (broadcastInDim (⟨2, ![1, H]⟩ : Shape) c1 k1 im)))
                            (broadcastInDim (⟨2, ![M, H]⟩ : Shape) c2 k2 (broadcastInDim (⟨2, ![1, H]⟩ : Shape) c1 k1
                              (Host.rsqrt (F := Ideal) (addf iv (broadcastInDim (⟨1, ![H]⟩ : Shape) ce ke
                                (constant (F := Ideal) (⟨0, ![]⟩ : Shape) .f32 0x3727C5AC#32)))))))
                          (broadcastInDim (⟨2, ![M, H]⟩ : Shape) c2 k2 (broadcastInDim (⟨2, ![1, H]⟩ : Shape) c1 k1 ig)))
                        (broadcastInDim (⟨2, ![M, H]⟩ : Shape) c2 k2 (broadcastInDim (⟨2, ![1, H]⟩ : Shape) c1 k1 ib)))
                      (broadcastInDim (⟨2, ![M, H]⟩ : Shape) cz kz (constant (F := Ideal) (⟨0, ![]⟩ : Shape) .f32 0x00000000#32)))
                    w2)
                  (broadcastInDim (⟨2, ![M, N]⟩ : Shape) d2 h2 (broadcastInDim (⟨2, ![1, N]⟩ : Shape) d1 h1 b2)))
                (broadcastInDim (⟨2, ![M, N]⟩ : Shape) d2 h2 (broadcastInDim (⟨2, ![1, N]⟩ : Shape) d1 h1 om)))
              (broadcastInDim (⟨2, ![M, N]⟩ : Shape) d2 h2 (broadcastInDim (⟨2, ![1, N]⟩ : Shape) d1 h1
                (Host.rsqrt (F := Ideal) (addf ov (broadcastInDim (⟨1, ![N]⟩ : Shape) e0 he
                  (constant (F := Ideal) (⟨0, ![]⟩ : Shape) .f32 0x3727C5AC#32)))))))
            (broadcastInDim (⟨2, ![M, N]⟩ : Shape) d2 h2 (broadcastInDim (⟨2, ![1, N]⟩ : Shape) d1 h1 og)))
          (broadcastInDim (⟨2, ![M, N]⟩ : Shape) d2 h2 (broadcastInDim (⟨2, ![1, N]⟩ : Shape) d1 h1 ob)))
        (broadcastInDim (⟨2, ![M, N]⟩ : Shape) z0 hz (constant (F := Ideal) (⟨0, ![]⟩ : Shape) .f32 0x00000000#32))
      = layer x agg w1 (rowOf b1) (rowOf ig) (rowOf ib) (rowOf im) (rowOf iv) w2 (rowOf b2) (rowOf og) (rowOf ob) (rowOf om) (rowOf ov) := by
  rw [host_stage (addf x agg) w1 b1 ig ib im iv c1 hc1 k1 c2 hc2 k2 ce ke cz kz]
  rw [host_stage _ w2 b2 og ob om ov d1 hd1 h1 d2 hd2 h2 e0 he z0 hz]
  rfl

end Cert.GinLayer

end
-- ==== Proof.RefNet.lean ====
/-
  The reference network as a function of its argument arrays: five layers and a mean pooling.

  The reference program computes a five-layer graph isomorphism network over 50000 nodes and 800000 edges and
  pools the node features per graph. Each layer first aggregates: it gathers the feature rows of the edges' source
  nodes and scatter-adds them onto the destination nodes, starting from zeros (`aggA` for the 128-wide input,
  `aggB` for the 64-wide hidden features). Then it applies the two dense stages with their normalisations to
  x + agg — the function `Cert.GinLayer.layer`. Layer 0 takes its parameters directly; layers 1 to 4 take row k − 1
  of the stacked inner parameter arrays, and every layer takes row k of the stacked outer statistics (the slices
  `W1_k … OV_k` below). The result is the per-graph mean (`pool`): the scatter-added rows divided by the
  per-graph node count, the count kept at least one.

  The aggregation, the pooling and the slices are written exactly as the program states them, with their operands
  as variables.
-/
import proofs.«120131_j65111704207433_2_alg».proof.Proof.Gen.ReferenceIdeal
import proofs.«120131_j65111704207433_2_alg».proof.Proof.LibGinHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GinLayer

/-! ## The aggregation, the pooling and the parameter slices, as the program states them -/

/-- Layer 0's aggregation of a [50000, 128] feature array over the edge list: gather the source rows, scatter-add onto
    the destination rows of a zero array. Negative node numbers are wrapped by 50000 first. -/
def aggA (ei : (⟨S2x800000, .i32⟩ : BufTy).Contents (Elt Ideal)) (h : S50000x128.Idx → EReal) : S50000x128.Idx → EReal :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (select (cmpi .slt (shapeCast _ (extractStridedSlice S1x800000 ![1, 0] ei slices_S2x800000_S1x800000_1_0) shapeCasts_S1x800000_S800000) (broadcastInDim S800000 ![] bcast_S_S800000 (constantI S_ 32 0#32))) (addi (shapeCast _ (extractStridedSlice S1x800000 ![1, 0] ei slices_S2x800000_S1x800000_1_0) shapeCasts_S1x800000_S800000) (broadcastInDim S800000 ![] bcast_S_S800000 (constantI S_ 32 50000#32))) (shapeCast _ (extractStridedSlice S1x800000 ![1, 0] ei slices_S2x800000_S1x800000_1_0) shapeCasts_S1x800000_S800000))) (Host.gather gather_S50000x128_S800000x1_S800000x128_1_0_n_n_0_1_1128 h (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))))

/-- The same aggregation of a [50000, 64] feature array (layers 1 to 4). -/
def aggB (ei : (⟨S2x800000, .i32⟩ : BufTy).Contents (Elt Ideal)) (h : S50000x64.Idx → EReal) : S50000x64.Idx → EReal :=
  Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 (select (cmpi .slt (shapeCast _ (extractStridedSlice S1x800000 ![1, 0] ei slices_S2x800000_S1x800000_1_0) shapeCasts_S1x800000_S800000) (broadcastInDim S800000 ![] bcast_S_S800000 (constantI S_ 32 0#32))) (addi (shapeCast _ (extractStridedSlice S1x800000 ![1, 0] ei slices_S2x800000_S1x800000_1_0) shapeCasts_S1x800000_S800000) (broadcastInDim S800000 ![] bcast_S_S800000 (constantI S_ 32 50000#32))) (shapeCast _ (extractStridedSlice S1x800000 ![1, 0] ei slices_S2x800000_S1x800000_1_0) shapeCasts_S1x800000_S800000))) (Host.gather gather_S50000x64_S800000x1_S800000x64_1_0_n_n_0_1_164 h (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))))

/-- The mean pooling of a [50000, 64] feature array over 128 graphs: the rows scatter-added by graph number, divided by
    the graph's node count (at least one). -/
def pool (batch : (⟨S50000, .i32⟩ : BufTy).Contents (Elt Ideal)) (h : S50000x64.Idx → EReal) : S128x64.Idx → EReal :=
  Host.divf (F := Ideal) (Host.scatterAdd (F := Ideal) scatter_S128x64_S50000x1_S50000x64_1_0_0_1 (broadcastInDim S128x64 ![] bcast_S_S128x64 (constant (F := Ideal) S_ .f32 0x00000000#32)) (broadcastInDim S50000x1 ![0] bcast_S50000_S50000x1_0 batch) h) (broadcastInDim S128x64 ![0, 1] bcast_S128x1_S128x64_0_1 (broadcastInDim S128x1 ![0] bcast_S128_S128x1_0 (maximumf (Host.scatterAdd (F := Ideal) scatter_S128_S50000x1_S50000_n_0_0_1 (broadcastInDim S128 ![] bcast_S_S128 (constant (F := Ideal) S_ .f32 0x00000000#32)) (broadcastInDim S50000x1 ![0] bcast_S50000_S50000x1_0 batch) (broadcastInDim S50000 ![] bcast_S_S50000 (constant (F := Ideal) S_ .f32 0x3F800000#32))) (broadcastInDim S128 ![] bcast_S_S128 (constant (F := Ideal) S_ .f32 0x3F800000#32)))))

/-! Row k of a stacked parameter array, as a slice and a reshape. -/

def OG_0 (x19 : (⟨S5x64, .f32⟩ : BufTy).Contents (Elt Ideal)) : S64.Idx → EReal :=
  shapeCast _ (extractStridedSlice S1x64 ![0, 0] (x19) slices_S5x64_S1x64_0_0) shapeCasts_S1x64_S64
def OB_0 (x20 : (⟨S5x64, .f32⟩ : BufTy).Contents (Elt Ideal)) : S64.Idx → EReal :=
  shapeCast _ (extractStridedSlice S1x64 ![0, 0] (x20) slices_S5x64_S1x64_0_0) shapeCasts_S1x64_S64
def OM_0 (x21 : (⟨S5x64, .f32⟩ : BufTy).Contents (Elt Ideal)) : S64.Idx → EReal :=
  shapeCast _ (extractStridedSlice S1x64 ![0, 0] (x21) slices_S5x64_S1x64_0_0) shapeCasts_S1x64_S64
def OV_0 (x22 : (⟨S5x64, .f32⟩ : BufTy).Contents (Elt Ideal)) : S64.Idx → EReal :=
  shapeCast _ (extractStridedSlice S1x64 ![0, 0] (x22) slices_S5x64_S1x64_0_0) shapeCasts_S1x64_S64
def W1_0 (x11 : (⟨S4x64x128, .f32⟩ : BufTy).Contents (Elt Ideal)) : S64x128.Idx → EReal :=
  shapeCast _ (extractStridedSlice S1x64x128 ![0, 0, 0] (x11) slices_S4x64x128_S1x64x128_0_0_0) shapeCasts_S1x64x128_S64x128
def B1_0 (x12 : (⟨S4x128, .f32⟩ : BufTy).Contents (Elt Ideal)) : S128.Idx → EReal :=
  shapeCast _ (extractStridedSlice S1x128 ![0, 0] (x12) slices_S4x128_S1x128_0_0) shapeCasts_S1x128_S128
def IG_0 (x13 : (⟨S4x128, .f32⟩ : BufTy).Contents (Elt Ideal)) : S128.Idx → EReal :=
  shapeCast _ (extractStridedSlice S1x128 ![0, 0] (x13) slices_S4x128_S1x128_0_0) shapeCasts_S1x128_S128
def IB_0 (x14 : (⟨S4x128, .f32⟩ : BufTy).Contents (Elt Ideal)) : S128.Idx → EReal :=
  shapeCast _ (extractStridedSlice S1x128 ![0, 0] (x14) slices_S4x128_S1x128_0_0) shapeCasts_S1x128_S128
def IM_0 (x15 : (⟨S4x128, .f32⟩ : BufTy).Contents (Elt Ideal)) : S128.Idx → EReal :=
  shapeCast _ (extractStridedSlice S1x128 ![0, 0] (x15) slices_S4x128_S1x128_0_0) shapeCasts_S1x128_S128
def IV_0 (x16 : (⟨S4x128, .f32⟩ : BufTy).Contents (Elt Ideal)) : S128.Idx → EReal :=
  shapeCast _ (extractStridedSlice S1x128 ![0, 0] (x16) slices_S4x128_S1x128_0_0) shapeCasts_S1x128_S128
def W2_0 (x17 : (⟨S4x128x64, .f32⟩ : BufTy).Contents (Elt Ideal)) : S128x64.Idx → EReal :=
  shapeCast _ (extractStridedSlice S1x128x64 ![0, 0, 0] (x17) slices_S4x128x64_S1x128x64_0_0_0) shapeCasts_S1x128x64_S128x64
def B2_0 (x18 : (⟨S4x64, .f32⟩ : BufTy).Contents (Elt Ideal)) : S64.Idx → EReal :=
  shapeCast _ (extractStridedSlice S1x64 ![0, 0] (x18) slices_S4x64_S1x64_0_0) shapeCasts_S1x64_S64
def OG_1 (x19 : (⟨S5x64, .f32⟩ : BufTy).Contents (Elt Ideal)) : S64.Idx → EReal :=
  shapeCast _ (extractStridedSlice S1x64 ![1, 0] (x19) slices_S5x64_S1x64_1_0) shapeCasts_S1x64_S64
def OB_1 (x20 : (⟨S5x64, .f32⟩ : BufTy).Contents (Elt Ideal)) : S64.Idx → EReal :=
  shapeCast _ (extractStridedSlice S1x64 ![1, 0] (x20) slices_S5x64_S1x64_1_0) shapeCasts_S1x64_S64
def OM_1 (x21 : (⟨S5x64, .f32⟩ : BufTy).Contents (Elt Ideal)) : S64.Idx → EReal :=
  shapeCast _ (extractStridedSlice S1x64 ![1, 0] (x21) slices_S5x64_S1x64_1_0) shapeCasts_S1x64_S64
def OV_1 (x22 : (⟨S5x64, .f32⟩ : BufTy).Contents (Elt Ideal)) : S64.Idx → EReal :=
  shapeCast _ (extractStridedSlice S1x64 ![1, 0] (x22) slices_S5x64_S1x64_1_0) shapeCasts_S1x64_S64
def W1_1 (x11 : (⟨S4x64x128, .f32⟩ : BufTy).Contents (Elt Ideal)) : S64x128.Idx → EReal :=
  shapeCast _ (extractStridedSlice S1x64x128 ![1, 0, 0] (x11) slices_S4x64x128_S1x64x128_1_0_0) shapeCasts_S1x64x128_S64x128
def B1_1 (x12 : (⟨S4x128, .f32⟩ : BufTy).Contents (Elt Ideal)) : S128.Idx → EReal :=
  shapeCast _ (extractStridedSlice S1x128 ![1, 0] (x12) slices_S4x128_S1x128_1_0) shapeCasts_S1x128_S128
def IG_1 (x13 : (⟨S4x128, .f32⟩ : BufTy).Contents (Elt Ideal)) : S128.Idx → EReal :=
  shapeCast _ (extractStridedSlice S1x128 ![1, 0] (x13) slices_S4x128_S1x128_1_0) shapeCasts_S1x128_S128
def IB_1 (x14 : (⟨S4x128, .f32⟩ : BufTy).Contents (Elt Ideal)) : S128.Idx → EReal :=
  shapeCast _ (extractStridedSlice S1x128 ![1, 0] (x14) slices_S4x128_S1x128_1_0) shapeCasts_S1x128_S128
def IM_1 (x15 : (⟨S4x128, .f32⟩ : BufTy).Contents (Elt Ideal)) : S128.Idx → EReal :=
  shapeCast _ (extractStridedSlice S1x128 ![1, 0] (x15) slices_S4x128_S1x128_1_0) shapeCasts_S1x128_S128
def IV_1 (x16 : (⟨S4x128, .f32⟩ : BufTy).Contents (Elt Ideal)) : S128.Idx → EReal :=
  shapeCast _ (extractStridedSlice S1x128 ![1, 0] (x16) slices_S4x128_S1x128_1_0) shapeCasts_S1x128_S128
def W2_1 (x17 : (⟨S4x128x64, .f32⟩ : BufTy).Contents (Elt Ideal)) : S128x64.Idx → EReal :=
  shapeCast _ (extractStridedSlice S1x128x64 ![1, 0, 0] (x17) slices_S4x128x64_S1x128x64_1_0_0) shapeCasts_S1x128x64_S128x64
def B2_1 (x18 : (⟨S4x64, .f32⟩ : BufTy).Contents (Elt Ideal)) : S64.Idx → EReal :=
  shapeCast _ (extractStridedSlice S1x64 ![1, 0] (x18) slices_S4x64_S1x64_1_0) shapeCasts_S1x64_S64
def OG_2 (x19 : (⟨S5x64, .f32⟩ : BufTy).Contents (Elt Ideal)) : S64.Idx → EReal :=
  shapeCast _ (extractStridedSlice S1x64 ![2, 0] (x19) slices_S5x64_S1x64_2_0) shapeCasts_S1x64_S64
def OB_2 (x20 : (⟨S5x64, .f32⟩ : BufTy).Contents (Elt Ideal)) : S64.Idx → EReal :=
  shapeCast _ (extractStridedSlice S1x64 ![2, 0] (x20) slices_S5x64_S1x64_2_0) shapeCasts_S1x64_S64
def OM_2 (x21 : (⟨S5x64, .f32⟩ : BufTy).Contents (Elt Ideal)) : S64.Idx → EReal :=
  shapeCast _ (extractStridedSlice S1x64 ![2, 0] (x21) slices_S5x64_S1x64_2_0) shapeCasts_S1x64_S64
def OV_2 (x22 : (⟨S5x64, .f32⟩ : BufTy).Contents (Elt Ideal)) : S64.Idx → EReal :=
  shapeCast _ (extractStridedSlice S1x64 ![2, 0] (x22) slices_S5x64_S1x64_2_0) shapeCasts_S1x64_S64
def W1_2 (x11 : (⟨S4x64x128, .f32⟩ : BufTy).Contents (Elt Ideal)) : S64x128.Idx → EReal :=
  shapeCast _ (extractStridedSlice S1x64x128 ![2, 0, 0] (x11) slices_S4x64x128_S1x64x128_2_0_0) shapeCasts_S1x64x128_S64x128
def B1_2 (x12 : (⟨S4x128, .f32⟩ : BufTy).Contents (Elt Ideal)) : S128.Idx → EReal :=
  shapeCast _ (extractStridedSlice S1x128 ![2, 0] (x12) slices_S4x128_S1x128_2_0) shapeCasts_S1x128_S128
def IG_2 (x13 : (⟨S4x128, .f32⟩ : BufTy).Contents (Elt Ideal)) : S128.Idx → EReal :=
  shapeCast _ (extractStridedSlice S1x128 ![2, 0] (x13) slices_S4x128_S1x128_2_0) shapeCasts_S1x128_S128
def IB_2 (x14 : (⟨S4x128, .f32⟩ : BufTy).Contents (Elt Ideal)) : S128.Idx → EReal :=
  shapeCast _ (extractStridedSlice S1x128 ![2, 0] (x14) slices_S4x128_S1x128_2_0) shapeCasts_S1x128_S128
def IM_2 (x15 : (⟨S4x128, .f32⟩ : BufTy).Contents (Elt Ideal)) : S128.Idx → EReal :=
  shapeCast _ (extractStridedSlice S1x128 ![2, 0] (x15) slices_S4x128_S1x128_2_0) shapeCasts_S1x128_S128
def IV_2 (x16 : (⟨S4x128, .f32⟩ : BufTy).Contents (Elt Ideal)) : S128.Idx → EReal :=
  shapeCast _ (extractStridedSlice S1x128 ![2, 0] (x16) slices_S4x128_S1x128_2_0) shapeCasts_S1x128_S128
def W2_2 (x17 : (⟨S4x128x64, .f32⟩ : BufTy).Contents (Elt Ideal)) : S128x64.Idx → EReal :=
  shapeCast _ (extractStridedSlice S1x128x64 ![2, 0, 0] (x17) slices_S4x128x64_S1x128x64_2_0_0) shapeCasts_S1x128x64_S128x64
def B2_2 (x18 : (⟨S4x64, .f32⟩ : BufTy).Contents (Elt Ideal)) : S64.Idx → EReal :=
  shapeCast _ (extractStridedSlice S1x64 ![2, 0] (x18) slices_S4x64_S1x64_2_0) shapeCasts_S1x64_S64
def OG_3 (x19 : (⟨S5x64, .f32⟩ : BufTy).Contents (Elt Ideal)) : S64.Idx → EReal :=
  shapeCast _ (extractStridedSlice S1x64 ![3, 0] (x19) slices_S5x64_S1x64_3_0) shapeCasts_S1x64_S64
def OB_3 (x20 : (⟨S5x64, .f32⟩ : BufTy).Contents (Elt Ideal)) : S64.Idx → EReal :=
  shapeCast _ (extractStridedSlice S1x64 ![3, 0] (x20) slices_S5x64_S1x64_3_0) shapeCasts_S1x64_S64
def OM_3 (x21 : (⟨S5x64, .f32⟩ : BufTy).Contents (Elt Ideal)) : S64.Idx → EReal :=
  shapeCast _ (extractStridedSlice S1x64 ![3, 0] (x21) slices_S5x64_S1x64_3_0) shapeCasts_S1x64_S64
def OV_3 (x22 : (⟨S5x64, .f32⟩ : BufTy).Contents (Elt Ideal)) : S64.Idx → EReal :=
  shapeCast _ (extractStridedSlice S1x64 ![3, 0] (x22) slices_S5x64_S1x64_3_0) shapeCasts_S1x64_S64
def W1_3 (x11 : (⟨S4x64x128, .f32⟩ : BufTy).Contents (Elt Ideal)) : S64x128.Idx → EReal :=
  shapeCast _ (extractStridedSlice S1x64x128 ![3, 0, 0] (x11) slices_S4x64x128_S1x64x128_3_0_0) shapeCasts_S1x64x128_S64x128
def B1_3 (x12 : (⟨S4x128, .f32⟩ : BufTy).Contents (Elt Ideal)) : S128.Idx → EReal :=
  shapeCast _ (extractStridedSlice S1x128 ![3, 0] (x12) slices_S4x128_S1x128_3_0) shapeCasts_S1x128_S128
def IG_3 (x13 : (⟨S4x128, .f32⟩ : BufTy).Contents (Elt Ideal)) : S128.Idx → EReal :=
  shapeCast _ (extractStridedSlice S1x128 ![3, 0] (x13) slices_S4x128_S1x128_3_0) shapeCasts_S1x128_S128
def IB_3 (x14 : (⟨S4x128, .f32⟩ : BufTy).Contents (Elt Ideal)) : S128.Idx → EReal :=
  shapeCast _ (extractStridedSlice S1x128 ![3, 0] (x14) slices_S4x128_S1x128_3_0) shapeCasts_S1x128_S128
def IM_3 (x15 : (⟨S4x128, .f32⟩ : BufTy).Contents (Elt Ideal)) : S128.Idx → EReal :=
  shapeCast _ (extractStridedSlice S1x128 ![3, 0] (x15) slices_S4x128_S1x128_3_0) shapeCasts_S1x128_S128
def IV_3 (x16 : (⟨S4x128, .f32⟩ : BufTy).Contents (Elt Ideal)) : S128.Idx → EReal :=
  shapeCast _ (extractStridedSlice S1x128 ![3, 0] (x16) slices_S4x128_S1x128_3_0) shapeCasts_S1x128_S128
def W2_3 (x17 : (⟨S4x128x64, .f32⟩ : BufTy).Contents (Elt Ideal)) : S128x64.Idx → EReal :=
  shapeCast _ (extractStridedSlice S1x128x64 ![3, 0, 0] (x17) slices_S4x128x64_S1x128x64_3_0_0) shapeCasts_S1x128x64_S128x64
def B2_3 (x18 : (⟨S4x64, .f32⟩ : BufTy).Contents (Elt Ideal)) : S64.Idx → EReal :=
  shapeCast _ (extractStridedSlice S1x64 ![3, 0] (x18) slices_S4x64_S1x64_3_0) shapeCasts_S1x64_S64
def OG_4 (x19 : (⟨S5x64, .f32⟩ : BufTy).Contents (Elt Ideal)) : S64.Idx → EReal :=
  shapeCast _ (extractStridedSlice S1x64 ![4, 0] (x19) slices_S5x64_S1x64_4_0) shapeCasts_S1x64_S64
def OB_4 (x20 : (⟨S5x64, .f32⟩ : BufTy).Contents (Elt Ideal)) : S64.Idx → EReal :=
  shapeCast _ (extractStridedSlice S1x64 ![4, 0] (x20) slices_S5x64_S1x64_4_0) shapeCasts_S1x64_S64
def OM_4 (x21 : (⟨S5x64, .f32⟩ : BufTy).Contents (Elt Ideal)) : S64.Idx → EReal :=
  shapeCast _ (extractStridedSlice S1x64 ![4, 0] (x21) slices_S5x64_S1x64_4_0) shapeCasts_S1x64_S64
def OV_4 (x22 : (⟨S5x64, .f32⟩ : BufTy).Contents (Elt Ideal)) : S64.Idx → EReal :=
  shapeCast _ (extractStridedSlice S1x64 ![4, 0] (x22) slices_S5x64_S1x64_4_0) shapeCasts_S1x64_S64

/-! ## The network -/

/-- The features after layer 0. -/
def h1 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x19 : (⟨S5x64, .f32⟩ : BufTy).Contents (Elt Ideal)) (x20 : (⟨S5x64, .f32⟩ : BufTy).Contents (Elt Ideal)) (x21 : (⟨S5x64, .f32⟩ : BufTy).Contents (Elt Ideal)) (x22 : (⟨S5x64, .f32⟩ : BufTy).Contents (Elt Ideal)) : S50000x64.Idx → EReal :=
  layer (M := 50000) (K := 128) (H := 128) (N := 64) x0 (aggA x1 x0) x3 (rowOf x4) (rowOf x5) (rowOf x6) (rowOf x7) (rowOf x8) x9 (rowOf x10)
    (rowOf (OG_0 x19)) (rowOf (OB_0 x20)) (rowOf (OM_0 x21)) (rowOf (OV_0 x22))

/-- The features after layer 1. -/
def h2 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S4x64x128, .f32⟩ : BufTy).Contents (Elt Ideal)) (x12 : (⟨S4x128, .f32⟩ : BufTy).Contents (Elt Ideal)) (x13 : (⟨S4x128, .f32⟩ : BufTy).Contents (Elt Ideal)) (x14 : (⟨S4x128, .f32⟩ : BufTy).Contents (Elt Ideal)) (x15 : (⟨S4x128, .f32⟩ : BufTy).Contents (Elt Ideal)) (x16 : (⟨S4x128, .f32⟩ : BufTy).Contents (Elt Ideal)) (x17 : (⟨S4x128x64, .f32⟩ : BufTy).Contents (Elt Ideal)) (x18 : (⟨S4x64, .f32⟩ : BufTy).Contents (Elt Ideal)) (x19 : (⟨S5x64, .f32⟩ : BufTy).Contents (Elt Ideal)) (x20 : (⟨S5x64, .f32⟩ : BufTy).Contents (Elt Ideal)) (x21 : (⟨S5x64, .f32⟩ : BufTy).Contents (Elt Ideal)) (x22 : (⟨S5x64, .f32⟩ : BufTy).Contents (Elt Ideal)) : S50000x64.Idx → EReal :=
  layer (M := 50000) (K := 64) (H := 128) (N := 64) (h1 x0 x1 x3 x4 x5 x6 x7 x8 x9 x10 x19 x20 x21 x22) (aggB x1 (h1 x0 x1 x3 x4 x5 x6 x7 x8 x9 x10 x19 x20 x21 x22))
    (W1_0 x11) (rowOf (B1_0 x12)) (rowOf (IG_0 x13)) (rowOf (IB_0 x14)) (rowOf (IM_0 x15)) (rowOf (IV_0 x16))
    (W2_0 x17) (rowOf (B2_0 x18)) (rowOf (OG_1 x19)) (rowOf (OB_1 x20)) (rowOf (OM_1 x21)) (rowOf (OV_1 x22))

/-- The features after layer 2. -/
def h3 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S4x64x128, .f32⟩ : BufTy).Contents (Elt Ideal)) (x12 : (⟨S4x128, .f32⟩ : BufTy).Contents (Elt Ideal)) (x13 : (⟨S4x128, .f32⟩ : BufTy).Contents (Elt Ideal)) (x14 : (⟨S4x128, .f32⟩ : BufTy).Contents (Elt Ideal)) (x15 : (⟨S4x128, .f32⟩ : BufTy).Contents (Elt Ideal)) (x16 : (⟨S4x128, .f32⟩ : BufTy).Contents (Elt Ideal)) (x17 : (⟨S4x128x64, .f32⟩ : BufTy).Contents (Elt Ideal)) (x18 : (⟨S4x64, .f32⟩ : BufTy).Contents (Elt Ideal)) (x19 : (⟨S5x64, .f32⟩ : BufTy).Contents (Elt Ideal)) (x20 : (⟨S5x64, .f32⟩ : BufTy).Contents (Elt Ideal)) (x21 : (⟨S5x64, .f32⟩ : BufTy).Contents (Elt Ideal)) (x22 : (⟨S5x64, .f32⟩ : BufTy).Contents (Elt Ideal)) : S50000x64.Idx → EReal :=
  layer (M := 50000) (K := 64) (H := 128) (N := 64) (h2 x0 x1 x3 x4 x5 x6 x7 x8 x9 x10 x11 x12 x13 x14 x15 x16 x17 x18 x19 x20 x21 x22) (aggB x1 (h2 x0 x1 x3 x4 x5 x6 x7 x8 x9 x10 x11 x12 x13 x14 x15 x16 x17 x18 x19 x20 x21 x22))
    (W1_1 x11) (rowOf (B1_1 x12)) (rowOf (IG_1 x13)) (rowOf (IB_1 x14)) (rowOf (IM_1 x15)) (rowOf (IV_1 x16))
    (W2_1 x17) (rowOf (B2_1 x18)) (rowOf (OG_2 x19)) (rowOf (OB_2 x20)) (rowOf (OM_2 x21)) (rowOf (OV_2 x22))

/-- The features after layer 3. -/
def h4 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S4x64x128, .f32⟩ : BufTy).Contents (Elt Ideal)) (x12 : (⟨S4x128, .f32⟩ : BufTy).Contents (Elt Ideal)) (x13 : (⟨S4x128, .f32⟩ : BufTy).Contents (Elt Ideal)) (x14 : (⟨S4x128, .f32⟩ : BufTy).Contents (Elt Ideal)) (x15 : (⟨S4x128, .f32⟩ : BufTy).Contents (Elt Ideal)) (x16 : (⟨S4x128, .f32⟩ : BufTy).Contents (Elt Ideal)) (x17 : (⟨S4x128x64, .f32⟩ : BufTy).Contents (Elt Ideal)) (x18 : (⟨S4x64, .f32⟩ : BufTy).Contents (Elt Ideal)) (x19 : (⟨S5x64, .f32⟩ : BufTy).Contents (Elt Ideal)) (x20 : (⟨S5x64, .f32⟩ : BufTy).Contents (Elt Ideal)) (x21 : (⟨S5x64, .f32⟩ : BufTy).Contents (Elt Ideal)) (x22 : (⟨S5x64, .f32⟩ : BufTy).Contents (Elt Ideal)) : S50000x64.Idx → EReal :=
  layer (M := 50000) (K := 64) (H := 128) (N := 64) (h3 x0 x1 x3 x4 x5 x6 x7 x8 x9 x10 x11 x12 x13 x14 x15 x16 x17 x18 x19 x20 x21 x22) (aggB x1 (h3 x0 x1 x3 x4 x5 x6 x7 x8 x9 x10 x11 x12 x13 x14 x15 x16 x17 x18 x19 x20 x21 x22))
    (W1_2 x11) (rowOf (B1_2 x12)) (rowOf (IG_2 x13)) (rowOf (IB_2 x14)) (rowOf (IM_2 x15)) (rowOf (IV_2 x16))
    (W2_2 x17) (rowOf (B2_2 x18)) (rowOf (OG_3 x19)) (rowOf (OB_3 x20)) (rowOf (OM_3 x21)) (rowOf (OV_3 x22))

/-- The features after layer 4. -/
def h5 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S4x64x128, .f32⟩ : BufTy).Contents (Elt Ideal)) (x12 : (⟨S4x128, .f32⟩ : BufTy).Contents (Elt Ideal)) (x13 : (⟨S4x128, .f32⟩ : BufTy).Contents (Elt Ideal)) (x14 : (⟨S4x128, .f32⟩ : BufTy).Contents (Elt Ideal)) (x15 : (⟨S4x128, .f32⟩ : BufTy).Contents (Elt Ideal)) (x16 : (⟨S4x128, .f32⟩ : BufTy).Contents (Elt Ideal)) (x17 : (⟨S4x128x64, .f32⟩ : BufTy).Contents (Elt Ideal)) (x18 : (⟨S4x64, .f32⟩ : BufTy).Contents (Elt Ideal)) (x19 : (⟨S5x64, .f32⟩ : BufTy).Contents (Elt Ideal)) (x20 : (⟨S5x64, .f32⟩ : BufTy).Contents (Elt Ideal)) (x21 : (⟨S5x64, .f32⟩ : BufTy).Contents (Elt Ideal)) (x22 : (⟨S5x64, .f32⟩ : BufTy).Contents (Elt Ideal)) : S50000x64.Idx → EReal :=
  layer (M := 50000) (K := 64) (H := 128) (N := 64) (h4 x0 x1 x3 x4 x5 x6 x7 x8 x9 x10 x11 x12 x13 x14 x15 x16 x17 x18 x19 x20 x21 x22) (aggB x1 (h4 x0 x1 x3 x4 x5 x6 x7 x8 x9 x10 x11 x12 x13 x14 x15 x16 x17 x18 x19 x20 x21 x22))
    (W1_3 x11) (rowOf (B1_3 x12)) (rowOf (IG_3 x13)) (rowOf (IB_3 x14)) (rowOf (IM_3 x15)) (rowOf (IV_3 x16))
    (W2_3 x17) (rowOf (B2_3 x18)) (rowOf (OG_4 x19)) (rowOf (OB_4 x20)) (rowOf (OM_4 x21)) (rowOf (OV_4 x22))

/-- The reference network: five layers, then the mean pooling. -/
def refNet (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S4x64x128, .f32⟩ : BufTy).Contents (Elt Ideal)) (x12 : (⟨S4x128, .f32⟩ : BufTy).Contents (Elt Ideal)) (x13 : (⟨S4x128, .f32⟩ : BufTy).Contents (Elt Ideal)) (x14 : (⟨S4x128, .f32⟩ : BufTy).Contents (Elt Ideal)) (x15 : (⟨S4x128, .f32⟩ : BufTy).Contents (Elt Ideal)) (x16 : (⟨S4x128, .f32⟩ : BufTy).Contents (Elt Ideal)) (x17 : (⟨S4x128x64, .f32⟩ : BufTy).Contents (Elt Ideal)) (x18 : (⟨S4x64, .f32⟩ : BufTy).Contents (Elt Ideal)) (x19 : (⟨S5x64, .f32⟩ : BufTy).Contents (Elt Ideal)) (x20 : (⟨S5x64, .f32⟩ : BufTy).Contents (Elt Ideal)) (x21 : (⟨S5x64, .f32⟩ : BufTy).Contents (Elt Ideal)) (x22 : (⟨S5x64, .f32⟩ : BufTy).Contents (Elt Ideal)) : S128x64.Idx → EReal :=
  pool x2 (h5 x0 x1 x3 x4 x5 x6 x7 x8 x9 x10 x11 x12 x13 x14 x15 x16 x17 x18 x19 x20 x21 x22)

end Cert.ReferenceIdeal.RefValue

end
-- ==== Proof.RefRun.lean ====
/-
  The reference program run stretch by stretch.

  The program is a straight line of 459 host operations, cut into six stretches: one per layer and the pooling.
  Buffers are numbered in program order — the 23 arguments first, then each operation's result — and every
  operation writes only its own result, so a stretch leaves every buffer numbered below its first result as it
  found it: the arguments, the edge list's two rows (written once, in the first stretch) and the previous layer's
  output. The contents after the whole line are the contents after the last stretch.

  Within a stretch the output buffer's contents are the stretch's composed term over what the stretch found — one
  layer deep. By `Cert.GinLayer.host_layer` that term is `layer` of the previous layer's output, its aggregate and
  the layer's parameter slices; the last stretch's is the pooling of layer 4's output. Chained, the result buffer
  holds `refNet` of the argument arrays, and every argument array ends as it was launched.
-/
import proofs.«120131_j65111704207433_2_alg».proof.Proof.RefOps
import proofs.«120131_j65111704207433_2_alg».proof.Proof.RefNet
import proofs.«120131_j65111704207433_2_alg».proof.Proof.LibWrites
import proofs.«120131_j65111704207433_2_alg».proof.Proof.LibGinHost

set_option maxRecDepth 16384

noncomputable section

namespace Cert.ReferenceIdeal.RefValue

open Cert.ReferenceIdeal Cert.ReferenceIdeal.Gen Cert.ReferenceIdeal.RefOps Cert.GinLayer
open Idealize.ShloMosaic Idealize.ShloMosaic.TcCoe Idealize.ShloMosaic.ValueIdx Idealize.SL.Sem Idealize.ShloMosaic.StableHlo

/-! ## What a stretch leaves alone -/

theorem wf0 : (ops0 : List (HloOp τ sig (Elt Ideal))).Forall (WritesFrom 23) := by writes_own
theorem wf1 : (ops1 : List (HloOp τ sig (Elt Ideal))).Forall (WritesFrom 102) := by writes_own
theorem wf2 : (ops2 : List (HloOp τ sig (Elt Ideal))).Forall (WritesFrom 193) := by writes_own
theorem wf3 : (ops3 : List (HloOp τ sig (Elt Ideal))).Forall (WritesFrom 284) := by writes_own
theorem wf4 : (ops4 : List (HloOp τ sig (Elt Ideal))).Forall (WritesFrom 375) := by writes_own
theorem wf5 : (ops5 : List (HloOp τ sig (Elt Ideal))).Forall (WritesFrom 466) := by writes_own

variable (m : (ℓ : Loc nD τ sig) → Buf (Elt Ideal) ℓ)

/-! ## The contents between the stretches -/

/-- A device's contents at launch. -/
def W0 (c : Dev nD) : Valuation τ sig (Elt Ideal) := launchContents m c
/-- The contents after stretch 0. -/
def W1 (c : Dev nD) : Valuation τ sig (Elt Ideal) := StableHlo.after ops0 (W0 m c)
/-- The contents after stretch 1. -/
def W2 (c : Dev nD) : Valuation τ sig (Elt Ideal) := StableHlo.after ops1 (W1 m c)
/-- The contents after stretch 2. -/
def W3 (c : Dev nD) : Valuation τ sig (Elt Ideal) := StableHlo.after ops2 (W2 m c)
/-- The contents after stretch 3. -/
def W4 (c : Dev nD) : Valuation τ sig (Elt Ideal) := StableHlo.after ops3 (W3 m c)
/-- The contents after stretch 4. -/
def W5 (c : Dev nD) : Valuation τ sig (Elt Ideal) := StableHlo.after ops4 (W4 m c)
/-- The contents after stretch 5. -/
def W6 (c : Dev nD) : Valuation τ sig (Elt Ideal) := StableHlo.after ops5 (W5 m c)

/-- The contents after the whole line are the contents after the last stretch. -/
theorem after_ops (c : Dev nD) : StableHlo.after (ops : List (HloOp τ sig (Elt Ideal))) (launchContents m c) = W6 m c :=
  (after_two ops0 _ (launchContents m c)).trans ((after_two ops1 _ (W1 m c)).trans ((after_two ops2 _ (W2 m c)).trans
    ((after_two ops3 _ (W3 m c)).trans (after_two ops4 ops5 (W4 m c)))))

/-! ## The arguments and the edge list's rows stay -/

theorem W1_low (c : Dev nD) (r : Ref sig .tc) (hr : r.idx.val < 23) :
    W1 m c (Proc.devRef .tc r) = m ((c.tc : Thread nD τ).loc r) :=
  (after_below 23 ops0 (W0 m c) wf0 r hr).trans rfl
theorem W2_low (c : Dev nD) (r : Ref sig .tc) (hr : r.idx.val < 23) :
    W2 m c (Proc.devRef .tc r) = m ((c.tc : Thread nD τ).loc r) :=
  (after_below 102 ops1 (W1 m c) wf1 r (by omega)).trans (W1_low m c r hr)
theorem W3_low (c : Dev nD) (r : Ref sig .tc) (hr : r.idx.val < 23) :
    W3 m c (Proc.devRef .tc r) = m ((c.tc : Thread nD τ).loc r) :=
  (after_below 193 ops2 (W2 m c) wf2 r (by omega)).trans (W2_low m c r hr)
theorem W4_low (c : Dev nD) (r : Ref sig .tc) (hr : r.idx.val < 23) :
    W4 m c (Proc.devRef .tc r) = m ((c.tc : Thread nD τ).loc r) :=
  (after_below 284 ops3 (W3 m c) wf3 r (by omega)).trans (W3_low m c r hr)
theorem W5_low (c : Dev nD) (r : Ref sig .tc) (hr : r.idx.val < 23) :
    W5 m c (Proc.devRef .tc r) = m ((c.tc : Thread nD τ).loc r) :=
  (after_below 375 ops4 (W4 m c) wf4 r (by omega)).trans (W4_low m c r hr)
theorem W6_low (c : Dev nD) (r : Ref sig .tc) (hr : r.idx.val < 23) :
    W6 m c (Proc.devRef .tc r) = m ((c.tc : Thread nD τ).loc r) :=
  (after_below 466 ops5 (W5 m c) wf5 r (by omega)).trans (W5_low m c r hr)

/-- The edges' source nodes, row 0 of the edge list, once the first stretch has run. -/
theorem W1_src (c : Dev nD) : W1 m c (Proc.devRef .tc main_v1) = (shapeCast _ (extractStridedSlice S1x800000 ![0, 0] (m ((c.tc : Thread nD τ).loc main_arg1)) slices_S2x800000_S1x800000_0_0) shapeCasts_S1x800000_S800000 : (⟨S800000, .i32⟩ : BufTy).Contents (Elt Ideal)) := by
  show StableHlo.after ops0 (W0 m c) (Proc.devRef .tc main_v1) = _
  after_results_simp
  rfl
/-- The edges' destination nodes, row 1 of the edge list. -/
theorem W1_dst (c : Dev nD) : W1 m c (Proc.devRef .tc main_v3) = (shapeCast _ (extractStridedSlice S1x800000 ![1, 0] (m ((c.tc : Thread nD τ).loc main_arg1)) slices_S2x800000_S1x800000_1_0) shapeCasts_S1x800000_S800000 : (⟨S800000, .i32⟩ : BufTy).Contents (Elt Ideal)) := by
  show StableHlo.after ops0 (W0 m c) (Proc.devRef .tc main_v3) = _
  after_results_simp
  rfl
theorem W2_src (c : Dev nD) : W2 m c (Proc.devRef .tc main_v1) = (shapeCast _ (extractStridedSlice S1x800000 ![0, 0] (m ((c.tc : Thread nD τ).loc main_arg1)) slices_S2x800000_S1x800000_0_0) shapeCasts_S1x800000_S800000 : (⟨S800000, .i32⟩ : BufTy).Contents (Elt Ideal)) :=
  (after_below 102 ops1 (W1 m c) wf1 main_v1 (by decide)).trans (W1_src m c)
theorem W2_dst (c : Dev nD) : W2 m c (Proc.devRef .tc main_v3) = (shapeCast _ (extractStridedSlice S1x800000 ![1, 0] (m ((c.tc : Thread nD τ).loc main_arg1)) slices_S2x800000_S1x800000_1_0) shapeCasts_S1x800000_S800000 : (⟨S800000, .i32⟩ : BufTy).Contents (Elt Ideal)) :=
  (after_below 102 ops1 (W1 m c) wf1 main_v3 (by decide)).trans (W1_dst m c)
theorem W3_src (c : Dev nD) : W3 m c (Proc.devRef .tc main_v1) = (shapeCast _ (extractStridedSlice S1x800000 ![0, 0] (m ((c.tc : Thread nD τ).loc main_arg1)) slices_S2x800000_S1x800000_0_0) shapeCasts_S1x800000_S800000 : (⟨S800000, .i32⟩ : BufTy).Contents (Elt Ideal)) :=
  (after_below 193 ops2 (W2 m c) wf2 main_v1 (by decide)).trans (W2_src m c)
theorem W3_dst (c : Dev nD) : W3 m c (Proc.devRef .tc main_v3) = (shapeCast _ (extractStridedSlice S1x800000 ![1, 0] (m ((c.tc : Thread nD τ).loc main_arg1)) slices_S2x800000_S1x800000_1_0) shapeCasts_S1x800000_S800000 : (⟨S800000, .i32⟩ : BufTy).Contents (Elt Ideal)) :=
  (after_below 193 ops2 (W2 m c) wf2 main_v3 (by decide)).trans (W2_dst m c)
theorem W4_src (c : Dev nD) : W4 m c (Proc.devRef .tc main_v1) = (shapeCast _ (extractStridedSlice S1x800000 ![0, 0] (m ((c.tc : Thread nD τ).loc main_arg1)) slices_S2x800000_S1x800000_0_0) shapeCasts_S1x800000_S800000 : (⟨S800000, .i32⟩ : BufTy).Contents (Elt Ideal)) :=
  (after_below 284 ops3 (W3 m c) wf3 main_v1 (by decide)).trans (W3_src m c)
theorem W4_dst (c : Dev nD) : W4 m c (Proc.devRef .tc main_v3) = (shapeCast _ (extractStridedSlice S1x800000 ![1, 0] (m ((c.tc : Thread nD τ).loc main_arg1)) slices_S2x800000_S1x800000_1_0) shapeCasts_S1x800000_S800000 : (⟨S800000, .i32⟩ : BufTy).Contents (Elt Ideal)) :=
  (after_below 284 ops3 (W3 m c) wf3 main_v3 (by decide)).trans (W3_dst m c)
theorem W5_src (c : Dev nD) : W5 m c (Proc.devRef .tc main_v1) = (shapeCast _ (extractStridedSlice S1x800000 ![0, 0] (m ((c.tc : Thread nD τ).loc main_arg1)) slices_S2x800000_S1x800000_0_0) shapeCasts_S1x800000_S800000 : (⟨S800000, .i32⟩ : BufTy).Contents (Elt Ideal)) :=
  (after_below 375 ops4 (W4 m c) wf4 main_v1 (by decide)).trans (W4_src m c)
theorem W5_dst (c : Dev nD) : W5 m c (Proc.devRef .tc main_v3) = (shapeCast _ (extractStridedSlice S1x800000 ![1, 0] (m ((c.tc : Thread nD τ).loc main_arg1)) slices_S2x800000_S1x800000_1_0) shapeCasts_S1x800000_S800000 : (⟨S800000, .i32⟩ : BufTy).Contents (Elt Ideal)) :=
  (after_below 375 ops4 (W4 m c) wf4 main_v3 (by decide)).trans (W4_dst m c)

/-! ## Each stretch's output -/

set_option maxHeartbeats 4000000 in
/-- Layer 0's output in the arguments' terms. -/
theorem out0 (c : Dev nD) : (W1 m c (Proc.devRef .tc main_v67) : (⟨S50000x64, .f32⟩ : BufTy).Contents (Elt Ideal)) = h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22)) := by
  show StableHlo.after ops0 (W0 m c) (Proc.devRef .tc main_v67) = _
  after_results_simp
  exact host_layer (M := 50000) (K := 128) (H := 128) (N := 64) (m ((c.tc : Thread nD τ).loc main_arg0)) (aggA (m ((c.tc : Thread nD τ).loc main_arg1)) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      (OG_0 (m ((c.tc : Thread nD τ).loc main_arg19))) (OB_0 (m ((c.tc : Thread nD τ).loc main_arg20))) (OM_0 (m ((c.tc : Thread nD τ).loc main_arg21))) (OV_0 (m ((c.tc : Thread nD τ).loc main_arg22)))
      ![1] rfl bcast_S128_S1x128_1 ![0, 1] (by decide) bcast_S1x128_S50000x128_0_1 ![] bcast_S_S128 ![] bcast_S_S50000x128
      ![1] rfl bcast_S64_S1x64_1 ![0, 1] (by decide) bcast_S1x64_S50000x64_0_1 ![] bcast_S_S64 ![] bcast_S_S50000x64

set_option maxHeartbeats 4000000 in
/-- Layer 1's output as the layer of layer 0's output. -/
theorem out1 (c : Dev nD) : (W2 m c (Proc.devRef .tc main_v147) : (⟨S50000x64, .f32⟩ : BufTy).Contents (Elt Ideal))
    = layer (M := 50000) (K := 64) (H := 128) (N := 64) (W1 m c (Proc.devRef .tc main_v67) : (⟨S50000x64, .f32⟩ : BufTy).Contents (Elt Ideal)) (aggB (m ((c.tc : Thread nD τ).loc main_arg1)) (W1 m c (Proc.devRef .tc main_v67) : (⟨S50000x64, .f32⟩ : BufTy).Contents (Elt Ideal)))
      (W1_0 (m ((c.tc : Thread nD τ).loc main_arg11))) (rowOf (B1_0 (m ((c.tc : Thread nD τ).loc main_arg12)))) (rowOf (IG_0 (m ((c.tc : Thread nD τ).loc main_arg13)))) (rowOf (IB_0 (m ((c.tc : Thread nD τ).loc main_arg14)))) (rowOf (IM_0 (m ((c.tc : Thread nD τ).loc main_arg15)))) (rowOf (IV_0 (m ((c.tc : Thread nD τ).loc main_arg16))))
      (W2_0 (m ((c.tc : Thread nD τ).loc main_arg17))) (rowOf (B2_0 (m ((c.tc : Thread nD τ).loc main_arg18)))) (rowOf (OG_1 (m ((c.tc : Thread nD τ).loc main_arg19)))) (rowOf (OB_1 (m ((c.tc : Thread nD τ).loc main_arg20)))) (rowOf (OM_1 (m ((c.tc : Thread nD τ).loc main_arg21)))) (rowOf (OV_1 (m ((c.tc : Thread nD τ).loc main_arg22)))) := by
  show StableHlo.after ops1 (W1 m c) (Proc.devRef .tc main_v147) = _
  after_results_simp
  simp only [W1_src m c, W1_dst m c, W1_low m c main_arg11 (by decide), W1_low m c main_arg12 (by decide), W1_low m c main_arg13 (by decide), W1_low m c main_arg14 (by decide), W1_low m c main_arg15 (by decide), W1_low m c main_arg16 (by decide), W1_low m c main_arg17 (by decide), W1_low m c main_arg18 (by decide), W1_low m c main_arg19 (by decide), W1_low m c main_arg20 (by decide), W1_low m c main_arg21 (by decide), W1_low m c main_arg22 (by decide)]
  exact host_layer (M := 50000) (K := 64) (H := 128) (N := 64) (W1 m c (Proc.devRef .tc main_v67) : (⟨S50000x64, .f32⟩ : BufTy).Contents (Elt Ideal)) (aggB (m ((c.tc : Thread nD τ).loc main_arg1)) (W1 m c (Proc.devRef .tc main_v67) : (⟨S50000x64, .f32⟩ : BufTy).Contents (Elt Ideal)))
      (W1_0 (m ((c.tc : Thread nD τ).loc main_arg11))) (B1_0 (m ((c.tc : Thread nD τ).loc main_arg12))) (IG_0 (m ((c.tc : Thread nD τ).loc main_arg13))) (IB_0 (m ((c.tc : Thread nD τ).loc main_arg14))) (IM_0 (m ((c.tc : Thread nD τ).loc main_arg15))) (IV_0 (m ((c.tc : Thread nD τ).loc main_arg16)))
      (W2_0 (m ((c.tc : Thread nD τ).loc main_arg17))) (B2_0 (m ((c.tc : Thread nD τ).loc main_arg18))) (OG_1 (m ((c.tc : Thread nD τ).loc main_arg19))) (OB_1 (m ((c.tc : Thread nD τ).loc main_arg20))) (OM_1 (m ((c.tc : Thread nD τ).loc main_arg21))) (OV_1 (m ((c.tc : Thread nD τ).loc main_arg22)))
      ![1] rfl bcast_S128_S1x128_1 ![0, 1] (by decide) bcast_S1x128_S50000x128_0_1 ![] bcast_S_S128 ![] bcast_S_S50000x128
      ![1] rfl bcast_S64_S1x64_1 ![0, 1] (by decide) bcast_S1x64_S50000x64_0_1 ![] bcast_S_S64 ![] bcast_S_S50000x64

set_option maxHeartbeats 4000000 in
/-- Layer 2's output as the layer of layer 1's output. -/
theorem out2 (c : Dev nD) : (W3 m c (Proc.devRef .tc main_v227) : (⟨S50000x64, .f32⟩ : BufTy).Contents (Elt Ideal))
    = layer (M := 50000) (K := 64) (H := 128) (N := 64) (W2 m c (Proc.devRef .tc main_v147) : (⟨S50000x64, .f32⟩ : BufTy).Contents (Elt Ideal)) (aggB (m ((c.tc : Thread nD τ).loc main_arg1)) (W2 m c (Proc.devRef .tc main_v147) : (⟨S50000x64, .f32⟩ : BufTy).Contents (Elt Ideal)))
      (W1_1 (m ((c.tc : Thread nD τ).loc main_arg11))) (rowOf (B1_1 (m ((c.tc : Thread nD τ).loc main_arg12)))) (rowOf (IG_1 (m ((c.tc : Thread nD τ).loc main_arg13)))) (rowOf (IB_1 (m ((c.tc : Thread nD τ).loc main_arg14)))) (rowOf (IM_1 (m ((c.tc : Thread nD τ).loc main_arg15)))) (rowOf (IV_1 (m ((c.tc : Thread nD τ).loc main_arg16))))
      (W2_1 (m ((c.tc : Thread nD τ).loc main_arg17))) (rowOf (B2_1 (m ((c.tc : Thread nD τ).loc main_arg18)))) (rowOf (OG_2 (m ((c.tc : Thread nD τ).loc main_arg19)))) (rowOf (OB_2 (m ((c.tc : Thread nD τ).loc main_arg20)))) (rowOf (OM_2 (m ((c.tc : Thread nD τ).loc main_arg21)))) (rowOf (OV_2 (m ((c.tc : Thread nD τ).loc main_arg22)))) := by
  show StableHlo.after ops2 (W2 m c) (Proc.devRef .tc main_v227) = _
  after_results_simp
  simp only [W2_src m c, W2_dst m c, W2_low m c main_arg11 (by decide), W2_low m c main_arg12 (by decide), W2_low m c main_arg13 (by decide), W2_low m c main_arg14 (by decide), W2_low m c main_arg15 (by decide), W2_low m c main_arg16 (by decide), W2_low m c main_arg17 (by decide), W2_low m c main_arg18 (by decide), W2_low m c main_arg19 (by decide), W2_low m c main_arg20 (by decide), W2_low m c main_arg21 (by decide), W2_low m c main_arg22 (by decide)]
  exact host_layer (M := 50000) (K := 64) (H := 128) (N := 64) (W2 m c (Proc.devRef .tc main_v147) : (⟨S50000x64, .f32⟩ : BufTy).Contents (Elt Ideal)) (aggB (m ((c.tc : Thread nD τ).loc main_arg1)) (W2 m c (Proc.devRef .tc main_v147) : (⟨S50000x64, .f32⟩ : BufTy).Contents (Elt Ideal)))
      (W1_1 (m ((c.tc : Thread nD τ).loc main_arg11))) (B1_1 (m ((c.tc : Thread nD τ).loc main_arg12))) (IG_1 (m ((c.tc : Thread nD τ).loc main_arg13))) (IB_1 (m ((c.tc : Thread nD τ).loc main_arg14))) (IM_1 (m ((c.tc : Thread nD τ).loc main_arg15))) (IV_1 (m ((c.tc : Thread nD τ).loc main_arg16)))
      (W2_1 (m ((c.tc : Thread nD τ).loc main_arg17))) (B2_1 (m ((c.tc : Thread nD τ).loc main_arg18))) (OG_2 (m ((c.tc : Thread nD τ).loc main_arg19))) (OB_2 (m ((c.tc : Thread nD τ).loc main_arg20))) (OM_2 (m ((c.tc : Thread nD τ).loc main_arg21))) (OV_2 (m ((c.tc : Thread nD τ).loc main_arg22)))
      ![1] rfl bcast_S128_S1x128_1 ![0, 1] (by decide) bcast_S1x128_S50000x128_0_1 ![] bcast_S_S128 ![] bcast_S_S50000x128
      ![1] rfl bcast_S64_S1x64_1 ![0, 1] (by decide) bcast_S1x64_S50000x64_0_1 ![] bcast_S_S64 ![] bcast_S_S50000x64

set_option maxHeartbeats 4000000 in
/-- Layer 3's output as the layer of layer 2's output. -/
theorem out3 (c : Dev nD) : (W4 m c (Proc.devRef .tc main_v307) : (⟨S50000x64, .f32⟩ : BufTy).Contents (Elt Ideal))
    = layer (M := 50000) (K := 64) (H := 128) (N := 64) (W3 m c (Proc.devRef .tc main_v227) : (⟨S50000x64, .f32⟩ : BufTy).Contents (Elt Ideal)) (aggB (m ((c.tc : Thread nD τ).loc main_arg1)) (W3 m c (Proc.devRef .tc main_v227) : (⟨S50000x64, .f32⟩ : BufTy).Contents (Elt Ideal)))
      (W1_2 (m ((c.tc : Thread nD τ).loc main_arg11))) (rowOf (B1_2 (m ((c.tc : Thread nD τ).loc main_arg12)))) (rowOf (IG_2 (m ((c.tc : Thread nD τ).loc main_arg13)))) (rowOf (IB_2 (m ((c.tc : Thread nD τ).loc main_arg14)))) (rowOf (IM_2 (m ((c.tc : Thread nD τ).loc main_arg15)))) (rowOf (IV_2 (m ((c.tc : Thread nD τ).loc main_arg16))))
      (W2_2 (m ((c.tc : Thread nD τ).loc main_arg17))) (rowOf (B2_2 (m ((c.tc : Thread nD τ).loc main_arg18)))) (rowOf (OG_3 (m ((c.tc : Thread nD τ).loc main_arg19)))) (rowOf (OB_3 (m ((c.tc : Thread nD τ).loc main_arg20)))) (rowOf (OM_3 (m ((c.tc : Thread nD τ).loc main_arg21)))) (rowOf (OV_3 (m ((c.tc : Thread nD τ).loc main_arg22)))) := by
  show StableHlo.after ops3 (W3 m c) (Proc.devRef .tc main_v307) = _
  after_results_simp
  simp only [W3_src m c, W3_dst m c, W3_low m c main_arg11 (by decide), W3_low m c main_arg12 (by decide), W3_low m c main_arg13 (by decide), W3_low m c main_arg14 (by decide), W3_low m c main_arg15 (by decide), W3_low m c main_arg16 (by decide), W3_low m c main_arg17 (by decide), W3_low m c main_arg18 (by decide), W3_low m c main_arg19 (by decide), W3_low m c main_arg20 (by decide), W3_low m c main_arg21 (by decide), W3_low m c main_arg22 (by decide)]
  exact host_layer (M := 50000) (K := 64) (H := 128) (N := 64) (W3 m c (Proc.devRef .tc main_v227) : (⟨S50000x64, .f32⟩ : BufTy).Contents (Elt Ideal)) (aggB (m ((c.tc : Thread nD τ).loc main_arg1)) (W3 m c (Proc.devRef .tc main_v227) : (⟨S50000x64, .f32⟩ : BufTy).Contents (Elt Ideal)))
      (W1_2 (m ((c.tc : Thread nD τ).loc main_arg11))) (B1_2 (m ((c.tc : Thread nD τ).loc main_arg12))) (IG_2 (m ((c.tc : Thread nD τ).loc main_arg13))) (IB_2 (m ((c.tc : Thread nD τ).loc main_arg14))) (IM_2 (m ((c.tc : Thread nD τ).loc main_arg15))) (IV_2 (m ((c.tc : Thread nD τ).loc main_arg16)))
      (W2_2 (m ((c.tc : Thread nD τ).loc main_arg17))) (B2_2 (m ((c.tc : Thread nD τ).loc main_arg18))) (OG_3 (m ((c.tc : Thread nD τ).loc main_arg19))) (OB_3 (m ((c.tc : Thread nD τ).loc main_arg20))) (OM_3 (m ((c.tc : Thread nD τ).loc main_arg21))) (OV_3 (m ((c.tc : Thread nD τ).loc main_arg22)))
      ![1] rfl bcast_S128_S1x128_1 ![0, 1] (by decide) bcast_S1x128_S50000x128_0_1 ![] bcast_S_S128 ![] bcast_S_S50000x128
      ![1] rfl bcast_S64_S1x64_1 ![0, 1] (by decide) bcast_S1x64_S50000x64_0_1 ![] bcast_S_S64 ![] bcast_S_S50000x64

set_option maxHeartbeats 4000000 in
/-- Layer 4's output as the layer of layer 3's output. -/
theorem out4 (c : Dev nD) : (W5 m c (Proc.devRef .tc main_v387) : (⟨S50000x64, .f32⟩ : BufTy).Contents (Elt Ideal))
    = layer (M := 50000) (K := 64) (H := 128) (N := 64) (W4 m c (Proc.devRef .tc main_v307) : (⟨S50000x64, .f32⟩ : BufTy).Contents (Elt Ideal)) (aggB (m ((c.tc : Thread nD τ).loc main_arg1)) (W4 m c (Proc.devRef .tc main_v307) : (⟨S50000x64, .f32⟩ : BufTy).Contents (Elt Ideal)))
      (W1_3 (m ((c.tc : Thread nD τ).loc main_arg11))) (rowOf (B1_3 (m ((c.tc : Thread nD τ).loc main_arg12)))) (rowOf (IG_3 (m ((c.tc : Thread nD τ).loc main_arg13)))) (rowOf (IB_3 (m ((c.tc : Thread nD τ).loc main_arg14)))) (rowOf (IM_3 (m ((c.tc : Thread nD τ).loc main_arg15)))) (rowOf (IV_3 (m ((c.tc : Thread nD τ).loc main_arg16))))
      (W2_3 (m ((c.tc : Thread nD τ).loc main_arg17))) (rowOf (B2_3 (m ((c.tc : Thread nD τ).loc main_arg18)))) (rowOf (OG_4 (m ((c.tc : Thread nD τ).loc main_arg19)))) (rowOf (OB_4 (m ((c.tc : Thread nD τ).loc main_arg20)))) (rowOf (OM_4 (m ((c.tc : Thread nD τ).loc main_arg21)))) (rowOf (OV_4 (m ((c.tc : Thread nD τ).loc main_arg22)))) := by
  show StableHlo.after ops4 (W4 m c) (Proc.devRef .tc main_v387) = _
  after_results_simp
  simp only [W4_src m c, W4_dst m c, W4_low m c main_arg11 (by decide), W4_low m c main_arg12 (by decide), W4_low m c main_arg13 (by decide), W4_low m c main_arg14 (by decide), W4_low m c main_arg15 (by decide), W4_low m c main_arg16 (by decide), W4_low m c main_arg17 (by decide), W4_low m c main_arg18 (by decide), W4_low m c main_arg19 (by decide), W4_low m c main_arg20 (by decide), W4_low m c main_arg21 (by decide), W4_low m c main_arg22 (by decide)]
  exact host_layer (M := 50000) (K := 64) (H := 128) (N := 64) (W4 m c (Proc.devRef .tc main_v307) : (⟨S50000x64, .f32⟩ : BufTy).Contents (Elt Ideal)) (aggB (m ((c.tc : Thread nD τ).loc main_arg1)) (W4 m c (Proc.devRef .tc main_v307) : (⟨S50000x64, .f32⟩ : BufTy).Contents (Elt Ideal)))
      (W1_3 (m ((c.tc : Thread nD τ).loc main_arg11))) (B1_3 (m ((c.tc : Thread nD τ).loc main_arg12))) (IG_3 (m ((c.tc : Thread nD τ).loc main_arg13))) (IB_3 (m ((c.tc : Thread nD τ).loc main_arg14))) (IM_3 (m ((c.tc : Thread nD τ).loc main_arg15))) (IV_3 (m ((c.tc : Thread nD τ).loc main_arg16)))
      (W2_3 (m ((c.tc : Thread nD τ).loc main_arg17))) (B2_3 (m ((c.tc : Thread nD τ).loc main_arg18))) (OG_4 (m ((c.tc : Thread nD τ).loc main_arg19))) (OB_4 (m ((c.tc : Thread nD τ).loc main_arg20))) (OM_4 (m ((c.tc : Thread nD τ).loc main_arg21))) (OV_4 (m ((c.tc : Thread nD τ).loc main_arg22)))
      ![1] rfl bcast_S128_S1x128_1 ![0, 1] (by decide) bcast_S1x128_S50000x128_0_1 ![] bcast_S_S128 ![] bcast_S_S50000x128
      ![1] rfl bcast_S64_S1x64_1 ![0, 1] (by decide) bcast_S1x64_S50000x64_0_1 ![] bcast_S_S64 ![] bcast_S_S50000x64

/-- The result buffer as the pooling of layer 4's output. -/
theorem out5 (c : Dev nD) : (W6 m c (Proc.devRef .tc main_v399) : (⟨S128x64, .f32⟩ : BufTy).Contents (Elt Ideal)) = pool (m ((c.tc : Thread nD τ).loc main_arg2)) (W5 m c (Proc.devRef .tc main_v387) : (⟨S50000x64, .f32⟩ : BufTy).Contents (Elt Ideal)) := by
  show StableHlo.after ops5 (W5 m c) (Proc.devRef .tc main_v399) = _
  after_results_simp
  simp only [W5_low m c main_arg2 (by decide)]
  rfl

/-! ## The layers chained -/

theorem W1_h (c : Dev nD) : (W1 m c (Proc.devRef .tc main_v67) : (⟨S50000x64, .f32⟩ : BufTy).Contents (Elt Ideal)) = h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22)) := out0 m c
theorem W2_h (c : Dev nD) : (W2 m c (Proc.devRef .tc main_v147) : (⟨S50000x64, .f32⟩ : BufTy).Contents (Elt Ideal)) = h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (out1 m c).trans (congrArg (fun h : S50000x64.Idx → EReal => layer (M := 50000) (K := 64) (H := 128) (N := 64) h (aggB (m ((c.tc : Thread nD τ).loc main_arg1)) h)
      (W1_0 (m ((c.tc : Thread nD τ).loc main_arg11))) (rowOf (B1_0 (m ((c.tc : Thread nD τ).loc main_arg12)))) (rowOf (IG_0 (m ((c.tc : Thread nD τ).loc main_arg13)))) (rowOf (IB_0 (m ((c.tc : Thread nD τ).loc main_arg14)))) (rowOf (IM_0 (m ((c.tc : Thread nD τ).loc main_arg15)))) (rowOf (IV_0 (m ((c.tc : Thread nD τ).loc main_arg16))))
      (W2_0 (m ((c.tc : Thread nD τ).loc main_arg17))) (rowOf (B2_0 (m ((c.tc : Thread nD τ).loc main_arg18)))) (rowOf (OG_1 (m ((c.tc : Thread nD τ).loc main_arg19)))) (rowOf (OB_1 (m ((c.tc : Thread nD τ).loc main_arg20)))) (rowOf (OM_1 (m ((c.tc : Thread nD τ).loc main_arg21)))) (rowOf (OV_1 (m ((c.tc : Thread nD τ).loc main_arg22))))) (W1_h m c))
theorem W3_h (c : Dev nD) : (W3 m c (Proc.devRef .tc main_v227) : (⟨S50000x64, .f32⟩ : BufTy).Contents (Elt Ideal)) = h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (out2 m c).trans (congrArg (fun h : S50000x64.Idx → EReal => layer (M := 50000) (K := 64) (H := 128) (N := 64) h (aggB (m ((c.tc : Thread nD τ).loc main_arg1)) h)
      (W1_1 (m ((c.tc : Thread nD τ).loc main_arg11))) (rowOf (B1_1 (m ((c.tc : Thread nD τ).loc main_arg12)))) (rowOf (IG_1 (m ((c.tc : Thread nD τ).loc main_arg13)))) (rowOf (IB_1 (m ((c.tc : Thread nD τ).loc main_arg14)))) (rowOf (IM_1 (m ((c.tc : Thread nD τ).loc main_arg15)))) (rowOf (IV_1 (m ((c.tc : Thread nD τ).loc main_arg16))))
      (W2_1 (m ((c.tc : Thread nD τ).loc main_arg17))) (rowOf (B2_1 (m ((c.tc : Thread nD τ).loc main_arg18)))) (rowOf (OG_2 (m ((c.tc : Thread nD τ).loc main_arg19)))) (rowOf (OB_2 (m ((c.tc : Thread nD τ).loc main_arg20)))) (rowOf (OM_2 (m ((c.tc : Thread nD τ).loc main_arg21)))) (rowOf (OV_2 (m ((c.tc : Thread nD τ).loc main_arg22))))) (W2_h m c))
theorem W4_h (c : Dev nD) : (W4 m c (Proc.devRef .tc main_v307) : (⟨S50000x64, .f32⟩ : BufTy).Contents (Elt Ideal)) = h4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (out3 m c).trans (congrArg (fun h : S50000x64.Idx → EReal => layer (M := 50000) (K := 64) (H := 128) (N := 64) h (aggB (m ((c.tc : Thread nD τ).loc main_arg1)) h)
      (W1_2 (m ((c.tc : Thread nD τ).loc main_arg11))) (rowOf (B1_2 (m ((c.tc : Thread nD τ).loc main_arg12)))) (rowOf (IG_2 (m ((c.tc : Thread nD τ).loc main_arg13)))) (rowOf (IB_2 (m ((c.tc : Thread nD τ).loc main_arg14)))) (rowOf (IM_2 (m ((c.tc : Thread nD τ).loc main_arg15)))) (rowOf (IV_2 (m ((c.tc : Thread nD τ).loc main_arg16))))
      (W2_2 (m ((c.tc : Thread nD τ).loc main_arg17))) (rowOf (B2_2 (m ((c.tc : Thread nD τ).loc main_arg18)))) (rowOf (OG_3 (m ((c.tc : Thread nD τ).loc main_arg19)))) (rowOf (OB_3 (m ((c.tc : Thread nD τ).loc main_arg20)))) (rowOf (OM_3 (m ((c.tc : Thread nD τ).loc main_arg21)))) (rowOf (OV_3 (m ((c.tc : Thread nD τ).loc main_arg22))))) (W3_h m c))
theorem W5_h (c : Dev nD) : (W5 m c (Proc.devRef .tc main_v387) : (⟨S50000x64, .f32⟩ : BufTy).Contents (Elt Ideal)) = h5 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (out4 m c).trans (congrArg (fun h : S50000x64.Idx → EReal => layer (M := 50000) (K := 64) (H := 128) (N := 64) h (aggB (m ((c.tc : Thread nD τ).loc main_arg1)) h)
      (W1_3 (m ((c.tc : Thread nD τ).loc main_arg11))) (rowOf (B1_3 (m ((c.tc : Thread nD τ).loc main_arg12)))) (rowOf (IG_3 (m ((c.tc : Thread nD τ).loc main_arg13)))) (rowOf (IB_3 (m ((c.tc : Thread nD τ).loc main_arg14)))) (rowOf (IM_3 (m ((c.tc : Thread nD τ).loc main_arg15)))) (rowOf (IV_3 (m ((c.tc : Thread nD τ).loc main_arg16))))
      (W2_3 (m ((c.tc : Thread nD τ).loc main_arg17))) (rowOf (B2_3 (m ((c.tc : Thread nD τ).loc main_arg18)))) (rowOf (OG_4 (m ((c.tc : Thread nD τ).loc main_arg19)))) (rowOf (OB_4 (m ((c.tc : Thread nD τ).loc main_arg20)))) (rowOf (OM_4 (m ((c.tc : Thread nD τ).loc main_arg21)))) (rowOf (OV_4 (m ((c.tc : Thread nD τ).loc main_arg22))))) (W4_h m c))

/-- The result buffer after the whole line: the network of the argument arrays. -/
theorem W6_res (c : Dev nD) : (W6 m c (Proc.devRef .tc main_v399) : (⟨S128x64, .f32⟩ : BufTy).Contents (Elt Ideal)) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (out5 m c).trans (congrArg (pool (m ((c.tc : Thread nD τ).loc main_arg2))) (W5_h m c))

/-! ## The run -/

set_option maxRecDepth 8192 in
/-- On every device, from any memory with zero counters: every weakly fair execution of @main terminates with the result
    buffer at the network of the arguments' launch contents and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v399) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v399).trans ((congrFun (after_ops m c) _).trans (W6_res m c)),
      (h c main_arg0).trans ((congrFun (after_ops m c) _).trans (W6_low m c main_arg0 (by decide))),
      (h c main_arg1).trans ((congrFun (after_ops m c) _).trans (W6_low m c main_arg1 (by decide))),
      (h c main_arg2).trans ((congrFun (after_ops m c) _).trans (W6_low m c main_arg2 (by decide))),
      (h c main_arg3).trans ((congrFun (after_ops m c) _).trans (W6_low m c main_arg3 (by decide))),
      (h c main_arg4).trans ((congrFun (after_ops m c) _).trans (W6_low m c main_arg4 (by decide))),
      (h c main_arg5).trans ((congrFun (after_ops m c) _).trans (W6_low m c main_arg5 (by decide))),
      (h c main_arg6).trans ((congrFun (after_ops m c) _).trans (W6_low m c main_arg6 (by decide))),
      (h c main_arg7).trans ((congrFun (after_ops m c) _).trans (W6_low m c main_arg7 (by decide))),
      (h c main_arg8).trans ((congrFun (after_ops m c) _).trans (W6_low m c main_arg8 (by decide))),
      (h c main_arg9).trans ((congrFun (after_ops m c) _).trans (W6_low m c main_arg9 (by decide))),
      (h c main_arg10).trans ((congrFun (after_ops m c) _).trans (W6_low m c main_arg10 (by decide))),
      (h c main_arg11).trans ((congrFun (after_ops m c) _).trans (W6_low m c main_arg11 (by decide))),
      (h c main_arg12).trans ((congrFun (after_ops m c) _).trans (W6_low m c main_arg12 (by decide))),
      (h c main_arg13).trans ((congrFun (after_ops m c) _).trans (W6_low m c main_arg13 (by decide))),
      (h c main_arg14).trans ((congrFun (after_ops m c) _).trans (W6_low m c main_arg14 (by decide))),
      (h c main_arg15).trans ((congrFun (after_ops m c) _).trans (W6_low m c main_arg15 (by decide))),
      (h c main_arg16).trans ((congrFun (after_ops m c) _).trans (W6_low m c main_arg16 (by decide))),
      (h c main_arg17).trans ((congrFun (after_ops m c) _).trans (W6_low m c main_arg17 (by decide))),
      (h c main_arg18).trans ((congrFun (after_ops m c) _).trans (W6_low m c main_arg18 (by decide))),
      (h c main_arg19).trans ((congrFun (after_ops m c) _).trans (W6_low m c main_arg19 (by decide))),
      (h c main_arg20).trans ((congrFun (after_ops m c) _).trans (W6_low m c main_arg20 (by decide))),
      (h c main_arg21).trans ((congrFun (after_ops m c) _).trans (W6_low m c main_arg21 (by decide))),
      (h c main_arg22).trans ((congrFun (after_ops m c) _).trans (W6_low m c main_arg22 (by decide)))⟩)
    (run_seq scopedRefs_eq scopedSems_eq defs main (fun _ => ops) main_eq (fun _ => ops_sub) m ρ (fun _ => ops_fresh))

end Cert.ReferenceIdeal.RefValue

end
-- ==== Proof.Bridge.lean ====
/-
  The two networks are one function of the argument arrays.

  The idealized kernel's network and the reference's are the same five layers over the same aggregation,
  the same parameter slices and the same pooling: the host operations are the same terms on both sides
  (the two programs print them with their own copies of the shapes and dimension records, which unfold
  to the same literals), the kernel's parameter rows are its vectors reshaped to [1, N] and the
  reference's the same vectors laid out as rows.  Layer by layer the features agree, hence the results.
-/
import proofs.«120131_j65111704207433_2_alg».proof.Proof.NetDefs
import proofs.«120131_j65111704207433_2_alg».proof.Proof.RefNet

set_option maxRecDepth 16384

noncomputable section

namespace Cert.Bridge

open Cert.KernelIdeal Cert.GinLayer Idealize.ShloMosaic

variable (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S4x64x128, .f32⟩ : BufTy).Contents (Elt Ideal)) (a12 : (⟨S4x128, .f32⟩ : BufTy).Contents (Elt Ideal)) (a13 : (⟨S4x128, .f32⟩ : BufTy).Contents (Elt Ideal)) (a14 : (⟨S4x128, .f32⟩ : BufTy).Contents (Elt Ideal)) (a15 : (⟨S4x128, .f32⟩ : BufTy).Contents (Elt Ideal)) (a16 : (⟨S4x128, .f32⟩ : BufTy).Contents (Elt Ideal)) (a17 : (⟨S4x128x64, .f32⟩ : BufTy).Contents (Elt Ideal)) (a18 : (⟨S4x64, .f32⟩ : BufTy).Contents (Elt Ideal)) (a19 : (⟨S5x64, .f32⟩ : BufTy).Contents (Elt Ideal)) (a20 : (⟨S5x64, .f32⟩ : BufTy).Contents (Elt Ideal)) (a21 : (⟨S5x64, .f32⟩ : BufTy).Contents (Elt Ideal)) (a22 : (⟨S5x64, .f32⟩ : BufTy).Contents (Elt Ideal))

/-- The first layer's features. -/
theorem feat1 : Cert.ReferenceIdeal.RefValue.h1 a0 a1 a3 a4 a5 a6 a7 a8 a9 a10 a19 a20 a21 a22 = Cert.KernelIdeal.KV.H1 a0 a1 a2 a3 a4 a5 a6 a7 a8 a9 a10 a11 a12 a13 a14 a15 a16 a17 a18 a19 a20 a21 a22 := by
  unfold Cert.ReferenceIdeal.RefValue.h1 Cert.KernelIdeal.KV.H1
  simp only [Cert.KernelIdeal.KV.shapeCast_rowOf]
  rfl

/-- The features after layer 2. -/
theorem feat2 : Cert.ReferenceIdeal.RefValue.h2 a0 a1 a3 a4 a5 a6 a7 a8 a9 a10 a11 a12 a13 a14 a15 a16 a17 a18 a19 a20 a21 a22 = Cert.KernelIdeal.KV.H2 a0 a1 a2 a3 a4 a5 a6 a7 a8 a9 a10 a11 a12 a13 a14 a15 a16 a17 a18 a19 a20 a21 a22 := by
  unfold Cert.ReferenceIdeal.RefValue.h2 Cert.KernelIdeal.KV.H2
  rw [feat1]
  simp only [Cert.KernelIdeal.KV.shapeCast_rowOf]
  rfl

/-- The features after layer 3. -/
theorem feat3 : Cert.ReferenceIdeal.RefValue.h3 a0 a1 a3 a4 a5 a6 a7 a8 a9 a10 a11 a12 a13 a14 a15 a16 a17 a18 a19 a20 a21 a22 = Cert.KernelIdeal.KV.H3 a0 a1 a2 a3 a4 a5 a6 a7 a8 a9 a10 a11 a12 a13 a14 a15 a16 a17 a18 a19 a20 a21 a22 := by
  unfold Cert.ReferenceIdeal.RefValue.h3 Cert.KernelIdeal.KV.H3
  rw [feat2]
  simp only [Cert.KernelIdeal.KV.shapeCast_rowOf]
  rfl

/-- The features after layer 4. -/
theorem feat4 : Cert.ReferenceIdeal.RefValue.h4 a0 a1 a3 a4 a5 a6 a7 a8 a9 a10 a11 a12 a13 a14 a15 a16 a17 a18 a19 a20 a21 a22 = Cert.KernelIdeal.KV.H4 a0 a1 a2 a3 a4 a5 a6 a7 a8 a9 a10 a11 a12 a13 a14 a15 a16 a17 a18 a19 a20 a21 a22 := by
  unfold Cert.ReferenceIdeal.RefValue.h4 Cert.KernelIdeal.KV.H4
  rw [feat3]
  simp only [Cert.KernelIdeal.KV.shapeCast_rowOf]
  rfl

/-- The features after layer 5. -/
theorem feat5 : Cert.ReferenceIdeal.RefValue.h5 a0 a1 a3 a4 a5 a6 a7 a8 a9 a10 a11 a12 a13 a14 a15 a16 a17 a18 a19 a20 a21 a22 = Cert.KernelIdeal.KV.H5 a0 a1 a2 a3 a4 a5 a6 a7 a8 a9 a10 a11 a12 a13 a14 a15 a16 a17 a18 a19 a20 a21 a22 := by
  unfold Cert.ReferenceIdeal.RefValue.h5 Cert.KernelIdeal.KV.H5
  rw [feat4]
  simp only [Cert.KernelIdeal.KV.shapeCast_rowOf]
  rfl

/-- The results. -/
theorem net_eq : Cert.ReferenceIdeal.RefValue.refNet a0 a1 a2 a3 a4 a5 a6 a7 a8 a9 a10 a11 a12 a13 a14 a15 a16 a17 a18 a19 a20 a21 a22 = Cert.KernelIdeal.KV.kerNet a0 a1 a2 a3 a4 a5 a6 a7 a8 a9 a10 a11 a12 a13 a14 a15 a16 a17 a18 a19 a20 a21 a22 := by
  unfold Cert.ReferenceIdeal.RefValue.refNet Cert.KernelIdeal.KV.kerNet
  rw [feat5]
  rfl

end Cert.Bridge

end
-- ==== Proof.lean ====
/-
  Kernel against reference for a five-layer graph isomorphism network with mean pooling, over the
  extended reals.

  Both programs compute, for 50000 nodes and 800000 edges: five times, the sum of each node's neighbours'
  feature rows (a gather along the edge list and a scatter-add), then a layer
      relu( bn( relu( bn( (x + agg) · W₁ + b₁ ) ) · W₂ + b₂ ) ),   bn(v) = (v − μ) · rsqrt(σ² + ε) · γ + β,
  and at the end the mean of the node features over each graph.  The kernel runs each layer as a
  pipelined region over ten blocks of 5000 nodes, with bf16 matrix-unit products into zero accumulators
  and the parameter vectors staged as [1, N] rows; the reference runs it on whole arrays with host dot
  products and vectors broadcast twice.  Over the extended reals a change of float format is the identity
  and both products are the plain sum, a layer's entry reads only its own node's rows, and the host
  operations around the layers are the same on both sides: the two results are one function of the
  arguments (`Cert.Bridge.net_eq`).  No law used needs finite inputs.

  The frames of the two kernel programs are the generated ones; the reference's frame is its run with
  the result dropped; nothing was rewritten by the idealization, so `preserves` is trivial.
  The kernel's value is read off the generated frame's proof data region by region (Final0–4, Stage0–4,
  KernelNet); the reference is run stretch by stretch, one layer at a time (RefOps, RefNet, RefRun).
-/
import proofs.«120131_j65111704207433_2_alg».proof.Defs
import proofs.«120131_j65111704207433_2_alg».proof.Proof.Gen.Kernel
import proofs.«120131_j65111704207433_2_alg».proof.Proof.Gen.Kernel.Skeleton
import proofs.«120131_j65111704207433_2_alg».proof.Proof.Gen.Kernel.Launch
import proofs.«120131_j65111704207433_2_alg».proof.Proof.Gen.Kernel.Points
import proofs.«120131_j65111704207433_2_alg».proof.Proof.Gen.Kernel.Frame
import proofs.«120131_j65111704207433_2_alg».proof.Proof.Gen.KernelIdeal
import proofs.«120131_j65111704207433_2_alg».proof.Proof.Gen.KernelIdeal.Skeleton
import proofs.«120131_j65111704207433_2_alg».proof.Proof.Gen.KernelIdeal.Launch
import proofs.«120131_j65111704207433_2_alg».proof.Proof.Gen.KernelIdeal.Points
import proofs.«120131_j65111704207433_2_alg».proof.Proof.Gen.KernelIdeal.Frame
import proofs.«120131_j65111704207433_2_alg».proof.Proof.Gen.ReferenceIdeal
import proofs.«120131_j65111704207433_2_alg».proof.Proof.Gen.Pre_finite_inputs
import proofs.«120131_j65111704207433_2_alg».proof.Proof.KernelNet
import proofs.«120131_j65111704207433_2_alg».proof.Proof.RefRun
import proofs.«120131_j65111704207433_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- From memories agreeing on the arguments both idealized programs end with the network of the arguments in
    their result buffers. -/
theorem algebraic : Cert.algebraic_KernelIdeal_ReferenceIdeal := by
  intro m ρ m' ρ' _ hagree
  refine ⟨_, Cert.KernelIdeal.KV.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact Cert.Bridge.net_eq _ _ _ _ _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
